-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x128x128 : Shape := ⟨4, ![4, 128, 128, 128]⟩
abbrev S4x128x21 : Shape := ⟨3, ![4, 128, 21]⟩
abbrev S_ : Shape := ⟨0, ![]⟩

class Facts : Prop where
  bcast_S_S4x128x128x128 : S_.BroadcastsInDim S4x128x128x128 (![] : Fin 0 → Fin S4x128x128x128.rank)
  reducesTo_S4x128x128x128_S_d0_1_2_3 : S4x128x128x128.ReducesTo [0, 1, 2, 3] S_
  h_S_ : 0 < S_.numel
  bcast_S_S4x128x21 : S_.BroadcastsInDim S4x128x21 (![] : Fin 0 → Fin S4x128x21.rank)
  reducesTo_S4x128x21_S_d0_1_2 : S4x128x21.ReducesTo [0, 1, 2] S_

variable [Facts]

def fn {F : FTy → Type} [FloatOps F] (main_arg0 : FVec F S4x128x128x128 .f32) (main_arg1 : FVec F S4x128x21 .f32) : IVec S_ 1 :=
  let main_v0 : FVec F S4x128x128x128 .f32 := Host.absf main_arg0
  let main_cst : FVec F S_ .f32 := constant S_ .f32 0x7F800000#32
  let main_v1 : FVec F S4x128x128x128 .f32 := broadcastInDim S4x128x128x128 ![] bcast_S_S4x128x128x128 main_cst
  let main_v2 : IVec S4x128x128x128 1 := cmpf .olt main_v0 main_v1
  let main_c : IVec S_ 1 := constantI S_ 1 1#1
  let main_v3 : IVec S_ 1 := (fun x v => Host.reduce IntOp.andi x v reducesTo_S4x128x128x128_S_d0_1_2_3 h_S_) main_v2 main_c
  let main_v4 : FVec F S4x128x21 .f32 := Host.absf main_arg1
  let main_cst_0 : FVec F S_ .f32 := constant S_ .f32 0x7F800000#32
  let main_v5 : FVec F S4x128x21 .f32 := broadcastInDim S4x128x21 ![] bcast_S_S4x128x21 main_cst_0
  let main_v6 : IVec S4x128x21 1 := cmpf .olt main_v4 main_v5
  let main_c_1 : IVec S_ 1 := constantI S_ 1 1#1
  let main_v7 : IVec S_ 1 := (fun x v => Host.reduce IntOp.andi x v reducesTo_S4x128x21_S_d0_1_2 h_S_) main_v6 main_c_1
  let main_v8 : IVec S_ 1 := andi main_v3 main_v7
  main_v8
-- ==== Kernel.lean ====
abbrev S4x128x128x128 : Shape := ⟨4, ![4, 128, 128, 128]⟩
abbrev S4x128x21 : Shape := ⟨3, ![4, 128, 21]⟩
abbrev S1x128x64x128 : Shape := ⟨4, ![1, 128, 64, 128]⟩
abbrev S1x128x21 : Shape := ⟨3, ![1, 128, 21]⟩
abbrev S148x64x128 : Shape := ⟨3, ![148, 64, 128]⟩
abbrev S10x64x128 : Shape := ⟨3, ![10, 64, 128]⟩
abbrev S128x64x128 : Shape := ⟨3, ![128, 64, 128]⟩
abbrev S128x21 : Shape := ⟨2, ![128, 21]⟩
abbrev S128 : Shape := ⟨1, ![128]⟩
abbrev S128x1 : Shape := ⟨2, ![128, 1]⟩
abbrev S128x1x1 : Shape := ⟨3, ![128, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4x128x128x128, .f32⟩
  | .hbm, ⟨1, _⟩ => ⟨S4x128x21, .f32⟩
  | .hbm, ⟨2, _⟩ => ⟨S4x128x128x128, .f32⟩
  | .local _ .vmem, ⟨0, _⟩ => ⟨S1x128x64x128, .f32⟩
  | .local _ .vmem, ⟨1, _⟩ => ⟨S1x128x64x128, .f32⟩
  | .local _ .vmem, ⟨2, _⟩ => ⟨S1x128x21, .f32⟩
  | .local _ .vmem, ⟨3, _⟩ => ⟨S1x128x21, .f32⟩
  | .local _ .vmem, ⟨4, _⟩ => ⟨S1x128x64x128, .f32⟩
  | .local _ .vmem, ⟨5, _⟩ => ⟨S1x128x64x128, .f32⟩
  | .local _ .vmem, ⟨6, _⟩ => ⟨S148x64x128, .f32⟩
  | _, _ => ⟨S4x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x21 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S148x64x128_S10x64x128_0_0_0 : ∀ a, (![0, 0, 0] : Fin 3 → Nat) a + S10x64x128.size a ≤ S148x64x128.size a
  h_S10x64x128 : 0 < S10x64x128.numel
  shapeCasts_S10x64x128_S10x64x128 : S10x64x128.ShapeCasts S10x64x128
  inb_S148x64x128_S10x64x128_138_0_0 : ∀ a, (![138, 0, 0] : Fin 3 → Nat) a + S10x64x128.size a ≤ S148x64x128.size a
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  inb_S148x64x128_S128x64x128_10_0_0 : ∀ a, (![10, 0, 0] : Fin 3 → Nat) a + S128x64x128.size a ≤ S148x64x128.size a
  h_S128x64x128 : 0 < S128x64x128.numel
  shapeCasts_S128x64x128_S128x64x128 : S128x64x128.ShapeCasts S128x64x128
  inb_S1x128x21_S1x128x21_0_0_0 : ∀ a, (![0, 0, 0] : Fin 3 → Nat) a + S1x128x21.size a ≤ S1x128x21.size a
  h_S1x128x21 : 0 < S1x128x21.numel
  shapeCasts_S1x128x21_S128x21 : S1x128x21.ShapeCasts S128x21
  reduces_S128x21_S128 : S128x21.Reduces [1] S128
  shapeCasts_S128_S128x1 : S128.ShapeCasts S128x1
  broadcasts_S128x1_S128x21 : S128x1.Broadcasts S128x21
  slices_S128x21_o0_0_S128x1 : S128x21.Slices ![0, 0] S128x1
  shapeCasts_S128x1_S128 : S128x1.ShapeCasts S128
  shapeCasts_S128_S128x1x1 : S128.ShapeCasts S128x1x1
  inb_S148x64x128_S128x64x128_0_0_0 : ∀ a, (![0, 0, 0] : Fin 3 → Nat) a + S128x64x128.size a ≤ S148x64x128.size a
  broadcasts_S128x1x1_S128x64x128 : S128x1x1.Broadcasts S128x64x128
  shapeCasts_S128x64x128_S1x128x64x128 : S128x64x128.ShapeCasts S1x128x64x128
  slices_S128x21_o0_1_S128x1 : S128x21.Slices ![0, 1] S128x1
  inb_S148x64x128_S128x64x128_1_0_0 : ∀ a, (![1, 0, 0] : Fin 3 → Nat) a + S128x64x128.size a ≤ S148x64x128.size a
  slices_S128x21_o0_2_S128x1 : S128x21.Slices ![0, 2] S128x1
  inb_S148x64x128_S128x64x128_2_0_0 : ∀ a, (![2, 0, 0] : Fin 3 → Nat) a + S128x64x128.size a ≤ S148x64x128.size a
  slices_S128x21_o0_3_S128x1 : S128x21.Slices ![0, 3] S128x1
  inb_S148x64x128_S128x64x128_3_0_0 : ∀ a, (![3, 0, 0] : Fin 3 → Nat) a + S128x64x128.size a ≤ S148x64x128.size a
  slices_S128x21_o0_4_S128x1 : S128x21.Slices ![0, 4] S128x1
  inb_S148x64x128_S128x64x128_4_0_0 : ∀ a, (![4, 0, 0] : Fin 3 → Nat) a + S128x64x128.size a ≤ S148x64x128.size a
  slices_S128x21_o0_5_S128x1 : S128x21.Slices ![0, 5] S128x1
  inb_S148x64x128_S128x64x128_5_0_0 : ∀ a, (![5, 0, 0] : Fin 3 → Nat) a + S128x64x128.size a ≤ S148x64x128.size a
  slices_S128x21_o0_6_S128x1 : S128x21.Slices ![0, 6] S128x1
  inb_S148x64x128_S128x64x128_6_0_0 : ∀ a, (![6, 0, 0] : Fin 3 → Nat) a + S128x64x128.size a ≤ S148x64x128.size a
  slices_S128x21_o0_7_S128x1 : S128x21.Slices ![0, 7] S128x1
  inb_S148x64x128_S128x64x128_7_0_0 : ∀ a, (![7, 0, 0] : Fin 3 → Nat) a + S128x64x128.size a ≤ S148x64x128.size a
  slices_S128x21_o0_8_S128x1 : S128x21.Slices ![0, 8] S128x1
  inb_S148x64x128_S128x64x128_8_0_0 : ∀ a, (![8, 0, 0] : Fin 3 → Nat) a + S128x64x128.size a ≤ S148x64x128.size a
  slices_S128x21_o0_9_S128x1 : S128x21.Slices ![0, 9] S128x1
  inb_S148x64x128_S128x64x128_9_0_0 : ∀ a, (![9, 0, 0] : Fin 3 → Nat) a + S128x64x128.size a ≤ S148x64x128.size a
  slices_S128x21_o0_10_S128x1 : S128x21.Slices ![0, 10] S128x1
  slices_S128x21_o0_11_S128x1 : S128x21.Slices ![0, 11] S128x1
  inb_S148x64x128_S128x64x128_11_0_0 : ∀ a, (![11, 0, 0] : Fin 3 → Nat) a + S128x64x128.size a ≤ S148x64x128.size a
  slices_S128x21_o0_12_S128x1 : S128x21.Slices ![0, 12] S128x1
  inb_S148x64x128_S128x64x128_12_0_0 : ∀ a, (![12, 0, 0] : Fin 3 → Nat) a + S128x64x128.size a ≤ S148x64x128.size a
  slices_S128x21_o0_13_S128x1 : S128x21.Slices ![0, 13] S128x1
  inb_S148x64x128_S128x64x128_13_0_0 : ∀ a, (![13, 0, 0] : Fin 3 → Nat) a + S128x64x128.size a ≤ S148x64x128.size a
  slices_S128x21_o0_14_S128x1 : S128x21.Slices ![0, 14] S128x1
  inb_S148x64x128_S128x64x128_14_0_0 : ∀ a, (![14, 0, 0] : Fin 3 → Nat) a + S128x64x128.size a ≤ S148x64x128.size a
  slices_S128x21_o0_15_S128x1 : S128x21.Slices ![0, 15] S128x1
  inb_S148x64x128_S128x64x128_15_0_0 : ∀ a, (![15, 0, 0] : Fin 3 → Nat) a + S128x64x128.size a ≤ S148x64x128.size a
  slices_S128x21_o0_16_S128x1 : S128x21.Slices ![0, 16] S128x1
  inb_S148x64x128_S128x64x128_16_0_0 : ∀ a, (![16, 0, 0] : Fin 3 → Nat) a + S128x64x128.size a ≤ S148x64x128.size a
  slices_S128x21_o0_17_S128x1 : S128x21.Slices ![0, 17] S128x1
  inb_S148x64x128_S128x64x128_17_0_0 : ∀ a, (![17, 0, 0] : Fin 3 → Nat) a + S128x64x128.size a ≤ S148x64x128.size a
  slices_S128x21_o0_18_S128x1 : S128x21.Slices ![0, 18] S128x1
  inb_S148x64x128_S128x64x128_18_0_0 : ∀ a, (![18, 0, 0] : Fin 3 → Nat) a + S128x64x128.size a ≤ S148x64x128.size a
  slices_S128x21_o0_19_S128x1 : S128x21.Slices ![0, 19] S128x1
  inb_S148x64x128_S128x64x128_19_0_0 : ∀ a, (![19, 0, 0] : Fin 3 → Nat) a + S128x64x128.size a ≤ S148x64x128.size a
  slices_S128x21_o0_20_S128x1 : S128x21.Slices ![0, 20] S128x1
  inb_S148x64x128_S128x64x128_20_0_0 : ∀ a, (![20, 0, 0] : Fin 3 → Nat) a + S128x64x128.size a ≤ S148x64x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64x128.size a ≤ S4x128x128x128.size a
  hwx0_0 : ∀ i : grid0.Coords, EltTy.bits .f32 = 32 ∨ (Rect.block (s := S4x128x128x128) S1x128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x21.size a ≤ S4x128x21.size a
  hwx0_1 : ∀ i : grid0.Coords, EltTy.bits .f32 = 32 ∨ (Rect.block (s := S4x128x21) S1x128x21.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64x128.size a ≤ S4x128x128x128.size a
  hwx0_2 : ∀ i : grid0.Coords, EltTy.bits .f32 = 32 ∨ (Rect.block (s := S4x128x128x128) S1x128x64x128.size (cc0_transform_2 i) (hinb0_2 i)).WholeWords (EltTy.packing .f32)

variable [Facts₀]

abbrev win0_0 : Pipeline.Window sig grid0 :=
  Pipeline.Window.ofSpec (Memref.whole main_arg0) S1x128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x21.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x128x128 : Shape := ⟨4, ![4, 128, 128, 128]⟩
abbrev S4x128x21 : Shape := ⟨3, ![4, 128, 21]⟩
abbrev S_ : Shape := ⟨0, ![]⟩
abbrev S4x128 : Shape := ⟨2, ![4, 128]⟩
abbrev S4x128x1 : Shape := ⟨3, ![4, 128, 1]⟩
abbrev S4x148x128x128 : Shape := ⟨4, ![4, 148, 128, 128]⟩
abbrev S4x128x1x1 : Shape := ⟨4, ![4, 128, 1, 1]⟩

abbrev nBuf : Space → Nat
  | .hbm => 168
  | .vmem => 0
  | .smem => 0
  | _ => 0

abbrev hbmTy0_0 (i : Nat) : BufTy := match i % 128 with
  | 0 => ⟨S4x128x128x128, .f32⟩
  | 1 => ⟨S4x128x21, .f32⟩
  | 2 => ⟨S_, .f32⟩
  | 3 => ⟨S4x128, .f32⟩
  | 4 => ⟨S_, .f32⟩
  | 5 => ⟨S4x128, .f32⟩
  | 6 => ⟨S4x128, .f32⟩
  | 7 => ⟨S4x128x1, .f32⟩
  | 8 => ⟨S4x128x21, .f32⟩
  | 9 => ⟨S4x128x21, .f32⟩
  | 10 => ⟨S4x128x21, .f32⟩
  | 11 => ⟨S_, .f32⟩
  | 12 => ⟨S4x128, .f32⟩
  | 13 => ⟨S4x128x1, .f32⟩
  | 14 => ⟨S4x128x21, .f32⟩
  | 15 => ⟨S4x128x21, .f32⟩
  | 16 => ⟨S_, .i32⟩
  | 17 => ⟨S_, .f32⟩
  | 18 => ⟨S4x148x128x128, .f32⟩
  | 19 => ⟨S_, .f32⟩
  | 20 => ⟨S4x128x128x128, .f32⟩
  | 21 => ⟨S4x128x1, .f32⟩
  | 22 => ⟨S4x128, .f32⟩
  | 23 => ⟨S4x128x1x1, .f32⟩
  | 24 => ⟨S4x128x128x128, .f32⟩
  | 25 => ⟨S4x128x128x128, .f32⟩
  | 26 => ⟨S4x128x128x128, .f32⟩
  | 27 => ⟨S4x128x128x128, .f32⟩
  | 28 => ⟨S4x128x1, .f32⟩
  | 29 => ⟨S4x128, .f32⟩
  | 30 => ⟨S4x128x1x1, .f32⟩
  | 31 => ⟨S4x128x128x128, .f32⟩
  | 32 => ⟨S4x128x128x128, .f32⟩
  | 33 => ⟨S4x128x128x128, .f32⟩
  | 34 => ⟨S4x128x128x128, .f32⟩
  | 35 => ⟨S4x128x1, .f32⟩
  | 36 => ⟨S4x128, .f32⟩
  | 37 => ⟨S4x128x1x1, .f32⟩
  | 38 => ⟨S4x128x128x128, .f32⟩
  | 39 => ⟨S4x128x128x128, .f32⟩
  | 40 => ⟨S4x128x128x128, .f32⟩
  | 41 => ⟨S4x128x128x128, .f32⟩
  | 42 => ⟨S4x128x1, .f32⟩
  | 43 => ⟨S4x128, .f32⟩
  | 44 => ⟨S4x128x1x1, .f32⟩
  | 45 => ⟨S4x128x128x128, .f32⟩
  | 46 => ⟨S4x128x128x128, .f32⟩
  | 47 => ⟨S4x128x128x128, .f32⟩
  | 48 => ⟨S4x128x128x128, .f32⟩
  | 49 => ⟨S4x128x1, .f32⟩
  | 50 => ⟨S4x128, .f32⟩
  | 51 => ⟨S4x128x1x1, .f32⟩
  | 52 => ⟨S4x128x128x128, .f32⟩
  | 53 => ⟨S4x128x128x128, .f32⟩
  | 54 => ⟨S4x128x128x128, .f32⟩
  | 55 => ⟨S4x128x128x128, .f32⟩
  | 56 => ⟨S4x128x1, .f32⟩
  | 57 => ⟨S4x128, .f32⟩
  | 58 => ⟨S4x128x1x1, .f32⟩
  | 59 => ⟨S4x128x128x128, .f32⟩
  | 60 => ⟨S4x128x128x128, .f32⟩
  | 61 => ⟨S4x128x128x128, .f32⟩
  | 62 => ⟨S4x128x128x128, .f32⟩
  | 63 => ⟨S4x128x1, .f32⟩
  | 64 => ⟨S4x128, .f32⟩
  | 65 => ⟨S4x128x1x1, .f32⟩
  | 66 => ⟨S4x128x128x128, .f32⟩
  | 67 => ⟨S4x128x128x128, .f32⟩
  | 68 => ⟨S4x128x128x128, .f32⟩
  | 69 => ⟨S4x128x128x128, .f32⟩
  | 70 => ⟨S4x128x1, .f32⟩
  | 71 => ⟨S4x128, .f32⟩
  | 72 => ⟨S4x128x1x1, .f32⟩
  | 73 => ⟨S4x128x128x128, .f32⟩
  | 74 => ⟨S4x128x128x128, .f32⟩
  | 75 => ⟨S4x128x128x128, .f32⟩
  | 76 => ⟨S4x128x128x128, .f32⟩
  | 77 => ⟨S4x128x1, .f32⟩
  | 78 => ⟨S4x128, .f32⟩
  | 79 => ⟨S4x128x1x1, .f32⟩
  | 80 => ⟨S4x128x128x128, .f32⟩
  | 81 => ⟨S4x128x128x128, .f32⟩
  | 82 => ⟨S4x128x128x128, .f32⟩
  | 83 => ⟨S4x128x128x128, .f32⟩
  | 84 => ⟨S4x128x1, .f32⟩
  | 85 => ⟨S4x128, .f32⟩
  | 86 => ⟨S4x128x1x1, .f32⟩
  | 87 => ⟨S4x128x128x128, .f32⟩
  | 88 => ⟨S4x128x128x128, .f32⟩
  | 89 => ⟨S4x128x128x128, .f32⟩
  | 90 => ⟨S4x128x128x128, .f32⟩
  | 91 => ⟨S4x128x1, .f32⟩
  | 92 => ⟨S4x128, .f32⟩
  | 93 => ⟨S4x128x1x1, .f32⟩
  | 94 => ⟨S4x128x128x128, .f32⟩
  | 95 => ⟨S4x128x128x128, .f32⟩
  | 96 => ⟨S4x128x128x128, .f32⟩
  | 97 => ⟨S4x128x128x128, .f32⟩
  | 98 => ⟨S4x128x1, .f32⟩
  | 99 => ⟨S4x128, .f32⟩
  | 100 => ⟨S4x128x1x1, .f32⟩
  | 101 => ⟨S4x128x128x128, .f32⟩
  | 102 => ⟨S4x128x128x128, .f32⟩
  | 103 => ⟨S4x128x128x128, .f32⟩
  | 104 => ⟨S4x128x128x128, .f32⟩
  | 105 => ⟨S4x128x1, .f32⟩
  | 106 => ⟨S4x128, .f32⟩
  | 107 => ⟨S4x128x1x1, .f32⟩
  | 108 => ⟨S4x128x128x128, .f32⟩
  | 109 => ⟨S4x128x128x128, .f32⟩
  | 110 => ⟨S4x128x128x128, .f32⟩
  | 111 => ⟨S4x128x128x128, .f32⟩
  | 112 => ⟨S4x128x1, .f32⟩
  | 113 => ⟨S4x128, .f32⟩
  | 114 => ⟨S4x128x1x1, .f32⟩
  | 115 => ⟨S4x128x128x128, .f32⟩
  | 116 => ⟨S4x128x128x128, .f32⟩
  | 117 => ⟨S4x128x128x128, .f32⟩
  | 118 => ⟨S4x128x128x128, .f32⟩
  | 119 => ⟨S4x128x1, .f32⟩
  | 120 => ⟨S4x128, .f32⟩
  | 121 => ⟨S4x128x1x1, .f32⟩
  | 122 => ⟨S4x128x128x128, .f32⟩
  | 123 => ⟨S4x128x128x128, .f32⟩
  | 124 => ⟨S4x128x128x128, .f32⟩
  | 125 => ⟨S4x128x128x128, .f32⟩
  | 126 => ⟨S4x128x1, .f32⟩
  | 127 => ⟨S4x128, .f32⟩
  | _ => ⟨S4x128x128x128, .f32⟩

abbrev hbmTy0_1 (i : Nat) : BufTy := match i % 128 with
  | 0 => ⟨S4x128x1x1, .f32⟩
  | 1 => ⟨S4x128x128x128, .f32⟩
  | 2 => ⟨S4x128x128x128, .f32⟩
  | 3 => ⟨S4x128x128x128, .f32⟩
  | 4 => ⟨S4x128x128x128, .f32⟩
  | 5 => ⟨S4x128x1, .f32⟩
  | 6 => ⟨S4x128, .f32⟩
  | 7 => ⟨S4x128x1x1, .f32⟩
  | 8 => ⟨S4x128x128x128, .f32⟩
  | 9 => ⟨S4x128x128x128, .f32⟩
  | 10 => ⟨S4x128x128x128, .f32⟩
  | 11 => ⟨S4x128x128x128, .f32⟩
  | 12 => ⟨S4x128x1, .f32⟩
  | 13 => ⟨S4x128, .f32⟩
  | 14 => ⟨S4x128x1x1, .f32⟩
  | 15 => ⟨S4x128x128x128, .f32⟩
  | 16 => ⟨S4x128x128x128, .f32⟩
  | 17 => ⟨S4x128x128x128, .f32⟩
  | 18 => ⟨S4x128x128x128, .f32⟩
  | 19 => ⟨S4x128x1, .f32⟩
  | 20 => ⟨S4x128, .f32⟩
  | 21 => ⟨S4x128x1x1, .f32⟩
  | 22 => ⟨S4x128x128x128, .f32⟩
  | 23 => ⟨S4x128x128x128, .f32⟩
  | 24 => ⟨S4x128x128x128, .f32⟩
  | 25 => ⟨S4x128x128x128, .f32⟩
  | 26 => ⟨S4x128x1, .f32⟩
  | 27 => ⟨S4x128, .f32⟩
  | 28 => ⟨S4x128x1x1, .f32⟩
  | 29 => ⟨S4x128x128x128, .f32⟩
  | 30 => ⟨S4x128x128x128, .f32⟩
  | 31 => ⟨S4x128x128x128, .f32⟩
  | 32 => ⟨S4x128x128x128, .f32⟩
  | 33 => ⟨S4x128x1, .f32⟩
  | 34 => ⟨S4x128, .f32⟩
  | 35 => ⟨S4x128x1x1, .f32⟩
  | 36 => ⟨S4x128x128x128, .f32⟩
  | 37 => ⟨S4x128x128x128, .f32⟩
  | 38 => ⟨S4x128x128x128, .f32⟩
  | 39 => ⟨S4x128x128x128, .f32⟩
  | _ => ⟨S4x128x128x128, .f32⟩

abbrev hbmTy (i : Nat) : BufTy := match i / 128 with
  | 0 => hbmTy0_0 i
  | 1 => hbmTy0_1 i
  | _ => ⟨S4x128x128x128, .f32⟩

abbrev bufTy : (tb : Table) → Fin (tcTables nBuf tb) → BufTy
  | .hbm, ⟨i, _⟩ => hbmTy i
  | _, _ => ⟨S4x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩

abbrev nD : Nat := 1
abbrev τ : Topo := Topo.v7x

variable {F : FTy → Type} [FloatOps F]

class Facts₀ : Prop where
  reducesTo_S4x128x21_S4x128_d2 : S4x128x21.ReducesTo [2] S4x128
  h_S_ : 0 < S_.numel
  bcast_S_S4x128 : S_.BroadcastsInDim S4x128 (![] : Fin 0 → Fin S4x128.rank)
  bcast_S4x128_S4x128x1_0_1 : S4x128.BroadcastsInDim S4x128x1 (![0, 1] : Fin 2 → Fin S4x128x1.rank)
  bcast_S4x128x1_S4x128x21_0_1_2 : S4x128x1.BroadcastsInDim S4x128x21 (![0, 1, 2] : Fin 3 → Fin S4x128x21.rank)
  pads_S4x128x128x128_S4x148x128x128_000_10100_000_000 : S4x128x128x128.Pads (![0, 10, 0, 0] : Fin 4 → Nat) ![0, 10, 0, 0] ![0, 0, 0, 0] S4x148x128x128
  bcast_S_S4x128x128x128 : S_.BroadcastsInDim S4x128x128x128 (![] : Fin 0 → Fin S4x128x128x128.rank)
  slices_S4x128x21_S4x128x1_0_0_0 : S4x128x21.Slices ![0, 0, 0] S4x128x1
  shapeCasts_S4x128x1_S4x128 : S4x128x1.ShapeCasts S4x128
  bcast_S4x128_S4x128x1x1_0_1 : S4x128.BroadcastsInDim S4x128x1x1 (![0, 1] : Fin 2 → Fin S4x128x1x1.rank)
  slices_S4x148x128x128_S4x128x128x128_0_0_0_0 : S4x148x128x128.Slices ![0, 0, 0, 0] S4x128x128x128
  bcast_S4x128x1x1_S4x128x128x128_0_1_2_3 : S4x128x1x1.BroadcastsInDim S4x128x128x128 (![0, 1, 2, 3] : Fin 4 → Fin S4x128x128x128.rank)
  slices_S4x128x21_S4x128x1_0_0_1 : S4x128x21.Slices ![0, 0, 1] S4x128x1
  slices_S4x148x128x128_S4x128x128x128_0_1_0_0 : S4x148x128x128.Slices ![0, 1, 0, 0] S4x128x128x128
  slices_S4x128x21_S4x128x1_0_0_2 : S4x128x21.Slices ![0, 0, 2] S4x128x1
  slices_S4x148x128x128_S4x128x128x128_0_2_0_0 : S4x148x128x128.Slices ![0, 2, 0, 0] S4x128x128x128
  slices_S4x128x21_S4x128x1_0_0_3 : S4x128x21.Slices ![0, 0, 3] S4x128x1
  slices_S4x148x128x128_S4x128x128x128_0_3_0_0 : S4x148x128x128.Slices ![0, 3, 0, 0] S4x128x128x128
  slices_S4x128x21_S4x128x1_0_0_4 : S4x128x21.Slices ![0, 0, 4] S4x128x1
  slices_S4x148x128x128_S4x128x128x128_0_4_0_0 : S4x148x128x128.Slices ![0, 4, 0, 0] S4x128x128x128
  slices_S4x128x21_S4x128x1_0_0_5 : S4x128x21.Slices ![0, 0, 5] S4x128x1
  slices_S4x148x128x128_S4x128x128x128_0_5_0_0 : S4x148x128x128.Slices ![0, 5, 0, 0] S4x128x128x128
  slices_S4x128x21_S4x128x1_0_0_6 : S4x128x21.Slices ![0, 0, 6] S4x128x1
  slices_S4x148x128x128_S4x128x128x128_0_6_0_0 : S4x148x128x128.Slices ![0, 6, 0, 0] S4x128x128x128
  slices_S4x128x21_S4x128x1_0_0_7 : S4x128x21.Slices ![0, 0, 7] S4x128x1
  slices_S4x148x128x128_S4x128x128x128_0_7_0_0 : S4x148x128x128.Slices ![0, 7, 0, 0] S4x128x128x128
  slices_S4x128x21_S4x128x1_0_0_8 : S4x128x21.Slices ![0, 0, 8] S4x128x1
  slices_S4x148x128x128_S4x128x128x128_0_8_0_0 : S4x148x128x128.Slices ![0, 8, 0, 0] S4x128x128x128
  slices_S4x128x21_S4x128x1_0_0_9 : S4x128x21.Slices ![0, 0, 9] S4x128x1
  slices_S4x148x128x128_S4x128x128x128_0_9_0_0 : S4x148x128x128.Slices ![0, 9, 0, 0] S4x128x128x128
  slices_S4x128x21_S4x128x1_0_0_10 : S4x128x21.Slices ![0, 0, 10] S4x128x1
  slices_S4x148x128x128_S4x128x128x128_0_10_0_0 : S4x148x128x128.Slices ![0, 10, 0, 0] S4x128x128x128
  slices_S4x128x21_S4x128x1_0_0_11 : S4x128x21.Slices ![0, 0, 11] S4x128x1
  slices_S4x148x128x128_S4x128x128x128_0_11_0_0 : S4x148x128x128.Slices ![0, 11, 0, 0] S4x128x128x128
  slices_S4x128x21_S4x128x1_0_0_12 : S4x128x21.Slices ![0, 0, 12] S4x128x1
  slices_S4x148x128x128_S4x128x128x128_0_12_0_0 : S4x148x128x128.Slices ![0, 12, 0, 0] S4x128x128x128
  slices_S4x128x21_S4x128x1_0_0_13 : S4x128x21.Slices ![0, 0, 13] S4x128x1
  slices_S4x148x128x128_S4x128x128x128_0_13_0_0 : S4x148x128x128.Slices ![0, 13, 0, 0] S4x128x128x128
  slices_S4x128x21_S4x128x1_0_0_14 : S4x128x21.Slices ![0, 0, 14] S4x128x1
  slices_S4x148x128x128_S4x128x128x128_0_14_0_0 : S4x148x128x128.Slices ![0, 14, 0, 0] S4x128x128x128
  slices_S4x128x21_S4x128x1_0_0_15 : S4x128x21.Slices ![0, 0, 15] S4x128x1
  slices_S4x148x128x128_S4x128x128x128_0_15_0_0 : S4x148x128x128.Slices ![0, 15, 0, 0] S4x128x128x128
  slices_S4x128x21_S4x128x1_0_0_16 : S4x128x21.Slices ![0, 0, 16] S4x128x1
  slices_S4x148x128x128_S4x128x128x128_0_16_0_0 : S4x148x128x128.Slices ![0, 16, 0, 0] S4x128x128x128
  slices_S4x128x21_S4x128x1_0_0_17 : S4x128x21.Slices ![0, 0, 17] S4x128x1
  slices_S4x148x128x128_S4x128x128x128_0_17_0_0 : S4x148x128x128.Slices ![0, 17, 0, 0] S4x128x128x128
  slices_S4x128x21_S4x128x1_0_0_18 : S4x128x21.Slices ![0, 0, 18] S4x128x1
  slices_S4x148x128x128_S4x128x128x128_0_18_0_0 : S4x148x128x128.Slices ![0, 18, 0, 0] S4x128x128x128
  slices_S4x128x21_S4x128x1_0_0_19 : S4x128x21.Slices ![0, 0, 19] S4x128x1
  slices_S4x148x128x128_S4x128x128x128_0_19_0_0 : S4x148x128x128.Slices ![0, 19, 0, 0] S4x128x128x128
  slices_S4x128x21_S4x128x1_0_0_20 : S4x128x21.Slices ![0, 0, 20] S4x128x1
  slices_S4x148x128x128_S4x128x128x128_0_20_0_0 : S4x148x128x128.Slices ![0, 20, 0, 0] S4x128x128x128

variable [Facts₀]

class Facts : Prop extends Facts₀ where

variable [Facts]
-- ==== Proof.MixSpec.lean ====
/-
  The specification of the adaptive mixing, over the extended reals.

  For a sample b and a band s the 21 logits msk(b, s, ·) are turned into weights by a softmax: the largest
  logit M is subtracted, the exponentials are taken, and each is divided by their sum.  The input x is padded
  with ten zero bands before its first band and ten after its last, so that padded band r is band r - 10 of x
  when 10 ≤ r < 138 and zero otherwise.  The result at (b, s, h, w) is the weighted sum, over the window
  k = 0 … 20, of weight k times the padded input's band k + s at (h, w) — the terms added first to last.

  Both programs compute exactly this expression, so no finiteness of the inputs is needed: the laws used
  are that a maximum with a value the fold already starts from changes nothing, that zero is neutral for
  addition, and nothing else.
-/
import Idealize.ShloMosaic.PureOps.Ideal
import Idealize.ShloMosaic.PureOps.Ideal.Laws
import Idealize.ShloMosaic.Lib.ValueIdx

noncomputable section

namespace Cert.MixSpec

open Idealize.ShloMosaic Idealize.ShloMosaic.ValueIdx

/-- The largest of a row's 21 logits, folded from minus infinity. -/
def rowMax (row : Fin 21 → EReal) : EReal :=
  (Finset.univ : Finset (Fin 21)).fold max (Ideal.ofBits .f32 0xFF800000#32) row

/-- The softmax weight of logit k of a row: exp(row k − M) over the sum of the 21 such exponentials. -/
def soft (row : Fin 21 → EReal) (k : Fin 21) : EReal :=
  Ideal.div (Ideal.exp (row k - rowMax row)) (∑ k' : Fin 21, Ideal.exp (row k' - rowMax row))

/-- Band r of a column of 128 bands padded with ten zero bands on either side. -/
def padRow (col : Fin 128 → EReal) (r : ℕ) : EReal :=
  if h : 10 ≤ r ∧ r < 138 then col ⟨r - 10, by omega⟩ else 0

theorem padRow_of_mem (col : Fin 128 → EReal) (r : ℕ) (h : 10 ≤ r ∧ r < 138) :
    padRow col r = col ⟨r - 10, by omega⟩ := dif_pos h

theorem padRow_of_not_mem (col : Fin 128 → EReal) (r : ℕ) (h : ¬(10 ≤ r ∧ r < 138)) :
    padRow col r = 0 := dif_neg h

/-- The weighted sum of 21 values, the terms added first to last. -/
def mix (wt p : Fin 21 → EReal) : EReal :=
  wt ⟨0, by decide⟩ * p ⟨0, by decide⟩ +
    wt ⟨1, by decide⟩ * p ⟨1, by decide⟩ +
    wt ⟨2, by decide⟩ * p ⟨2, by decide⟩ +
    wt ⟨3, by decide⟩ * p ⟨3, by decide⟩ +
    wt ⟨4, by decide⟩ * p ⟨4, by decide⟩ +
    wt ⟨5, by decide⟩ * p ⟨5, by decide⟩ +
    wt ⟨6, by decide⟩ * p ⟨6, by decide⟩ +
    wt ⟨7, by decide⟩ * p ⟨7, by decide⟩ +
    wt ⟨8, by decide⟩ * p ⟨8, by decide⟩ +
    wt ⟨9, by decide⟩ * p ⟨9, by decide⟩ +
    wt ⟨10, by decide⟩ * p ⟨10, by decide⟩ +
    wt ⟨11, by decide⟩ * p ⟨11, by decide⟩ +
    wt ⟨12, by decide⟩ * p ⟨12, by decide⟩ +
    wt ⟨13, by decide⟩ * p ⟨13, by decide⟩ +
    wt ⟨14, by decide⟩ * p ⟨14, by decide⟩ +
    wt ⟨15, by decide⟩ * p ⟨15, by decide⟩ +
    wt ⟨16, by decide⟩ * p ⟨16, by decide⟩ +
    wt ⟨17, by decide⟩ * p ⟨17, by decide⟩ +
    wt ⟨18, by decide⟩ * p ⟨18, by decide⟩ +
    wt ⟨19, by decide⟩ * p ⟨19, by decide⟩ +
    wt ⟨20, by decide⟩ * p ⟨20, by decide⟩

/-- The result array as one function of the two argument arrays, index by index. -/
def G (x : (⟨4, ![4, 128, 128, 128]⟩ : Shape).Idx → EReal) (msk : (⟨3, ![4, 128, 21]⟩ : Shape).Idx → EReal) :
    (⟨4, ![4, 128, 128, 128]⟩ : Shape).Idx → EReal :=
  fun i => mix (soft fun k => msk (ix3 (i 0) (i 1) k))
    (fun k => padRow (fun r => x (ix4 (i 0) r (i 2) (i 3))) (k.val + (i 1).val))

/-- A maximum with the value a fold of maxima starts from is that fold. -/
theorem max_fold_start (a : EReal) (f : Fin 21 → EReal) :
    max a ((Finset.univ : Finset (Fin 21)).fold max a f) = (Finset.univ : Finset (Fin 21)).fold max a f :=
  max_eq_right ((Finset.le_fold_max a).mpr (Or.inl le_rfl))

end Cert.MixSpec

end
-- ==== Proof.LibColumnVector.lean ====
/-
  A column taken back to a vector, read at an index given by its coordinate: an `[a, 1]` array cast to `[a]` reads, at
  `i`, the column's entry in row `i` — both indices have row-major position `i`.  General in the extent.
-/
import Idealize.ShloMosaic.Lib.ValueLayout

namespace Cert.Lib.ColumnVector

open Idealize.ShloMosaic Idealize.ShloMosaic.ValueIdx

variable {α : Type}

/-- An `[a, 1]` column cast to the vector `[a]` reads, at `i`, the column at `(i, 0)`. -/
theorem shapeCast_a1_a_apply {a : ℕ} (v : (⟨2, ![a, 1]⟩ : Shape).Idx → α) (h : (⟨2, ![a, 1]⟩ : Shape).ShapeCasts ⟨1, ![a]⟩)
    (i : Fin a) : shapeCast ⟨1, ![a]⟩ v h (ix1 i) = v (ix2 i (0 : Fin 1)) :=
  shapeCast_apply v h _ _ (by
    rw [Shape.rowMajor_val_two, Shape.rowMajor_val_one]
    show i.val * 1 + 0 = i.val
    rw [Nat.mul_one, Nat.add_zero])

end Cert.Lib.ColumnVector
-- ==== Proof.LibHostMaxLast.lean ====
/-
  A reduction by maximum along the last axis of a rank-three array, read at an index.

  Over the extended reals the maximum is commutative and associative, so the reduction of an array [a, b, n] along its
  last axis is, at (p, q), the maximum of the n entries (p, q, ·) folded from the initial value, in any order.
-/
import Idealize.ShloMosaic.Lib.ValueIdx
import Idealize.ShloMosaic.PureOps.Ideal.Laws

noncomputable section

namespace Cert.Lib.HostMaxLast

open Idealize.ShloMosaic Idealize.ShloMosaic.ValueIdx

/-- The index (p, q) of the reduced array with the coordinate k put back on the last axis is (p, q, k). -/
theorem lift_axis2 {a b n : ℕ} (h : (⟨3, ![a, b, n]⟩ : Shape).Reduces [2] ⟨2, ![a, b]⟩) (p : Fin a) (q : Fin b)
    (k : Fin ((⟨3, ![a, b, n]⟩ : Shape).size 2)) :
    h.lift (ix2 p q) k = ix3 p q (⟨k.val, k.isLt⟩ : Fin n) := by
  funext c; apply Fin.ext
  fin_cases c <;> rfl

/-- The reduction by maximum along the last axis of an array [a, b, n], read at (p, q), is the maximum of the entries
    (p, q, k) over k, folded from the initial value. -/
theorem hostMax_axis2_apply {a b n : ℕ} {u : Shape} (x : FVec Ideal ⟨3, ![a, b, n]⟩ .f32) (init : u.Idx → EReal)
    (h' : (⟨3, ![a, b, n]⟩ : Shape).ReducesTo [2] ⟨2, ![a, b]⟩)
    (h : (⟨3, ![a, b, n]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin n)).fold max (init (Shape.Idx.first hu)) fun k => x (ix3 p q k) := by
  rw [Host.reduce_eq_fold_single (FloatOps.maximumf (F := Ideal) (φ := .f32)) x init h' h hu]
  have hf : (x ∘ h.lift (ix2 p q)) = fun k : Fin n => x (ix3 p q k) :=
    funext fun k => congrArg x (lift_axis2 h p q k)
  exact congrArg (fun f => Finset.fold max (init (Shape.Idx.first hu)) f (Finset.univ : Finset (Fin n))) hf

end Cert.Lib.HostMaxLast

end
-- ==== Proof.LibMixLayout.lean ====
/-
  Layout operations of a windowed weighted sum, read at an index given by coordinates, over the extended reals.

  On the vector unit a weight column is cut out of the [a, n] weight matrix (columns K … K), flattened to a vector,
  stood up as an [a, 1, 1] array and repeated over [a, b, c]: at (p, q, r) it reads the weight (p, K).  One
  accumulation step then adds, to the block held so far, that weight times a band-shifted copy of the input.
  On the host the same column is cut out of the [B, a, n] weights, flattened to [B, a], stood up as [B, a, 1, 1] and
  repeated over [B, a, b, c], and multiplied by the bands K … K + a of the padded input.  Last, the padding itself read
  at an index, and the host's last-axis forms a softmax meets: a scalar repeated over any shape, a [B, a] array kept as a
  [B, a, 1] column and repeated over [B, a, n], and the host's sum along the last axis of a rank-three array.  All
  general in the extents and in the window position K; the side conditions' proofs are variables, so that whatever
  proof a program's text carries unifies with them.
-/
import Idealize.ShloMosaic.Lib.ValueLayout
import Idealize.ShloMosaic.Lib.Pipeline.Value
import Idealize.ShloMosaic.PureOps.Ideal.Laws
import proofs.«107940_j28784870818046_2_alg».proof.Proof.LibColumnVector
import proofs.«107940_j28784870818046_2_alg».proof.Proof.LibHostMaxLast

noncomputable section

namespace Cert.Lib.MixLayout

open Idealize.ShloMosaic Idealize.ShloMosaic.ValueIdx

variable {α : Type}

/-! ## The vector unit's forms -/

/-- An [a] vector stood up as [a, 1, 1] reads, at (i, u, v), the vector at i: both have row-major position i. -/
theorem shapeCast_a_a11_apply {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    rw [hu, hv]; omega)

/-- An [a, 1, 1] array repeated over [a, b, c] reads, at (p, q, r), its entry (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- Column K of an [a, n] matrix, cut out, flattened, stood up and repeated over [a, b, c], reads at (p, q, r) the
    matrix at (p, K). -/
theorem weightColumn_apply {a b c n : ℕ} (K : ℕ) (hK : K < n) (v : (⟨2, ![a, n]⟩ : Shape).Idx → α)
    (hs : (⟨2, ![a, n]⟩ : Shape).Slices ![0, K] ⟨2, ![a, 1]⟩)
    (h1 : (⟨2, ![a, 1]⟩ : Shape).ShapeCasts ⟨1, ![a]⟩) (h2 : (⟨1, ![a]⟩ : Shape).ShapeCasts ⟨3, ![a, 1, 1]⟩)
    (h3 : (⟨3, ![a, 1, 1]⟩ : Shape).Broadcasts ⟨3, ![a, b, c]⟩) (p : Fin a) (q : Fin b) (r : Fin c) :
    broadcastTo ⟨3, ![a, b, c]⟩
        (shapeCast ⟨3, ![a, 1, 1]⟩ (shapeCast ⟨1, ![a]⟩ (extractStridedSlice ⟨2, ![a, 1]⟩ ![0, K] v hs) h1) h2) h3 (ix3 p q r)
      = v (ix2 p ⟨K, hK⟩) :=
  (broadcastTo_a11_abc_apply _ h3 p q r).trans <|
    (shapeCast_a_a11_apply _ h2 p 0 0).trans <|
      (Cert.Lib.ColumnVector.shapeCast_a1_a_apply _ h1 p).trans <|
        slice2_axis1_apply K v hs p (0 : Fin 1) ⟨K, hK⟩ (by show K = K + 0; omega)

/-- The first term: weight column K times a band-shifted input, as a [1, a, b, c] block, read at (u, p, q, r). -/
theorem first_apply {a b c n : ℕ} (K : ℕ) (hK : K < n) (wts : FVec Ideal ⟨2, ![a, n]⟩ .f32)
    (xk : FVec Ideal ⟨3, ![a, b, c]⟩ .f32)
    (hs : (⟨2, ![a, n]⟩ : Shape).Slices ![0, K] ⟨2, ![a, 1]⟩)
    (h1 : (⟨2, ![a, 1]⟩ : Shape).ShapeCasts ⟨1, ![a]⟩) (h2 : (⟨1, ![a]⟩ : Shape).ShapeCasts ⟨3, ![a, 1, 1]⟩)
    (h3 : (⟨3, ![a, 1, 1]⟩ : Shape).Broadcasts ⟨3, ![a, b, c]⟩)
    (hc : (⟨3, ![a, b, c]⟩ : Shape).ShapeCasts ⟨4, ![1, a, b, c]⟩)
    (u : Fin 1) (p : Fin a) (q : Fin b) (r : Fin c) :
    shapeCast ⟨4, ![1, a, b, c]⟩
        (mulf (broadcastTo ⟨3, ![a, b, c]⟩
          (shapeCast ⟨3, ![a, 1, 1]⟩ (shapeCast ⟨1, ![a]⟩ (extractStridedSlice ⟨2, ![a, 1]⟩ ![0, K] wts hs) h1) h2) h3) xk)
        hc (ix4 u p q r)
      = wts (ix2 p ⟨K, hK⟩) * xk (ix3 p q r) := by
  rw [shapeCast_abc_1abc_apply, mulf_apply, weightColumn_apply K hK]

/-- One accumulation step: the block held so far plus weight column K times a band-shifted input, read at (u, p, q, r). -/
theorem step_apply {a b c n : ℕ} (K : ℕ) (hK : K < n) (wts : FVec Ideal ⟨2, ![a, n]⟩ .f32)
    (xk : FVec Ideal ⟨3, ![a, b, c]⟩ .f32) (acc : FVec Ideal ⟨4, ![1, a, b, c]⟩ .f32)
    (hs : (⟨2, ![a, n]⟩ : Shape).Slices ![0, K] ⟨2, ![a, 1]⟩)
    (h1 : (⟨2, ![a, 1]⟩ : Shape).ShapeCasts ⟨1, ![a]⟩) (h2 : (⟨1, ![a]⟩ : Shape).ShapeCasts ⟨3, ![a, 1, 1]⟩)
    (h3 : (⟨3, ![a, 1, 1]⟩ : Shape).Broadcasts ⟨3, ![a, b, c]⟩)
    (hd : (⟨4, ![1, a, b, c]⟩ : Shape).ShapeCasts ⟨3, ![a, b, c]⟩)
    (hc : (⟨3, ![a, b, c]⟩ : Shape).ShapeCasts ⟨4, ![1, a, b, c]⟩)
    (u : Fin 1) (p : Fin a) (q : Fin b) (r : Fin c) :
    shapeCast ⟨4, ![1, a, b, c]⟩
        (addf (shapeCast ⟨3, ![a, b, c]⟩ acc hd)
          (mulf (broadcastTo ⟨3, ![a, b, c]⟩
            (shapeCast ⟨3, ![a, 1, 1]⟩ (shapeCast ⟨1, ![a]⟩ (extractStridedSlice ⟨2, ![a, 1]⟩ ![0, K] wts hs) h1) h2) h3) xk))
        hc (ix4 u p q r)
      = acc (ix4 (0 : Fin 1) p q r) + wts (ix2 p ⟨K, hK⟩) * xk (ix3 p q r) := by
  rw [shapeCast_abc_1abc_apply, addf_apply, mulf_apply, shapeCast_1abc_abc_apply, weightColumn_apply K hK]

/-! ## The host's forms -/

/-- A [B, a, 1] array flattened to [B, a] reads, at (p, q), its entry (p, q, 0). -/
theorem shapeCast_ab1_ab_apply {B a : ℕ} (v : (⟨3, ![B, a, 1]⟩ : Shape).Idx → α)
    (h : (⟨3, ![B, a, 1]⟩ : Shape).ShapeCasts ⟨2, ![B, a]⟩) (p : Fin B) (q : Fin a) :
    shapeCast ⟨2, ![B, a]⟩ v h (ix2 p q) = v (ix3 p q (0 : Fin 1)) :=
  shapeCast_apply v h _ _ (by
    rw [Shape.rowMajor_val_three, Shape.rowMajor_val_two]
    show (p.val * a + q.val) * 1 + 0 = p.val * a + q.val
    rw [Nat.mul_one, Nat.add_zero])

/-- A [B, a] array stood up as [B, a, 1, 1] (its two axes kept first) reads, at (p, q, u, v), its entry (p, q). -/
theorem broadcastInDim_ab_ab11_apply {B a : ℕ} (x : (⟨2, ![B, a]⟩ : Shape).Idx → α)
    (h : (⟨2, ![B, a]⟩ : Shape).BroadcastsInDim ⟨4, ![B, a, 1, 1]⟩ ![0, 1]) (hB : B ≠ 1) (ha : a ≠ 1)
    (p : Fin B) (q : Fin a) (u v : Fin 1) :
    broadcastInDim ⟨4, ![B, a, 1, 1]⟩ ![0, 1] h x (ix4 p q u v) = x (ix2 p q) := by
  refine broadcastInDim_apply _ h x (ix4 p q u v) (ix2 p q) fun ax => ?_
  match ax with
  | ⟨0, _⟩ => show p.val = if B = 1 then 0 else p.val; rw [if_neg hB]
  | ⟨1, _⟩ => show q.val = if a = 1 then 0 else q.val; rw [if_neg ha]

/-- A [B, a, 1, 1] array repeated over [B, a, b, c] reads, at (p, q, r, t), its entry (p, q, 0, 0). -/
theorem broadcastInDim_ab11_abcd_apply {B a b c : ℕ} (x : (⟨4, ![B, a, 1, 1]⟩ : Shape).Idx → α)
    (h : (⟨4, ![B, a, 1, 1]⟩ : Shape).BroadcastsInDim ⟨4, ![B, a, b, c]⟩ ![0, 1, 2, 3]) (hB : B ≠ 1) (ha : a ≠ 1)
    (p : Fin B) (q : Fin a) (r : Fin b) (t : Fin c) :
    broadcastInDim ⟨4, ![B, a, b, c]⟩ ![0, 1, 2, 3] h x (ix4 p q r t) = x (ix4 p q (0 : Fin 1) (0 : Fin 1)) := by
  refine broadcastInDim_apply _ h x (ix4 p q r t) (ix4 p q (0 : Fin 1) (0 : Fin 1)) fun ax => ?_
  match ax with
  | ⟨0, _⟩ => show p.val = if B = 1 then 0 else p.val; rw [if_neg hB]
  | ⟨1, _⟩ => show q.val = if a = 1 then 0 else q.val; rw [if_neg ha]
  | ⟨2, _⟩ => show 0 = if (1 : ℕ) = 1 then 0 else r.val; rw [if_pos rfl]
  | ⟨3, _⟩ => show 0 = if (1 : ℕ) = 1 then 0 else t.val; rw [if_pos rfl]

/-- A [B, a, n] array cut to its column K reads, at (p, q, 0), its entry (p, q, K). -/
theorem slice3_axis2_col_apply {B a n : ℕ} (K : ℕ) (hK : K < n) (X : (⟨3, ![B, a, n]⟩ : Shape).Idx → α)
    (h : (⟨3, ![B, a, n]⟩ : Shape).Slices ![0, 0, K] ⟨3, ![B, a, 1]⟩) (p : Fin B) (q : Fin a) :
    extractStridedSlice ⟨3, ![B, a, 1]⟩ ![0, 0, K] X h (ix3 p q (0 : Fin 1)) = X (ix3 p q ⟨K, hK⟩) :=
  extractStridedSlice_apply _ _ _ _ _ (fun ax => by
    match ax with
    | ⟨0, _⟩ => exact (Nat.zero_add _).symm
    | ⟨1, _⟩ => exact (Nat.zero_add _).symm
    | ⟨2, _⟩ => show K = K + 0; omega)

/-- One term of the host's sum: weight column K, flattened, stood up and repeated, times the bands K … K + a of the
    padded input, read at (p, q, r, t): weight (p, q, K) times the padded input at (p, K + q, r, t). -/
theorem refTerm_apply {B a b c n m : ℕ} (K : ℕ) (hK : K < n) (hm : K + a ≤ m) (hB : B ≠ 1) (ha : a ≠ 1)
    (W : FVec Ideal ⟨3, ![B, a, n]⟩ .f32) (XP : FVec Ideal ⟨4, ![B, m, b, c]⟩ .f32)
    (hs : (⟨3, ![B, a, n]⟩ : Shape).Slices ![0, 0, K] ⟨3, ![B, a, 1]⟩)
    (hc : (⟨3, ![B, a, 1]⟩ : Shape).ShapeCasts ⟨2, ![B, a]⟩)
    (hb1 : (⟨2, ![B, a]⟩ : Shape).BroadcastsInDim ⟨4, ![B, a, 1, 1]⟩ ![0, 1])
    (hb2 : (⟨4, ![B, a, 1, 1]⟩ : Shape).BroadcastsInDim ⟨4, ![B, a, b, c]⟩ ![0, 1, 2, 3])
    (hp : (⟨4, ![B, m, b, c]⟩ : Shape).Slices ![0, K, 0, 0] ⟨4, ![B, a, b, c]⟩)
    (p : Fin B) (q : Fin a) (r : Fin b) (t : Fin c) :
    mulf (broadcastInDim ⟨4, ![B, a, b, c]⟩ ![0, 1, 2, 3] hb2
          (broadcastInDim ⟨4, ![B, a, 1, 1]⟩ ![0, 1] hb1
            (shapeCast ⟨2, ![B, a]⟩ (extractStridedSlice ⟨3, ![B, a, 1]⟩ ![0, 0, K] W hs) hc)))
        (extractStridedSlice ⟨4, ![B, a, b, c]⟩ ![0, K, 0, 0] XP hp) (ix4 p q r t)
      = W (ix3 p q ⟨K, hK⟩) * XP (ix4 p ⟨K + q.val, by have := q.isLt; omega⟩ r t) := by
  rw [mulf_apply, broadcastInDim_ab11_abcd_apply _ hb2 hB ha, broadcastInDim_ab_ab11_apply _ hb1 hB ha,
    shapeCast_ab1_ab_apply, slice3_axis2_col_apply K hK,
    slice4_axis1_apply K XP hp p q r t ⟨K + q.val, by have := q.isLt; omega⟩ rfl]

/-- The padding of a [B, a, b, c] array by lo bands before and hi after along its second axis, read at (p, j, r, t):
    band j - lo of the array when lo ≤ j < lo + a, the padding value otherwise. -/
theorem pad_axis1_apply {B a b c m lo hi : ℕ} {u : Shape} (x : (⟨4, ![B, a, b, c]⟩ : Shape).Idx → α) (v : u.Idx → α)
    (h : (⟨4, ![B, a, b, c]⟩ : Shape).Pads ![0, lo, 0, 0] ![0, hi, 0, 0] ![0, 0, 0, 0] ⟨4, ![B, m, b, c]⟩)
    (hu : 0 < u.numel) (p : Fin B) (j : Fin m) (r : Fin b) (t : Fin c) :
    pad ⟨4, ![B, m, b, c]⟩ ![0, lo, 0, 0] ![0, hi, 0, 0] ![0, 0, 0, 0] x v h hu (ix4 p j r t)
      = if hj : lo ≤ j.val ∧ j.val < lo + a then x (ix4 p ⟨j.val - lo, by omega⟩ r t) else v (Shape.Idx.first hu) := by
  unfold pad
  by_cases hj : lo ≤ j.val ∧ j.val < lo + a
  · rw [dif_pos hj, dif_pos]
    · refine congrArg x (funext fun ax => Fin.ext ?_)
      match ax with
      | ⟨0, _⟩ => show (p.val - 0) / (0 + 1) = p.val; simp
      | ⟨1, _⟩ => show (j.val - lo) / (0 + 1) = j.val - lo; simp
      | ⟨2, _⟩ => show (r.val - 0) / (0 + 1) = r.val; simp
      | ⟨3, _⟩ => show (t.val - 0) / (0 + 1) = t.val; simp
    · intro ax
      match ax with
      | ⟨0, _⟩ => exact ⟨Nat.zero_le _, Nat.mod_one _, by show (p.val - 0) / (0 + 1) < B; simp⟩
      | ⟨1, _⟩ => exact ⟨hj.1, Nat.mod_one _, by show (j.val - lo) / (0 + 1) < a; simp; omega⟩
      | ⟨2, _⟩ => exact ⟨Nat.zero_le _, Nat.mod_one _, by show (r.val - 0) / (0 + 1) < b; simp⟩
      | ⟨3, _⟩ => exact ⟨Nat.zero_le _, Nat.mod_one _, by show (t.val - 0) / (0 + 1) < c; simp⟩
  · rw [dif_neg hj, dif_neg]
    intro hin
    have h1 := hin (1 : Fin 4)
    apply hj
    have e1 : lo ≤ j.val := h1.1
    have e2 : (j.val - lo) / (0 + 1) < a := h1.2.2
    simp at e2
    omega

/-! ## The host's last-axis forms -/

/-- A scalar repeated over any shape reads the scalar everywhere. -/
theorem bcast_scalar_apply {t : Shape} (x : (⟨0, ![]⟩ : Shape).Idx → α) (h : (⟨0, ![]⟩ : Shape).BroadcastsInDim t ![])
    (j : t.Idx) : broadcastInDim t ![] h x j = x ix0 :=
  broadcastInDim_apply _ h x j ix0 (fun a => a.elim0)

/-- A [B, a] array kept as a [B, a, 1] column reads, at (p, q, u), its entry (p, q). -/
theorem bcast_ab_ab1_apply {B a : ℕ} (x : (⟨2, ![B, a]⟩ : Shape).Idx → α)
    (h : (⟨2, ![B, a]⟩ : Shape).BroadcastsInDim ⟨3, ![B, a, 1]⟩ ![0, 1]) (hB : B ≠ 1) (ha : a ≠ 1)
    (p : Fin B) (q : Fin a) (u : Fin 1) : broadcastInDim ⟨3, ![B, a, 1]⟩ ![0, 1] h x (ix3 p q u) = x (ix2 p q) := by
  refine broadcastInDim_apply _ h x (ix3 p q u) (ix2 p q) fun ax => ?_
  match ax with
  | ⟨0, _⟩ => show p.val = if B = 1 then 0 else p.val; rw [if_neg hB]
  | ⟨1, _⟩ => show q.val = if a = 1 then 0 else q.val; rw [if_neg ha]

/-- A [B, a, 1] column repeated over [B, a, n] reads, at (p, q, k), its entry (p, q, 0). -/
theorem bcast_ab1_abn_apply {B a n : ℕ} (x : (⟨3, ![B, a, 1]⟩ : Shape).Idx → α)
    (h : (⟨3, ![B, a, 1]⟩ : Shape).BroadcastsInDim ⟨3, ![B, a, n]⟩ ![0, 1, 2]) (hB : B ≠ 1) (ha : a ≠ 1)
    (p : Fin B) (q : Fin a) (k : Fin n) :
    broadcastInDim ⟨3, ![B, a, n]⟩ ![0, 1, 2] h x (ix3 p q k) = x (ix3 p q (0 : Fin 1)) := by
  refine broadcastInDim_apply _ h x (ix3 p q k) (ix3 p q (0 : Fin 1)) fun ax => ?_
  match ax with
  | ⟨0, _⟩ => show p.val = if B = 1 then 0 else p.val; rw [if_neg hB]
  | ⟨1, _⟩ => show q.val = if a = 1 then 0 else q.val; rw [if_neg ha]
  | ⟨2, _⟩ => show 0 = if (1 : ℕ) = 1 then 0 else k.val; rw [if_pos rfl]

/-- The host's sum along the last axis of a [a, b, n] array, read at (p, q): the initial value plus the n entries. -/
theorem hostSum_axis2_apply {a b n : ℕ} {u : Shape} (x : FVec Ideal ⟨3, ![a, b, n]⟩ .f32) (init : u.Idx → EReal)
    (h' : (⟨3, ![a, b, n]⟩ : Shape).ReducesTo [2] ⟨2, ![a, b]⟩) (h : (⟨3, ![a, b, n]⟩ : Shape).Reduces [2] ⟨2, ![a, b]⟩)
    (hu : 0 < u.numel) (p : Fin a) (q : Fin b) :
    Host.reduceAdd x init h' hu (ix2 p q) = init (Shape.Idx.first hu) + ∑ k : Fin n, x (ix3 p q k) := by
  show Ideal.hostReduceAdd h' x (init (Shape.Idx.first hu)) (ix2 p q) = _
  rw [Ideal.hostReduceAdd_single h' h]
  exact congrArg (_ + ·) (Finset.sum_congr rfl fun k _ => congrArg x (Cert.Lib.HostMaxLast.lift_axis2 h p q k))

end Cert.Lib.MixLayout

end
-- ==== Proof.LibWholeStore.lean ====
/-
  A whole-block store read back.

  When a kernel body accumulates into a block by loading the whole block, computing, and storing the whole block again,
  each load reads what the store before it left, whatever the earlier stores were: a read through the whole-shape
  rectangle at zero offsets, after a list of stores whose last is through that same rectangle, is that last store's
  value.  General in the shape, the element type and the earlier stores.
-/
import Idealize.ShloMosaic.Lib.Pipeline.Value

noncomputable section

namespace Cert.Lib.WholeStore

open Idealize.ShloMosaic

/-- A read of the whole block after a store of the whole block reads what was stored, whatever was stored before. -/
theorem readCov_cons_whole {Val : EltTy → Type} [∀ e, Nonempty (Val e)] {sig : RefSig} {κ : Kind} {sp : Space} {S : Shape}
    {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

end Cert.Lib.WholeStore

end
-- ==== Proof.MixScratch.lean ====
/-
  The padded input as the kernel stages it, read at an index.

  The kernel keeps a scratch of 148 bands: it writes zeros to bands 0 … 9 and to bands 138 … 147, and the 128 bands of
  its input block to bands 10 … 137.  The three writes cover the scratch, so a load of the 128 bands K … K + 127
  (K ≤ 20) reads, at (s, h, w), band K + s of the padded input at (h, w): the input's band K + s - 10 when
  10 ≤ K + s < 138, and zero otherwise — whatever the scratch held before.
-/
import Idealize.ShloMosaic.Lib.Pipeline.Value
import Idealize.ShloMosaic.PureOps.Ideal.Laws
import proofs.«107940_j28784870818046_2_alg».proof.Proof.MixSpec

noncomputable section

namespace Cert.MixScratch

open Idealize.ShloMosaic Idealize.ShloMosaic.ValueIdx Cert.MixSpec

/-- What the scratch holds after the three writes, as one function of its index: the padded input. -/
def staged (x0 : (⟨4, ![1, 128, 64, 128]⟩ : Shape).Idx → EReal) : (⟨3, ![148, 64, 128]⟩ : Shape).Idx → EReal :=
  fun y => padRow (fun r => x0 (ix4 (0 : Fin 1) r (y 1) (y 2))) (y 0).val

variable {sig : RefSig} {κ : Kind} {sp : Space}

/-- A load of bands K … K + 127 of the scratch after its three writes reads the padded input's bands K + s. -/
theorem load_apply (v : View sig κ sp ⟨3, ![148, 64, 128]⟩ .f32) (K : ℕ) (hK : K ≤ 20)
    (x0 : (⟨4, ![1, 128, 64, 128]⟩ : Shape).Idx → EReal)
    (p1 : (⟨3, ![128, 64, 128]⟩ : Shape).Idx → EReal) (hp1 : ∀ a b c, p1 (ix3 a b c) = x0 (ix4 (0 : Fin 1) a b c))
    (p2 p3 : (⟨3, ![10, 64, 128]⟩ : Shape).Idx → EReal) (hp2 : ∀ y, p2 y = 0) (hp3 : ∀ y, p3 y = 0)
    (inb1 : ∀ a, (![10, 0, 0] : Fin 3 → ℕ) a + (![128, 64, 128] : Fin 3 → ℕ) a ≤ (⟨3, ![148, 64, 128]⟩ : Shape).size a)
    (inb2 : ∀ a, (![138, 0, 0] : Fin 3 → ℕ) a + (![10, 64, 128] : Fin 3 → ℕ) a ≤ (⟨3, ![148, 64, 128]⟩ : Shape).size a)
    (inb3 : ∀ a, (![0, 0, 0] : Fin 3 → ℕ) a + (![10, 64, 128] : Fin 3 → ℕ) a ≤ (⟨3, ![148, 64, 128]⟩ : Shape).size a)
    (inbK : ∀ a, (![K, 0, 0] : Fin 3 → ℕ) a + (![128, 64, 128] : Fin 3 → ℕ) a ≤ (⟨3, ![148, 64, 128]⟩ : Shape).size a)
    (s : Fin 128) (h : Fin 64) (w : Fin 128) :
    (v.readCov (Val := Elt Ideal)
        [⟨Rect.unit ![10, 0, 0] ![128, 64, 128] inb1, p1⟩, ⟨Rect.unit ![138, 0, 0] ![10, 64, 128] inb2, p2⟩,
          ⟨Rect.unit ![0, 0, 0] ![10, 64, 128] inb3, p3⟩]
        (Rect.unit (s := ⟨3, ![148, 64, 128]⟩) ![K, 0, 0] ![128, 64, 128] inbK).toLoadRect
          : (⟨3, ![128, 64, 128]⟩ : Shape).Idx → EReal) (ix3 s h w)
      = padRow (fun r => x0 (ix4 (0 : Fin 1) r h w)) (K + s.val) := by
  -- every index of the scratch is under one of the three writes
  have hcov : ∀ y : (⟨3, ![148, 64, 128]⟩ : Shape).Idx, ∃ p ∈ ([⟨Rect.unit ![10, 0, 0] ![128, 64, 128] inb1, p1⟩,
      ⟨Rect.unit ![138, 0, 0] ![10, 64, 128] inb2, p2⟩, ⟨Rect.unit ![0, 0, 0] ![10, 64, 128] inb3, p3⟩] :
        List (View.Piece (Elt Ideal) ⟨3, ![148, 64, 128]⟩ .f32)), y ∈ p.1.set := by
    intro y
    have h0 : (y 0).val < 148 := (y 0).isLt
    have h1 : (y 1).val < 64 := (y 1).isLt
    have h2 : (y 2).val < 128 := (y 2).isLt
    by_cases ha : (y 0).val < 10
    · refine ⟨⟨Rect.unit ![0, 0, 0] ![10, 64, 128] inb3, p3⟩, List.mem_cons_of_mem _ (List.mem_cons_of_mem _ List.mem_cons_self), (Rect.mem_set_unit (inb := inb3)).mpr fun a => ?_⟩
      match a with
      | ⟨0, _⟩ => show 0 ≤ (y 0).val ∧ (y 0).val < 0 + 10; omega
      | ⟨1, _⟩ => show 0 ≤ (y 1).val ∧ (y 1).val < 0 + 64; omega
      | ⟨2, _⟩ => show 0 ≤ (y 2).val ∧ (y 2).val < 0 + 128; omega
    · by_cases hb : (y 0).val < 138
      · refine ⟨⟨Rect.unit ![10, 0, 0] ![128, 64, 128] inb1, p1⟩, List.mem_cons_self, (Rect.mem_set_unit (inb := inb1)).mpr fun a => ?_⟩
        match a with
        | ⟨0, _⟩ => show 10 ≤ (y 0).val ∧ (y 0).val < 10 + 128; omega
        | ⟨1, _⟩ => show 0 ≤ (y 1).val ∧ (y 1).val < 0 + 64; omega
        | ⟨2, _⟩ => show 0 ≤ (y 2).val ∧ (y 2).val < 0 + 128; omega
      · refine ⟨⟨Rect.unit ![138, 0, 0] ![10, 64, 128] inb2, p2⟩, List.mem_cons_of_mem _ List.mem_cons_self, (Rect.mem_set_unit (inb := inb2)).mpr fun a => ?_⟩
        match a with
        | ⟨0, _⟩ => show 138 ≤ (y 0).val ∧ (y 0).val < 138 + 10; omega
        | ⟨1, _⟩ => show 0 ≤ (y 1).val ∧ (y 1).val < 0 + 64; omega
        | ⟨2, _⟩ => show 0 ≤ (y 2).val ∧ (y 2).val < 0 + 128; omega
  -- and each write's payload is the padded input under its rectangle
  have hL : ∀ p ∈ ([⟨Rect.unit ![10, 0, 0] ![128, 64, 128] inb1, p1⟩,
      ⟨Rect.unit ![138, 0, 0] ![10, 64, 128] inb2, p2⟩, ⟨Rect.unit ![0, 0, 0] ![10, 64, 128] inb3, p3⟩] :
        List (View.Piece (Elt Ideal) ⟨3, ![148, 64, 128]⟩ .f32)), ∀ x : p.1.shape.Idx, p.2 x = staged x0 (p.1.emb x) := by
    intro p hp
    simp only [List.mem_cons, List.not_mem_nil, or_false] at hp
    rcases hp with rfl | rfl | rfl
    · intro x
      obtain ⟨a, b, c, rfl⟩ : ∃ (a : Fin 128) (b : Fin 64) (c : Fin 128), x = ix3 a b c := ⟨x 0, x 1, x 2, eq_ix3 x⟩
      show p1 (ix3 a b c) = padRow _ (10 + 1 * a.val)
      rw [hp1, padRow_of_mem _ _ (by have := a.isLt; omega)]
      refine congrArg x0 (funext fun ax => Fin.ext ?_)
      match ax with
      | ⟨0, _⟩ => rfl
      | ⟨1, _⟩ => show a.val = 10 + 1 * a.val - 10; omega
      | ⟨2, _⟩ => show b.val = 0 + 1 * b.val; omega
      | ⟨3, _⟩ => show c.val = 0 + 1 * c.val; omega
    · intro x
      show p2 x = padRow _ (138 + 1 * (x 0).val)
      rw [hp2, padRow_of_not_mem _ _ (by omega)]
    · intro x
      have hx : (x 0).val < 10 := (x 0).isLt
      show p3 x = padRow _ (0 + 1 * (x 0).val)
      rw [hp3, padRow_of_not_mem _ _ (by omega)]
  rw [View.readCov_eq_canon v _ _ (fun j => hcov _)]
  refine (View.canon_apply_of_pieces (staged x0) _ hL _ (hcov _)).trans ?_
  show padRow (fun r => x0 (ix4 (0 : Fin 1) r ⟨0 + 1 * h.val, _⟩ ⟨0 + 1 * w.val, _⟩)) (K + 1 * s.val) = _
  have e1 : (⟨0 + 1 * h.val, by have := h.isLt; omega⟩ : Fin 64) = h := Fin.ext (by show 0 + 1 * h.val = h.val; omega)
  have e2 : (⟨0 + 1 * w.val, by have := w.isLt; omega⟩ : Fin 128) = w := Fin.ext (by show 0 + 1 * w.val = w.val; omega)
  have e0 : K + 1 * s.val = K + s.val := by omega
  rw [e0]
  exact congrArg (fun f => padRow f (K + s.val)) (funext fun r => by rw [e1, e2])

end Cert.MixScratch

end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowLit.lean ====
/-
  Row reductions and the column they are kept in, read at an index given by coordinates, in the spelling a kernel
  body's text carries: the accumulator a literal word and the side conditions the literal proofs `(.inl rfl) rfl`.
    * a sum along the second axis of an `[a, n]` array from the zero word, read at row `p`, is the sum over `k` of the
      entries `(p, k)`;
    * a maximum along the second axis from the word of minus infinity, read at row `p`, is the fold of `max`, from the
      value that word denotes, over the entries `(p, k)`;
    * a vector of `a` row values cast to an `[a, 1]` column and repeated over `[a, n]` reads, at `(p, k)`, the value at `p`.
  General in the extents.  Stated with the proofs spelt as a printed body spells them, so that they rewrite inside an
  unfolded body, where a statement over a hypothesis `acc = neutral` does not match.
-/
import proofs.«107940_j28784870818046_2_alg».proof.Proof.LibReduceLayout
import proofs.«107940_j28784870818046_2_alg».proof.Proof.LibMaxLayout
import proofs.«107940_j28784870818046_2_alg».proof.Proof.LibColumnLayout

namespace Cert.Lib.RowLit

open Idealize.ShloMosaic Idealize.ShloMosaic.ValueIdx

/-- A sum along the second axis from the zero word, read at row `p`. -/
theorem rowSum_lit {a n : ℕ} (v : FVec Ideal ⟨2, ![a, n]⟩ .f32) (h : (⟨2, ![a, n]⟩ : Shape).Reduces [1] ⟨1, ![a]⟩) (p : Fin a) :
    multiReduction .add [1] ⟨1, ![a]⟩ v 0x00000000#32 h (.inl rfl) rfl (ix1 p) = ∑ k : Fin n, v (ix2 p k) :=
  Cert.Lib.ReduceLayout.sum_axis1_apply v _ h _ _ p

/-- A maximum along the second axis from the word of minus infinity, read at row `p`. -/
theorem rowMax_lit {a n : ℕ} (v : FVec Ideal ⟨2, ![a, n]⟩ .f32) (h : (⟨2, ![a, n]⟩ : Shape).Reduces [1] ⟨1, ![a]⟩) (p : Fin a) :
    multiReduction .maximumf [1] ⟨1, ![a]⟩ v 0xFF800000#32 h (.inl rfl) rfl (ix1 p)
      = (Finset.univ : Finset (Fin n)).fold max (Ideal.ofBits .f32 0xFF800000#32) fun k => v (ix2 p k) :=
  Cert.Lib.MaxLayout.max_axis1_apply v _ h _ _ p

variable {α : Type}

/-- A vector of row values kept as a column and repeated along the second axis reads, at `(p, k)`, the value at `p`. -/
theorem column_apply {a n : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, n]⟩) (p : Fin a) (k : Fin n) :
    broadcastTo ⟨2, ![a, n]⟩ (shapeCast ⟨2, ![a, 1]⟩ x h₁) h₂ (ix2 p k) = x (ix1 p) :=
  (Cert.Lib.ColumnLayout.broadcastTo_a1_ab_apply _ h₂ p k).trans (Cert.Lib.ColumnLayout.shapeCast_a_a1_apply x h₁ p 0)

end Cert.Lib.RowLit
-- ==== Proof.MixBlock.lean ====
/-
  What the kernel's body leaves in its output block, read at an index.

  The body turns the block's 128 × 21 logits into softmax weights, stages the zero-padded input block in its
  scratch, and then accumulates into the output block, first to last over the window k = 0 … 20, weight k times the
  bands k … k + 127 of the staged input.  Each of the 21 stores covers the whole block, so the block ends at the last
  store's value, and every read of the block in between reads the store before it.  At (u, s, h, w) the block
  therefore holds the weighted sum of the specification, over the block's own logits and input.
-/
import proofs.«107940_j28784870818046_2_alg».proof.Proof.Gen.KernelIdeal.Frame
import Idealize.ShloMosaic.Lib.Pipeline.Value
import Idealize.ShloMosaic.Lib.Tactic
import proofs.«107940_j28784870818046_2_alg».proof.Proof.MixSpec
import proofs.«107940_j28784870818046_2_alg».proof.Proof.LibMixLayout
import proofs.«107940_j28784870818046_2_alg».proof.Proof.LibWholeStore
import proofs.«107940_j28784870818046_2_alg».proof.Proof.MixScratch
import proofs.«107940_j28784870818046_2_alg».proof.Proof.LibRowLit

set_option maxRecDepth 16384

noncomputable section

open Idealize.ShloMosaic Idealize.ShloMosaic.TcCoe Idealize.SL.Sem Idealize.ShloMosaic.ValueIdx

namespace Cert.KernelIdeal.MixBlock

open Cert.KernelIdeal Cert.KernelIdeal.Gen Cert.MixSpec

theorem hz4 : (![0, 0, 0, 0] : Fin 4 → Nat) = fun _ => 0 := funext fun a => by fin_cases a <;> rfl
theorem hz3 : (![0, 0, 0] : Fin 3 → Nat) = fun _ => 0 := funext fun a => by fin_cases a <;> rfl

theorem exp_apply {s : Shape} {φ : FTy} (a : FVec Ideal s φ) (i : s.Idx) : exp a i = Ideal.exp (a i) := rfl

/-- The softmax weights of the block: weight k of band s, from the block's logits. -/
theorem weights_apply (x1 : Vec Ideal S1x128x21 .f32) (s : Fin 128) (k : Fin 21) :
    k0_pay5 (F := Ideal) x1 (ix2 s k) = soft (fun k' => x1 (ix3 (0 : Fin 1) s k')) k := by
  unfold k0_pay5 soft rowMax
  simp only [divf_apply, exp_apply, subf_apply, @Cert.Lib.RowLit.column_apply _ 128 21, @Cert.Lib.RowLit.rowSum_lit 128 21,
    @Cert.Lib.RowLit.rowMax_lit 128 21, shapeCast_1ab_ab_apply]

/-- The scratch after the body's three stores, loaded from band K on. -/
abbrev staged {sig' : RefSig} {κ : Kind} {sp : Space} (v : View sig' κ sp S148x64x128 .f32) (x0 : Vec Ideal S1x128x64x128 .f32) (K : ℕ)
    (inbK : ∀ a, (![K, 0, 0] : Fin 3 → ℕ) a + S128x64x128.size a ≤ S148x64x128.size a) : Vec Ideal S128x64x128 .f32 :=
  v.readCov (Val := Elt Ideal)
    [⟨Rect.unit ![10, 0, 0] S128x64x128.size inb_S148x64x128_S128x64x128_10_0_0, k0_pay4 (F := Ideal) x0⟩,
      ⟨Rect.unit ![138, 0, 0] S10x64x128.size inb_S148x64x128_S10x64x128_138_0_0, k0_pay3 (F := Ideal)⟩,
      ⟨Rect.unit ![0, 0, 0] S10x64x128.size inb_S148x64x128_S10x64x128_0_0_0, k0_pay2 (F := Ideal)⟩]
    (Rect.unit (s := S148x64x128) ![K, 0, 0] S128x64x128.size inbK).toLoadRect

/-- Read at (s, h, w) it is band K + s of the padded input block. -/
theorem staged_apply {sig' : RefSig} {κ : Kind} {sp : Space} (v : View sig' κ sp S148x64x128 .f32) (x0 : Vec Ideal S1x128x64x128 .f32)
    (K : ℕ) (hK : K ≤ 20) (inbK : ∀ a, (![K, 0, 0] : Fin 3 → ℕ) a + S128x64x128.size a ≤ S148x64x128.size a)
    (s : Fin 128) (h : Fin 64) (w : Fin 128) :
    staged v x0 K inbK (ix3 s h w) = padRow (fun r => x0 (ix4 (0 : Fin 1) r h w)) (K + s.val) :=
  Cert.MixScratch.load_apply v K hK x0 (k0_pay4 (F := Ideal) x0)
    (fun a b c => by unfold k0_pay4; rw [shapeCast_self, shapeCast_1abc_abc_apply])
    (k0_pay3 (F := Ideal)) (k0_pay2 (F := Ideal))
    (fun y => by unfold k0_pay3; rw [shapeCast_self]; exact Ideal.ofBits_zero_f32)
    (fun y => by unfold k0_pay2; rw [shapeCast_self]; exact Ideal.ofBits_zero_f32)
    _ _ _ inbK s h w

/-- One term of the sum: the block's weight K of band s times band K + s of its padded input. -/
theorem term_eq {sig' : RefSig} {κ : Kind} {sp : Space} (v : View sig' κ sp S148x64x128 .f32) (x0 : Vec Ideal S1x128x64x128 .f32)
    (x1 : Vec Ideal S1x128x21 .f32) (K : ℕ) (hK : K < 21)
    (inbK : ∀ a, (![K, 0, 0] : Fin 3 → ℕ) a + S128x64x128.size a ≤ S148x64x128.size a) (s : Fin 128) (h : Fin 64) (w : Fin 128) :
    k0_pay5 (F := Ideal) x1 (ix2 s ⟨K, hK⟩) * staged v x0 K inbK (ix3 s h w)
      = soft (fun k' => x1 (ix3 (0 : Fin 1) s k')) ⟨K, hK⟩ * padRow (fun r => x0 (ix4 (0 : Fin 1) r h w)) (K + s.val) := by
  rw [weights_apply, staged_apply v x0 K (by omega)]

/-- THE BLOCK: what the body leaves in the output's staging buffer, at (u, s, h, w). -/
theorem block_apply (c : Dev nD) (i : grid0.Coords) (a2 : Memref sig .tc .vmem S1x128x64x128 .f32) (h2 : a2.IsWhole)
    (a3 : Memref sig .tc .vmem S1x128x21 .f32) (h3 : a3.IsWhole) (a4 : Memref sig .tc .vmem S1x128x64x128 .f32) (h4 : a4.IsWhole)
    (a5 : Memref sig .tc .vmem S148x64x128 .f32) (h5 : a5.IsWhole)
    (x0 : Vec Ideal S1x128x64x128 .f32) (x1 : Vec Ideal S1x128x21 .f32) (u : Fin 1) (s : Fin 128) (h : Fin 64) (w : Fin 128) :
    out0_A_2 (F := Ideal) c i a2 h2 a3 h3 a4 h4 a5 h5 x0 x1 (ix4 u s h w)
      = mix (soft fun k => x1 (ix3 (0 : Fin 1) s k)) (fun k => padRow (fun r => x0 (ix4 (0 : Fin 1) r h w)) (k.val + s.val)) := by
  unfold out0_A_2
  rw [View.read_writes_eq_canon _ _ _ (cover0_A_2 c i a2 h2 a3 h3 a4 h4 a5 h5 x0 x1)]
  unfold kernelRun0_A
  dsimp only
  sl_unfold_words
  rw [View.canon_cons_unit_zero (S := S1x128x64x128) hz4]
  simp only [Cert.Lib.WholeStore.readCov_cons_whole (S := S1x128x64x128) _ hz4, View.readAt_eq_ld, h2.read_unread, h3.read_unread,
    View.ld_unit_zero (S := S1x128x64x128) hz4, View.ld_unit_zero (S := S1x128x21) hz3]
  unfold mix
  refine (Cert.Lib.MixLayout.step_apply (a := 128) (b := 64) (c := 128) (n := 21) 20 (by decide) _ _ _ _ _ _ _ _ _ u s h w).trans (congrArg₂ (· + ·) ?_ (term_eq a5.view x0 x1 20 (by decide) _ s h w))
  refine (Cert.Lib.MixLayout.step_apply (a := 128) (b := 64) (c := 128) (n := 21) 19 (by decide) _ _ _ _ _ _ _ _ _ (0 : Fin 1) s h w).trans (congrArg₂ (· + ·) ?_ (term_eq a5.view x0 x1 19 (by decide) _ s h w))
  refine (Cert.Lib.MixLayout.step_apply (a := 128) (b := 64) (c := 128) (n := 21) 18 (by decide) _ _ _ _ _ _ _ _ _ (0 : Fin 1) s h w).trans (congrArg₂ (· + ·) ?_ (term_eq a5.view x0 x1 18 (by decide) _ s h w))
  refine (Cert.Lib.MixLayout.step_apply (a := 128) (b := 64) (c := 128) (n := 21) 17 (by decide) _ _ _ _ _ _ _ _ _ (0 : Fin 1) s h w).trans (congrArg₂ (· + ·) ?_ (term_eq a5.view x0 x1 17 (by decide) _ s h w))
  refine (Cert.Lib.MixLayout.step_apply (a := 128) (b := 64) (c := 128) (n := 21) 16 (by decide) _ _ _ _ _ _ _ _ _ (0 : Fin 1) s h w).trans (congrArg₂ (· + ·) ?_ (term_eq a5.view x0 x1 16 (by decide) _ s h w))
  refine (Cert.Lib.MixLayout.step_apply (a := 128) (b := 64) (c := 128) (n := 21) 15 (by decide) _ _ _ _ _ _ _ _ _ (0 : Fin 1) s h w).trans (congrArg₂ (· + ·) ?_ (term_eq a5.view x0 x1 15 (by decide) _ s h w))
  refine (Cert.Lib.MixLayout.step_apply (a := 128) (b := 64) (c := 128) (n := 21) 14 (by decide) _ _ _ _ _ _ _ _ _ (0 : Fin 1) s h w).trans (congrArg₂ (· + ·) ?_ (term_eq a5.view x0 x1 14 (by decide) _ s h w))
  refine (Cert.Lib.MixLayout.step_apply (a := 128) (b := 64) (c := 128) (n := 21) 13 (by decide) _ _ _ _ _ _ _ _ _ (0 : Fin 1) s h w).trans (congrArg₂ (· + ·) ?_ (term_eq a5.view x0 x1 13 (by decide) _ s h w))
  refine (Cert.Lib.MixLayout.step_apply (a := 128) (b := 64) (c := 128) (n := 21) 12 (by decide) _ _ _ _ _ _ _ _ _ (0 : Fin 1) s h w).trans (congrArg₂ (· + ·) ?_ (term_eq a5.view x0 x1 12 (by decide) _ s h w))
  refine (Cert.Lib.MixLayout.step_apply (a := 128) (b := 64) (c := 128) (n := 21) 11 (by decide) _ _ _ _ _ _ _ _ _ (0 : Fin 1) s h w).trans (congrArg₂ (· + ·) ?_ (term_eq a5.view x0 x1 11 (by decide) _ s h w))
  refine (Cert.Lib.MixLayout.step_apply (a := 128) (b := 64) (c := 128) (n := 21) 10 (by decide) _ _ _ _ _ _ _ _ _ (0 : Fin 1) s h w).trans (congrArg₂ (· + ·) ?_ (term_eq a5.view x0 x1 10 (by decide) _ s h w))
  refine (Cert.Lib.MixLayout.step_apply (a := 128) (b := 64) (c := 128) (n := 21) 9 (by decide) _ _ _ _ _ _ _ _ _ (0 : Fin 1) s h w).trans (congrArg₂ (· + ·) ?_ (term_eq a5.view x0 x1 9 (by decide) _ s h w))
  refine (Cert.Lib.MixLayout.step_apply (a := 128) (b := 64) (c := 128) (n := 21) 8 (by decide) _ _ _ _ _ _ _ _ _ (0 : Fin 1) s h w).trans (congrArg₂ (· + ·) ?_ (term_eq a5.view x0 x1 8 (by decide) _ s h w))
  refine (Cert.Lib.MixLayout.step_apply (a := 128) (b := 64) (c := 128) (n := 21) 7 (by decide) _ _ _ _ _ _ _ _ _ (0 : Fin 1) s h w).trans (congrArg₂ (· + ·) ?_ (term_eq a5.view x0 x1 7 (by decide) _ s h w))
  refine (Cert.Lib.MixLayout.step_apply (a := 128) (b := 64) (c := 128) (n := 21) 6 (by decide) _ _ _ _ _ _ _ _ _ (0 : Fin 1) s h w).trans (congrArg₂ (· + ·) ?_ (term_eq a5.view x0 x1 6 (by decide) _ s h w))
  refine (Cert.Lib.MixLayout.step_apply (a := 128) (b := 64) (c := 128) (n := 21) 5 (by decide) _ _ _ _ _ _ _ _ _ (0 : Fin 1) s h w).trans (congrArg₂ (· + ·) ?_ (term_eq a5.view x0 x1 5 (by decide) _ s h w))
  refine (Cert.Lib.MixLayout.step_apply (a := 128) (b := 64) (c := 128) (n := 21) 4 (by decide) _ _ _ _ _ _ _ _ _ (0 : Fin 1) s h w).trans (congrArg₂ (· + ·) ?_ (term_eq a5.view x0 x1 4 (by decide) _ s h w))
  refine (Cert.Lib.MixLayout.step_apply (a := 128) (b := 64) (c := 128) (n := 21) 3 (by decide) _ _ _ _ _ _ _ _ _ (0 : Fin 1) s h w).trans (congrArg₂ (· + ·) ?_ (term_eq a5.view x0 x1 3 (by decide) _ s h w))
  refine (Cert.Lib.MixLayout.step_apply (a := 128) (b := 64) (c := 128) (n := 21) 2 (by decide) _ _ _ _ _ _ _ _ _ (0 : Fin 1) s h w).trans (congrArg₂ (· + ·) ?_ (term_eq a5.view x0 x1 2 (by decide) _ s h w))
  refine (Cert.Lib.MixLayout.step_apply (a := 128) (b := 64) (c := 128) (n := 21) 1 (by decide) _ _ _ _ _ _ _ _ _ (0 : Fin 1) s h w).trans (congrArg₂ (· + ·) ?_ (term_eq a5.view x0 x1 1 (by decide) _ s h w))
  exact (Cert.Lib.MixLayout.first_apply (a := 128) (b := 64) (c := 128) (n := 21) 0 (by decide) _ _ _ _ _ _ _ (0 : Fin 1) s h w).trans
    (term_eq a5.view x0 x1 0 (by decide) _ s h w)

end Cert.KernelIdeal.MixBlock

end
-- ==== Proof.MixKernel.lean ====
/-
  The kernel's result array as one function of its two argument arrays.

  The grid has a point per (sample b, half hb of the H axis); the point's output block is rows (b, ·, 64 hb … 64 hb + 63, ·)
  of the result, its input block the same rows of x, and its logits block sample b of the logits.  What the body leaves
  in the output block is the specification's weighted sum over the block's own logits and input (the block lemma), and
  those are the array's logits and input under the block, so the block written back is the specification read through
  the block.  The eight blocks cover the result array, so the array ends at the specification.
-/
import proofs.«107940_j28784870818046_2_alg».proof.Proof.Gen.KernelIdeal.Value
import proofs.«107940_j28784870818046_2_alg».proof.Proof.MixBlock

set_option maxRecDepth 16384

noncomputable section

open Idealize.ShloMosaic Idealize.ShloMosaic.TcCoe Idealize.SL.Sem Idealize.ShloMosaic.ValueIdx
open Idealize.ShloMosaic.Pipeline (Dat)

namespace Cert.KernelIdeal.MixValue

open Cert.KernelIdeal Cert.KernelIdeal.Gen Cert.KernelIdeal.Value Cert.MixSpec

variable (m : (ℓ : Loc nD τ sig) → Buf (Elt Ideal) ℓ) (ρ : Dev nD → PrngReg)

/-- The block lemma over an array: if the block's logits and input are the arrays' under the index e, the block at j is
    the specification at e. -/
theorem block_eq_G (c : Dev nD) (i : grid0.Coords) (a2 : Memref sig .tc .vmem S1x128x64x128 .f32) (h2 : a2.IsWhole)
    (a3 : Memref sig .tc .vmem S1x128x21 .f32) (h3 : a3.IsWhole) (a4 : Memref sig .tc .vmem S1x128x64x128 .f32) (h4 : a4.IsWhole)
    (a5 : Memref sig .tc .vmem S148x64x128 .f32) (h5 : a5.IsWhole)
    (x0 : Vec Ideal S1x128x64x128 .f32) (x1 : Vec Ideal S1x128x21 .f32)
    (X : S4x128x128x128.Idx → EReal) (M : S4x128x21.Idx → EReal) (u : Fin 1) (s : Fin 128) (h : Fin 64) (w : Fin 128)
    (e : S4x128x128x128.Idx) (h1 : (e 1).val = s.val)
    (hx1 : ∀ k : Fin 21, x1 (ix3 (0 : Fin 1) s k) = M (ix3 (e 0) (e 1) k))
    (hx0 : ∀ r : Fin 128, x0 (ix4 (0 : Fin 1) r h w) = X (ix4 (e 0) r (e 2) (e 3))) :
    out0_A_2 (F := Ideal) c i a2 h2 a3 h3 a4 h4 a5 h5 x0 x1 (ix4 u s h w) = G X M e := by
  rw [Cert.KernelIdeal.MixBlock.block_apply]
  unfold G
  rw [h1]
  simp only [hx1, hx0]

/-- The printed index maps, decided over the grid's eight points. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 3) = win0_2.index t (0 : Fin 4) ∧ win0_1.index t (1 : Fin 3) = 0 ∧ win0_1.index t (2 : Fin 3) = 0
    ∧ win0_2.index t (1 : Fin 4) = 0 ∧ win0_2.index t (3 : Fin 4) = 0
    ∧ win0_2.index t (0 : Fin 4) ≤ 3 ∧ win0_2.index t (2 : Fin 4) ≤ 1 :=
  (by decide +kernel : ∀ t : Fin grid0.N, _)

/-- Every (sample, half) is some point's. -/
theorem idx_onto : ∀ (q0 : Fin 4) (q2 : Fin 2), ∃ t : Fin cfg0.N, win0_2.index t = ![q0.val, 0, q2.val, 0] :=
  (by decide +kernel : ∀ (q0 : Fin 4) (q2 : Fin 2), ∃ t : Fin grid0.N, win0_2.index t = ![q0.val, 0, q2.val, 0])

/-- WHAT POINT t WRITES BACK is block t of the specification of the argument arrays. -/
theorem flushed_eq (c : Dev nD) (t : Fin cfg0.N) :
    (dats m 0 c).flushed 2 t = ((cfg0.win 2).blk t).view.read (Elt Ideal) (G (V m c main_arg0) (V m c main_arg1)) := by
  rw [flushed2_A]
  obtain ⟨e00, e01, e02, e03, e10, e11, e12, e21, e23, b0, b2⟩ := idx_facts t
  funext j
  obtain ⟨u, s, h, w, rfl⟩ : ∃ (u : Fin 1) (s : Fin 128) (h : Fin 64) (w : Fin 128), j = ix4 u s h w :=
    ⟨j 0, j 1, j 2, j 3, eq_ix4 j⟩
  have hu : u.val = 0 := by omega
  show out0_A_2 (F := Ideal) c (grid0.coords t) (ms0_0 t) (hs0_0 t) (ms0_1 t) (hs0_1 t) (ms0_2 t) (hs0_2 t) scM0_0
      (Memref.isWhole_whole _) (iblk m c 0 t) (iblk m c 1 t) (ix4 u s h w)
    = G (V m c main_arg0) (V m c main_arg1) (((cfg0.win 2).blk t).view.emb (ix4 u s h w))
  refine block_eq_G c (grid0.coords t) (ms0_0 t) (hs0_0 t) (ms0_1 t) (hs0_1 t) (ms0_2 t) (hs0_2 t) scM0_0
    (Memref.isWhole_whole _) (iblk m c 0 t) (iblk m c 1 t) (V m c main_arg0) (V m c main_arg1) u s h w
    (((cfg0.win 2).blk t).view.emb (ix4 u s h w)) ?_ ?_ ?_
  · show win0_2.index t (1 : Fin 4) * 128 + 1 * s.val = s.val
    omega
  · intro k
    show V m c main_arg1 (((cfg0.win 1).blk t).view.emb (ix3 (0 : Fin 1) s k)) = V m c main_arg1 _
    refine congrArg (V m c main_arg1) (funext fun a => Fin.ext ?_)
    match a with
    | ⟨0, _⟩ => show win0_1.index t (0 : Fin 3) * 1 + 1 * 0 = win0_2.index t (0 : Fin 4) * 1 + 1 * u.val; omega
    | ⟨1, _⟩ => show win0_1.index t (1 : Fin 3) * 128 + 1 * s.val = win0_2.index t (1 : Fin 4) * 128 + 1 * s.val; omega
    | ⟨2, _⟩ => show win0_1.index t (2 : Fin 3) * 21 + 1 * k.val = k.val; omega
  · intro r
    show V m c main_arg0 (((cfg0.win 0).blk t).view.emb (ix4 (0 : Fin 1) r h w)) = V m c main_arg0 _
    refine congrArg (V m c main_arg0) (funext fun a => Fin.ext ?_)
    match a with
    | ⟨0, _⟩ => show win0_0.index t (0 : Fin 4) * 1 + 1 * 0 = win0_2.index t (0 : Fin 4) * 1 + 1 * u.val; omega
    | ⟨1, _⟩ => show win0_0.index t (1 : Fin 4) * 128 + 1 * r.val = r.val; omega
    | ⟨2, _⟩ => show win0_0.index t (2 : Fin 4) * 64 + 1 * h.val = win0_2.index t (2 : Fin 4) * 64 + 1 * h.val; omega
    | ⟨3, _⟩ => show win0_0.index t (3 : Fin 4) * 128 + 1 * w.val = win0_2.index t (3 : Fin 4) * 128 + 1 * w.val; omega

/-- An index of the array is in point t's block iff each coordinate is in the block's range on its axis. -/
theorem mem_blk (t : Fin cfg0.N) (i : S4x128x128x128.Idx) :
    i ∈ ((cfg0.win 2).blk t).view.set ↔ ∀ a : Fin 4, win0_2.index t a * S1x128x64x128.size a ≤ (i a).val
      ∧ (i a).val < win0_2.index t a * S1x128x64x128.size a + S1x128x64x128.size a := by
  show i ∈ ((View.whole main_v0).slice (win0_2.rect t)).set ↔ _
  rw [View.set_slice_whole, Rect.mem_set_unit]
  exact Iff.rfl

/-- Every index of the result array is in some point's block: the point of its sample and its half of the H axis. -/
theorem cover (i : S4x128x128x128.Idx) :
    ∃ t : Fin cfg0.N, (cfg0.win 2).flush t = true ∧ i ∈ ((cfg0.win 2).blk t).view.set := by
  have hi0 : (i 0).val < 4 := (i 0).isLt
  have hi1 : (i 1).val < 128 := (i 1).isLt
  have hi2 : (i 2).val < 128 := (i 2).isLt
  have hi3 : (i 3).val < 128 := (i 3).isLt
  obtain ⟨t, ht⟩ := idx_onto ⟨(i 0).val, hi0⟩ ⟨(i 2).val / 64, by omega⟩
  have q0 : win0_2.index t (0 : Fin 4) = (i 0).val := congrFun ht 0
  have q1 : win0_2.index t (1 : Fin 4) = 0 := congrFun ht 1
  have q2 : win0_2.index t (2 : Fin 4) = (i 2).val / 64 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 128 ≤ (i 1).val ∧ (i 1).val < win0_2.index t (1 : Fin 4) * 128 + 128; omega
  | ⟨2, _⟩ => show win0_2.index t (2 : Fin 4) * 64 ≤ (i 2).val ∧ (i 2).val < win0_2.index t (2 : Fin 4) * 64 + 64; omega
  | ⟨3, _⟩ => show win0_2.index t (3 : Fin 4) * 128 ≤ (i 3).val ∧ (i 3).val < win0_2.index t (3 : Fin 4) * 128 + 128; omega

/-- THE ARRAY after the run: the specification of the argument arrays. -/
theorem final (c : Dev nD) : (dats m 0 c).arrAt 2 cfg0.N = G (V m c main_arg0) (V m c main_arg1) :=
  (dats m 0 c).arrAt_eq_of_cover 2 (G (V m c main_arg0) (V m c main_arg1)) (fun t _ => flushed_eq m c t) cover

/-- The kernel's run, read: the result array at the specification of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.MixValue

end
-- ==== Proof.RefOps.lean ====
/-
  The reference's @main as a line of host operations, cut where its mathematics cuts it.

  The line opens with nineteen operations: the softmax of the logits (row maximum, its maximum with minus infinity,
  the shifted exponentials, their row sums, the quotient), the padding of the input with ten zero bands on either
  side, and a zero array.  Then come twenty-one groups of seven operations, one per window position k: cut weight
  column k, flatten it, stand it up, cut the bands k … k + 127 of the padded input, repeat the column, multiply, and
  add the product to the running sum.  The program is the line of the opening followed by the groups in order.
-/
import proofs.«107940_j28784870818046_2_alg».proof.Proof.Gen.ReferenceIdeal
import Idealize.ShloMosaic.Lib.StableHlo.Run

noncomputable section

namespace Cert.ReferenceIdeal.MixRun

open Cert.ReferenceIdeal Cert.ReferenceIdeal.Gen Idealize.ShloMosaic Idealize.ShloMosaic.TcCoe Idealize.SL.Sem Idealize.ShloMosaic.StableHlo

variable {F : FTy → Type} [FloatOps F]

/-- The opening: softmax weights, padded input, zero array. -/
abbrev pre : List (HloOp τ sig (Elt F)) :=
  [ nullary main_cst (constant S_ .f32 0xFF800000#32),
    binary main_arg1 main_cst main_v0 ((fun x v => Host.reduce FloatOps.maximumf x v reducesTo_S4x128x21_S4x128_d2 h_S_) : (⟨S4x128x21, .f32⟩ : BufTy).Contents (Elt F) → (⟨S_, .f32⟩ : BufTy).Contents (Elt F) → (⟨S4x128, .f32⟩ : BufTy).Contents (Elt F)),
    nullary main_cst_0 (constant S_ .f32 0xFF800000#32),
    unary main_cst_0 main_v1 (broadcastInDim S4x128 ![] bcast_S_S4x128 : (⟨S_, .f32⟩ : BufTy).Contents (Elt F) → (⟨S4x128, .f32⟩ : BufTy).Contents (Elt F)),
    binary main_v1 main_v0 main_v2 (maximumf : (⟨S4x128, .f32⟩ : BufTy).Contents (Elt F) → (⟨S4x128, .f32⟩ : BufTy).Contents (Elt F) → (⟨S4x128, .f32⟩ : BufTy).Contents (Elt F)),
    unary main_v2 main_v3 (broadcastInDim S4x128x1 ![0, 1] bcast_S4x128_S4x128x1_0_1 : (⟨S4x128, .f32⟩ : BufTy).Contents (Elt F) → (⟨S4x128x1, .f32⟩ : BufTy).Contents (Elt F)),
    unary main_v3 main_v4 (broadcastInDim S4x128x21 ![0, 1, 2] bcast_S4x128x1_S4x128x21_0_1_2 : (⟨S4x128x1, .f32⟩ : BufTy).Contents (Elt F) → (⟨S4x128x21, .f32⟩ : BufTy).Contents (Elt F)),
    binary main_arg1 main_v4 main_v5 (subf : (⟨S4x128x21, .f32⟩ : BufTy).Contents (Elt F) → (⟨S4x128x21, .f32⟩ : BufTy).Contents (Elt F) → (⟨S4x128x21, .f32⟩ : BufTy).Contents (Elt F)),
    unary main_v5 main_v6 (Host.exp : (⟨S4x128x21, .f32⟩ : BufTy).Contents (Elt F) → (⟨S4x128x21, .f32⟩ : BufTy).Contents (Elt F)),
    nullary main_cst_1 (constant S_ .f32 0x00000000#32),
    binary main_v6 main_cst_1 main_v7 ((fun x v => Host.reduceAdd x v reducesTo_S4x128x21_S4x128_d2 h_S_) : (⟨S4x128x21, .f32⟩ : BufTy).Contents (Elt F) → (⟨S_, .f32⟩ : BufTy).Contents (Elt F) → (⟨S4x128, .f32⟩ : BufTy).Contents (Elt F)),
    unary main_v7 main_v8 (broadcastInDim S4x128x1 ![0, 1] bcast_S4x128_S4x128x1_0_1 : (⟨S4x128, .f32⟩ : BufTy).Contents (Elt F) → (⟨S4x128x1, .f32⟩ : BufTy).Contents (Elt F)),
    unary main_v8 main_v9 (broadcastInDim S4x128x21 ![0, 1, 2] bcast_S4x128x1_S4x128x21_0_1_2 : (⟨S4x128x1, .f32⟩ : BufTy).Contents (Elt F) → (⟨S4x128x21, .f32⟩ : BufTy).Contents (Elt F)),
    binary main_v6 main_v9 main_v10 (Host.divf : (⟨S4x128x21, .f32⟩ : BufTy).Contents (Elt F) → (⟨S4x128x21, .f32⟩ : BufTy).Contents (Elt F) → (⟨S4x128x21, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x128x128x128, .f32⟩) main_arg0) (TRef.of (T := ⟨S_, .f32⟩) main_call0_v0) (TRef.of (T := ⟨S4x148x128x128, .f32⟩) main_v11) (fun x v => pad S4x148x128x128 ![0, 10, 0, 0] ![0, 10, 0, 0] ![0, 0, 0, 0] x v pads_S4x128x128x128_S4x148x128x128_000_10100_000_000 h_S_),
    nullary main_cst_2 (constant S_ .f32 0x00000000#32),
    unary main_cst_2 main_v12 (broadcastInDim S4x128x128x128 ![] bcast_S_S4x128x128x128 : (⟨S_, .f32⟩ : BufTy).Contents (Elt F) → (⟨S4x128x128x128, .f32⟩ : BufTy).Contents (Elt F)) ]

/-- Window position 0: the running sum plus weight column 0 times the padded input's bands 0 … 127. -/
abbrev grp0 : List (HloOp τ sig (Elt F)) :=
  [ unary main_v10 main_v13 ((extractStridedSlice S4x128x1 ![0, 0, 0] · slices_S4x128x21_S4x128x1_0_0_0) : (⟨S4x128x21, .f32⟩ : BufTy).Contents (Elt F) → (⟨S4x128x1, .f32⟩ : BufTy).Contents (Elt F)),
    reshape main_v13 main_v14 rfl shapeCasts_S4x128x1_S4x128,
    unary main_v14 main_v15 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v16 ((extractStridedSlice S4x128x128x128 ![0, 0, 0, 0] · slices_S4x148x128x128_S4x128x128x128_0_0_0_0) : (⟨S4x148x128x128, .f32⟩ : BufTy).Contents (Elt F) → (⟨S4x128x128x128, .f32⟩ : BufTy).Contents (Elt F)),
    unary main_v15 main_v17 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v17 main_v16 main_v18 (mulf : (⟨S4x128x128x128, .f32⟩ : BufTy).Contents (Elt F) → (⟨S4x128x128x128, .f32⟩ : BufTy).Contents (Elt F) → (⟨S4x128x128x128, .f32⟩ : BufTy).Contents (Elt F)),
    binary main_v12 main_v18 main_v19 (addf : (⟨S4x128x128x128, .f32⟩ : BufTy).Contents (Elt F) → (⟨S4x128x128x128, .f32⟩ : BufTy).Contents (Elt F) → (⟨S4x128x128x128, .f32⟩ : BufTy).Contents (Elt F)) ]

/-- Window position 1: the running sum plus weight column 1 times the padded input's bands 1 … 128. -/
abbrev grp1 : List (HloOp τ sig (Elt F)) :=
  [ unary main_v10 main_v20 ((extractStridedSlice S4x128x1 ![0, 0, 1] · slices_S4x128x21_S4x128x1_0_0_1) : (⟨S4x128x21, .f32⟩ : BufTy).Contents (Elt F) → (⟨S4x128x1, .f32⟩ : BufTy).Contents (Elt F)),
    reshape main_v20 main_v21 rfl shapeCasts_S4x128x1_S4x128,
    unary main_v21 main_v22 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v23 ((extractStridedSlice S4x128x128x128 ![0, 1, 0, 0] · slices_S4x148x128x128_S4x128x128x128_0_1_0_0) : (⟨S4x148x128x128, .f32⟩ : BufTy).Contents (Elt F) → (⟨S4x128x128x128, .f32⟩ : BufTy).Contents (Elt F)),
    unary main_v22 main_v24 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v24 main_v23 main_v25 (mulf : (⟨S4x128x128x128, .f32⟩ : BufTy).Contents (Elt F) → (⟨S4x128x128x128, .f32⟩ : BufTy).Contents (Elt F) → (⟨S4x128x128x128, .f32⟩ : BufTy).Contents (Elt F)),
    binary main_v19 main_v25 main_v26 (addf : (⟨S4x128x128x128, .f32⟩ : BufTy).Contents (Elt F) → (⟨S4x128x128x128, .f32⟩ : BufTy).Contents (Elt F) → (⟨S4x128x128x128, .f32⟩ : BufTy).Contents (Elt F)) ]

/-- Window position 2: the running sum plus weight column 2 times the padded input's bands 2 … 129. -/
abbrev grp2 : List (HloOp τ sig (Elt F)) :=
  [ unary main_v10 main_v27 ((extractStridedSlice S4x128x1 ![0, 0, 2] · slices_S4x128x21_S4x128x1_0_0_2) : (⟨S4x128x21, .f32⟩ : BufTy).Contents (Elt F) → (⟨S4x128x1, .f32⟩ : BufTy).Contents (Elt F)),
    reshape main_v27 main_v28 rfl shapeCasts_S4x128x1_S4x128,
    unary main_v28 main_v29 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v30 ((extractStridedSlice S4x128x128x128 ![0, 2, 0, 0] · slices_S4x148x128x128_S4x128x128x128_0_2_0_0) : (⟨S4x148x128x128, .f32⟩ : BufTy).Contents (Elt F) → (⟨S4x128x128x128, .f32⟩ : BufTy).Contents (Elt F)),
    unary main_v29 main_v31 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v31 main_v30 main_v32 (mulf : (⟨S4x128x128x128, .f32⟩ : BufTy).Contents (Elt F) → (⟨S4x128x128x128, .f32⟩ : BufTy).Contents (Elt F) → (⟨S4x128x128x128, .f32⟩ : BufTy).Contents (Elt F)),
    binary main_v26 main_v32 main_v33 (addf : (⟨S4x128x128x128, .f32⟩ : BufTy).Contents (Elt F) → (⟨S4x128x128x128, .f32⟩ : BufTy).Contents (Elt F) → (⟨S4x128x128x128, .f32⟩ : BufTy).Contents (Elt F)) ]

/-- Window position 3: the running sum plus weight column 3 times the padded input's bands 3 … 130. -/
abbrev grp3 : List (HloOp τ sig (Elt F)) :=
  [ unary main_v10 main_v34 ((extractStridedSlice S4x128x1 ![0, 0, 3] · slices_S4x128x21_S4x128x1_0_0_3) : (⟨S4x128x21, .f32⟩ : BufTy).Contents (Elt F) → (⟨S4x128x1, .f32⟩ : BufTy).Contents (Elt F)),
    reshape main_v34 main_v35 rfl shapeCasts_S4x128x1_S4x128,
    unary main_v35 main_v36 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v37 ((extractStridedSlice S4x128x128x128 ![0, 3, 0, 0] · slices_S4x148x128x128_S4x128x128x128_0_3_0_0) : (⟨S4x148x128x128, .f32⟩ : BufTy).Contents (Elt F) → (⟨S4x128x128x128, .f32⟩ : BufTy).Contents (Elt F)),
    unary main_v36 main_v38 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v38 main_v37 main_v39 (mulf : (⟨S4x128x128x128, .f32⟩ : BufTy).Contents (Elt F) → (⟨S4x128x128x128, .f32⟩ : BufTy).Contents (Elt F) → (⟨S4x128x128x128, .f32⟩ : BufTy).Contents (Elt F)),
    binary main_v33 main_v39 main_v40 (addf : (⟨S4x128x128x128, .f32⟩ : BufTy).Contents (Elt F) → (⟨S4x128x128x128, .f32⟩ : BufTy).Contents (Elt F) → (⟨S4x128x128x128, .f32⟩ : BufTy).Contents (Elt F)) ]

/-- Window position 4: the running sum plus weight column 4 times the padded input's bands 4 … 131. -/
abbrev grp4 : List (HloOp τ sig (Elt F)) :=
  [ unary main_v10 main_v41 ((extractStridedSlice S4x128x1 ![0, 0, 4] · slices_S4x128x21_S4x128x1_0_0_4) : (⟨S4x128x21, .f32⟩ : BufTy).Contents (Elt F) → (⟨S4x128x1, .f32⟩ : BufTy).Contents (Elt F)),
    reshape main_v41 main_v42 rfl shapeCasts_S4x128x1_S4x128,
    unary main_v42 main_v43 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v44 ((extractStridedSlice S4x128x128x128 ![0, 4, 0, 0] · slices_S4x148x128x128_S4x128x128x128_0_4_0_0) : (⟨S4x148x128x128, .f32⟩ : BufTy).Contents (Elt F) → (⟨S4x128x128x128, .f32⟩ : BufTy).Contents (Elt F)),
    unary main_v43 main_v45 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v45 main_v44 main_v46 (mulf : (⟨S4x128x128x128, .f32⟩ : BufTy).Contents (Elt F) → (⟨S4x128x128x128, .f32⟩ : BufTy).Contents (Elt F) → (⟨S4x128x128x128, .f32⟩ : BufTy).Contents (Elt F)),
    binary main_v40 main_v46 main_v47 (addf : (⟨S4x128x128x128, .f32⟩ : BufTy).Contents (Elt F) → (⟨S4x128x128x128, .f32⟩ : BufTy).Contents (Elt F) → (⟨S4x128x128x128, .f32⟩ : BufTy).Contents (Elt F)) ]

/-- Window position 5: the running sum plus weight column 5 times the padded input's bands 5 … 132. -/
abbrev grp5 : List (HloOp τ sig (Elt F)) :=
  [ unary main_v10 main_v48 ((extractStridedSlice S4x128x1 ![0, 0, 5] · slices_S4x128x21_S4x128x1_0_0_5) : (⟨S4x128x21, .f32⟩ : BufTy).Contents (Elt F) → (⟨S4x128x1, .f32⟩ : BufTy).Contents (Elt F)),
    reshape main_v48 main_v49 rfl shapeCasts_S4x128x1_S4x128,
    unary main_v49 main_v50 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v51 ((extractStridedSlice S4x128x128x128 ![0, 5, 0, 0] · slices_S4x148x128x128_S4x128x128x128_0_5_0_0) : (⟨S4x148x128x128, .f32⟩ : BufTy).Contents (Elt F) → (⟨S4x128x128x128, .f32⟩ : BufTy).Contents (Elt F)),
    unary main_v50 main_v52 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v52 main_v51 main_v53 (mulf : (⟨S4x128x128x128, .f32⟩ : BufTy).Contents (Elt F) → (⟨S4x128x128x128, .f32⟩ : BufTy).Contents (Elt F) → (⟨S4x128x128x128, .f32⟩ : BufTy).Contents (Elt F)),
    binary main_v47 main_v53 main_v54 (addf : (⟨S4x128x128x128, .f32⟩ : BufTy).Contents (Elt F) → (⟨S4x128x128x128, .f32⟩ : BufTy).Contents (Elt F) → (⟨S4x128x128x128, .f32⟩ : BufTy).Contents (Elt F)) ]

/-- Window position 6: the running sum plus weight column 6 times the padded input's bands 6 … 133. -/
abbrev grp6 : List (HloOp τ sig (Elt F)) :=
  [ unary main_v10 main_v55 ((extractStridedSlice S4x128x1 ![0, 0, 6] · slices_S4x128x21_S4x128x1_0_0_6) : (⟨S4x128x21, .f32⟩ : BufTy).Contents (Elt F) → (⟨S4x128x1, .f32⟩ : BufTy).Contents (Elt F)),
    reshape main_v55 main_v56 rfl shapeCasts_S4x128x1_S4x128,
    unary main_v56 main_v57 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v58 ((extractStridedSlice S4x128x128x128 ![0, 6, 0, 0] · slices_S4x148x128x128_S4x128x128x128_0_6_0_0) : (⟨S4x148x128x128, .f32⟩ : BufTy).Contents (Elt F) → (⟨S4x128x128x128, .f32⟩ : BufTy).Contents (Elt F)),
    unary main_v57 main_v59 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v59 main_v58 main_v60 (mulf : (⟨S4x128x128x128, .f32⟩ : BufTy).Contents (Elt F) → (⟨S4x128x128x128, .f32⟩ : BufTy).Contents (Elt F) → (⟨S4x128x128x128, .f32⟩ : BufTy).Contents (Elt F)),
    binary main_v54 main_v60 main_v61 (addf : (⟨S4x128x128x128, .f32⟩ : BufTy).Contents (Elt F) → (⟨S4x128x128x128, .f32⟩ : BufTy).Contents (Elt F) → (⟨S4x128x128x128, .f32⟩ : BufTy).Contents (Elt F)) ]

/-- Window position 7: the running sum plus weight column 7 times the padded input's bands 7 … 134. -/
abbrev grp7 : List (HloOp τ sig (Elt F)) :=
  [ unary main_v10 main_v62 ((extractStridedSlice S4x128x1 ![0, 0, 7] · slices_S4x128x21_S4x128x1_0_0_7) : (⟨S4x128x21, .f32⟩ : BufTy).Contents (Elt F) → (⟨S4x128x1, .f32⟩ : BufTy).Contents (Elt F)),
    reshape main_v62 main_v63 rfl shapeCasts_S4x128x1_S4x128,
    unary main_v63 main_v64 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v65 ((extractStridedSlice S4x128x128x128 ![0, 7, 0, 0] · slices_S4x148x128x128_S4x128x128x128_0_7_0_0) : (⟨S4x148x128x128, .f32⟩ : BufTy).Contents (Elt F) → (⟨S4x128x128x128, .f32⟩ : BufTy).Contents (Elt F)),
    unary main_v64 main_v66 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v66 main_v65 main_v67 (mulf : (⟨S4x128x128x128, .f32⟩ : BufTy).Contents (Elt F) → (⟨S4x128x128x128, .f32⟩ : BufTy).Contents (Elt F) → (⟨S4x128x128x128, .f32⟩ : BufTy).Contents (Elt F)),
    binary main_v61 main_v67 main_v68 (addf : (⟨S4x128x128x128, .f32⟩ : BufTy).Contents (Elt F) → (⟨S4x128x128x128, .f32⟩ : BufTy).Contents (Elt F) → (⟨S4x128x128x128, .f32⟩ : BufTy).Contents (Elt F)) ]

/-- Window position 8: the running sum plus weight column 8 times the padded input's bands 8 … 135. -/
abbrev grp8 : List (HloOp τ sig (Elt F)) :=
  [ unary main_v10 main_v69 ((extractStridedSlice S4x128x1 ![0, 0, 8] · slices_S4x128x21_S4x128x1_0_0_8) : (⟨S4x128x21, .f32⟩ : BufTy).Contents (Elt F) → (⟨S4x128x1, .f32⟩ : BufTy).Contents (Elt F)),
    reshape main_v69 main_v70 rfl shapeCasts_S4x128x1_S4x128,
    unary main_v70 main_v71 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v72 ((extractStridedSlice S4x128x128x128 ![0, 8, 0, 0] · slices_S4x148x128x128_S4x128x128x128_0_8_0_0) : (⟨S4x148x128x128, .f32⟩ : BufTy).Contents (Elt F) → (⟨S4x128x128x128, .f32⟩ : BufTy).Contents (Elt F)),
    unary main_v71 main_v73 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v73 main_v72 main_v74 (mulf : (⟨S4x128x128x128, .f32⟩ : BufTy).Contents (Elt F) → (⟨S4x128x128x128, .f32⟩ : BufTy).Contents (Elt F) → (⟨S4x128x128x128, .f32⟩ : BufTy).Contents (Elt F)),
    binary main_v68 main_v74 main_v75 (addf : (⟨S4x128x128x128, .f32⟩ : BufTy).Contents (Elt F) → (⟨S4x128x128x128, .f32⟩ : BufTy).Contents (Elt F) → (⟨S4x128x128x128, .f32⟩ : BufTy).Contents (Elt F)) ]

/-- Window position 9: the running sum plus weight column 9 times the padded input's bands 9 … 136. -/
abbrev grp9 : List (HloOp τ sig (Elt F)) :=
  [ unary main_v10 main_v76 ((extractStridedSlice S4x128x1 ![0, 0, 9] · slices_S4x128x21_S4x128x1_0_0_9) : (⟨S4x128x21, .f32⟩ : BufTy).Contents (Elt F) → (⟨S4x128x1, .f32⟩ : BufTy).Contents (Elt F)),
    reshape main_v76 main_v77 rfl shapeCasts_S4x128x1_S4x128,
    unary main_v77 main_v78 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v79 ((extractStridedSlice S4x128x128x128 ![0, 9, 0, 0] · slices_S4x148x128x128_S4x128x128x128_0_9_0_0) : (⟨S4x148x128x128, .f32⟩ : BufTy).Contents (Elt F) → (⟨S4x128x128x128, .f32⟩ : BufTy).Contents (Elt F)),
    unary main_v78 main_v80 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v80 main_v79 main_v81 (mulf : (⟨S4x128x128x128, .f32⟩ : BufTy).Contents (Elt F) → (⟨S4x128x128x128, .f32⟩ : BufTy).Contents (Elt F) → (⟨S4x128x128x128, .f32⟩ : BufTy).Contents (Elt F)),
    binary main_v75 main_v81 main_v82 (addf : (⟨S4x128x128x128, .f32⟩ : BufTy).Contents (Elt F) → (⟨S4x128x128x128, .f32⟩ : BufTy).Contents (Elt F) → (⟨S4x128x128x128, .f32⟩ : BufTy).Contents (Elt F)) ]

/-- Window position 10: the running sum plus weight column 10 times the padded input's bands 10 … 137. -/
abbrev grp10 : List (HloOp τ sig (Elt F)) :=
  [ unary main_v10 main_v83 ((extractStridedSlice S4x128x1 ![0, 0, 10] · slices_S4x128x21_S4x128x1_0_0_10) : (⟨S4x128x21, .f32⟩ : BufTy).Contents (Elt F) → (⟨S4x128x1, .f32⟩ : BufTy).Contents (Elt F)),
    reshape main_v83 main_v84 rfl shapeCasts_S4x128x1_S4x128,
    unary main_v84 main_v85 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v86 ((extractStridedSlice S4x128x128x128 ![0, 10, 0, 0] · slices_S4x148x128x128_S4x128x128x128_0_10_0_0) : (⟨S4x148x128x128, .f32⟩ : BufTy).Contents (Elt F) → (⟨S4x128x128x128, .f32⟩ : BufTy).Contents (Elt F)),
    unary main_v85 main_v87 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v87 main_v86 main_v88 (mulf : (⟨S4x128x128x128, .f32⟩ : BufTy).Contents (Elt F) → (⟨S4x128x128x128, .f32⟩ : BufTy).Contents (Elt F) → (⟨S4x128x128x128, .f32⟩ : BufTy).Contents (Elt F)),
    binary main_v82 main_v88 main_v89 (addf : (⟨S4x128x128x128, .f32⟩ : BufTy).Contents (Elt F) → (⟨S4x128x128x128, .f32⟩ : BufTy).Contents (Elt F) → (⟨S4x128x128x128, .f32⟩ : BufTy).Contents (Elt F)) ]

/-- Window position 11: the running sum plus weight column 11 times the padded input's bands 11 … 138. -/
abbrev grp11 : List (HloOp τ sig (Elt F)) :=
  [ unary main_v10 main_v90 ((extractStridedSlice S4x128x1 ![0, 0, 11] · slices_S4x128x21_S4x128x1_0_0_11) : (⟨S4x128x21, .f32⟩ : BufTy).Contents (Elt F) → (⟨S4x128x1, .f32⟩ : BufTy).Contents (Elt F)),
    reshape main_v90 main_v91 rfl shapeCasts_S4x128x1_S4x128,
    unary main_v91 main_v92 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v93 ((extractStridedSlice S4x128x128x128 ![0, 11, 0, 0] · slices_S4x148x128x128_S4x128x128x128_0_11_0_0) : (⟨S4x148x128x128, .f32⟩ : BufTy).Contents (Elt F) → (⟨S4x128x128x128, .f32⟩ : BufTy).Contents (Elt F)),
    unary main_v92 main_v94 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v94 main_v93 main_v95 (mulf : (⟨S4x128x128x128, .f32⟩ : BufTy).Contents (Elt F) → (⟨S4x128x128x128, .f32⟩ : BufTy).Contents (Elt F) → (⟨S4x128x128x128, .f32⟩ : BufTy).Contents (Elt F)),
    binary main_v89 main_v95 main_v96 (addf : (⟨S4x128x128x128, .f32⟩ : BufTy).Contents (Elt F) → (⟨S4x128x128x128, .f32⟩ : BufTy).Contents (Elt F) → (⟨S4x128x128x128, .f32⟩ : BufTy).Contents (Elt F)) ]

/-- Window position 12: the running sum plus weight column 12 times the padded input's bands 12 … 139. -/
abbrev grp12 : List (HloOp τ sig (Elt F)) :=
  [ unary main_v10 main_v97 ((extractStridedSlice S4x128x1 ![0, 0, 12] · slices_S4x128x21_S4x128x1_0_0_12) : (⟨S4x128x21, .f32⟩ : BufTy).Contents (Elt F) → (⟨S4x128x1, .f32⟩ : BufTy).Contents (Elt F)),
    reshape main_v97 main_v98 rfl shapeCasts_S4x128x1_S4x128,
    unary main_v98 main_v99 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v100 ((extractStridedSlice S4x128x128x128 ![0, 12, 0, 0] · slices_S4x148x128x128_S4x128x128x128_0_12_0_0) : (⟨S4x148x128x128, .f32⟩ : BufTy).Contents (Elt F) → (⟨S4x128x128x128, .f32⟩ : BufTy).Contents (Elt F)),
    unary main_v99 main_v101 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v101 main_v100 main_v102 (mulf : (⟨S4x128x128x128, .f32⟩ : BufTy).Contents (Elt F) → (⟨S4x128x128x128, .f32⟩ : BufTy).Contents (Elt F) → (⟨S4x128x128x128, .f32⟩ : BufTy).Contents (Elt F)),
    binary main_v96 main_v102 main_v103 (addf : (⟨S4x128x128x128, .f32⟩ : BufTy).Contents (Elt F) → (⟨S4x128x128x128, .f32⟩ : BufTy).Contents (Elt F) → (⟨S4x128x128x128, .f32⟩ : BufTy).Contents (Elt F)) ]

/-- Window position 13: the running sum plus weight column 13 times the padded input's bands 13 … 140. -/
abbrev grp13 : List (HloOp τ sig (Elt F)) :=
  [ unary main_v10 main_v104 ((extractStridedSlice S4x128x1 ![0, 0, 13] · slices_S4x128x21_S4x128x1_0_0_13) : (⟨S4x128x21, .f32⟩ : BufTy).Contents (Elt F) → (⟨S4x128x1, .f32⟩ : BufTy).Contents (Elt F)),
    reshape main_v104 main_v105 rfl shapeCasts_S4x128x1_S4x128,
    unary main_v105 main_v106 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v107 ((extractStridedSlice S4x128x128x128 ![0, 13, 0, 0] · slices_S4x148x128x128_S4x128x128x128_0_13_0_0) : (⟨S4x148x128x128, .f32⟩ : BufTy).Contents (Elt F) → (⟨S4x128x128x128, .f32⟩ : BufTy).Contents (Elt F)),
    unary main_v106 main_v108 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v108 main_v107 main_v109 (mulf : (⟨S4x128x128x128, .f32⟩ : BufTy).Contents (Elt F) → (⟨S4x128x128x128, .f32⟩ : BufTy).Contents (Elt F) → (⟨S4x128x128x128, .f32⟩ : BufTy).Contents (Elt F)),
    binary main_v103 main_v109 main_v110 (addf : (⟨S4x128x128x128, .f32⟩ : BufTy).Contents (Elt F) → (⟨S4x128x128x128, .f32⟩ : BufTy).Contents (Elt F) → (⟨S4x128x128x128, .f32⟩ : BufTy).Contents (Elt F)) ]

/-- Window position 14: the running sum plus weight column 14 times the padded input's bands 14 … 141. -/
abbrev grp14 : List (HloOp τ sig (Elt F)) :=
  [ unary main_v10 main_v111 ((extractStridedSlice S4x128x1 ![0, 0, 14] · slices_S4x128x21_S4x128x1_0_0_14) : (⟨S4x128x21, .f32⟩ : BufTy).Contents (Elt F) → (⟨S4x128x1, .f32⟩ : BufTy).Contents (Elt F)),
    reshape main_v111 main_v112 rfl shapeCasts_S4x128x1_S4x128,
    unary main_v112 main_v113 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v114 ((extractStridedSlice S4x128x128x128 ![0, 14, 0, 0] · slices_S4x148x128x128_S4x128x128x128_0_14_0_0) : (⟨S4x148x128x128, .f32⟩ : BufTy).Contents (Elt F) → (⟨S4x128x128x128, .f32⟩ : BufTy).Contents (Elt F)),
    unary main_v113 main_v115 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v115 main_v114 main_v116 (mulf : (⟨S4x128x128x128, .f32⟩ : BufTy).Contents (Elt F) → (⟨S4x128x128x128, .f32⟩ : BufTy).Contents (Elt F) → (⟨S4x128x128x128, .f32⟩ : BufTy).Contents (Elt F)),
    binary main_v110 main_v116 main_v117 (addf : (⟨S4x128x128x128, .f32⟩ : BufTy).Contents (Elt F) → (⟨S4x128x128x128, .f32⟩ : BufTy).Contents (Elt F) → (⟨S4x128x128x128, .f32⟩ : BufTy).Contents (Elt F)) ]

/-- Window position 15: the running sum plus weight column 15 times the padded input's bands 15 … 142. -/
abbrev grp15 : List (HloOp τ sig (Elt F)) :=
  [ unary main_v10 main_v118 ((extractStridedSlice S4x128x1 ![0, 0, 15] · slices_S4x128x21_S4x128x1_0_0_15) : (⟨S4x128x21, .f32⟩ : BufTy).Contents (Elt F) → (⟨S4x128x1, .f32⟩ : BufTy).Contents (Elt F)),
    reshape main_v118 main_v119 rfl shapeCasts_S4x128x1_S4x128,
    unary main_v119 main_v120 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v121 ((extractStridedSlice S4x128x128x128 ![0, 15, 0, 0] · slices_S4x148x128x128_S4x128x128x128_0_15_0_0) : (⟨S4x148x128x128, .f32⟩ : BufTy).Contents (Elt F) → (⟨S4x128x128x128, .f32⟩ : BufTy).Contents (Elt F)),
    unary main_v120 main_v122 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v122 main_v121 main_v123 (mulf : (⟨S4x128x128x128, .f32⟩ : BufTy).Contents (Elt F) → (⟨S4x128x128x128, .f32⟩ : BufTy).Contents (Elt F) → (⟨S4x128x128x128, .f32⟩ : BufTy).Contents (Elt F)),
    binary main_v117 main_v123 main_v124 (addf : (⟨S4x128x128x128, .f32⟩ : BufTy).Contents (Elt F) → (⟨S4x128x128x128, .f32⟩ : BufTy).Contents (Elt F) → (⟨S4x128x128x128, .f32⟩ : BufTy).Contents (Elt F)) ]

/-- Window position 16: the running sum plus weight column 16 times the padded input's bands 16 … 143. -/
abbrev grp16 : List (HloOp τ sig (Elt F)) :=
  [ unary main_v10 main_v125 ((extractStridedSlice S4x128x1 ![0, 0, 16] · slices_S4x128x21_S4x128x1_0_0_16) : (⟨S4x128x21, .f32⟩ : BufTy).Contents (Elt F) → (⟨S4x128x1, .f32⟩ : BufTy).Contents (Elt F)),
    reshape main_v125 main_v126 rfl shapeCasts_S4x128x1_S4x128,
    unary main_v126 main_v127 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v128 ((extractStridedSlice S4x128x128x128 ![0, 16, 0, 0] · slices_S4x148x128x128_S4x128x128x128_0_16_0_0) : (⟨S4x148x128x128, .f32⟩ : BufTy).Contents (Elt F) → (⟨S4x128x128x128, .f32⟩ : BufTy).Contents (Elt F)),
    unary main_v127 main_v129 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v129 main_v128 main_v130 (mulf : (⟨S4x128x128x128, .f32⟩ : BufTy).Contents (Elt F) → (⟨S4x128x128x128, .f32⟩ : BufTy).Contents (Elt F) → (⟨S4x128x128x128, .f32⟩ : BufTy).Contents (Elt F)),
    binary main_v124 main_v130 main_v131 (addf : (⟨S4x128x128x128, .f32⟩ : BufTy).Contents (Elt F) → (⟨S4x128x128x128, .f32⟩ : BufTy).Contents (Elt F) → (⟨S4x128x128x128, .f32⟩ : BufTy).Contents (Elt F)) ]

/-- Window position 17: the running sum plus weight column 17 times the padded input's bands 17 … 144. -/
abbrev grp17 : List (HloOp τ sig (Elt F)) :=
  [ unary main_v10 main_v132 ((extractStridedSlice S4x128x1 ![0, 0, 17] · slices_S4x128x21_S4x128x1_0_0_17) : (⟨S4x128x21, .f32⟩ : BufTy).Contents (Elt F) → (⟨S4x128x1, .f32⟩ : BufTy).Contents (Elt F)),
    reshape main_v132 main_v133 rfl shapeCasts_S4x128x1_S4x128,
    unary main_v133 main_v134 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v135 ((extractStridedSlice S4x128x128x128 ![0, 17, 0, 0] · slices_S4x148x128x128_S4x128x128x128_0_17_0_0) : (⟨S4x148x128x128, .f32⟩ : BufTy).Contents (Elt F) → (⟨S4x128x128x128, .f32⟩ : BufTy).Contents (Elt F)),
    unary main_v134 main_v136 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v136 main_v135 main_v137 (mulf : (⟨S4x128x128x128, .f32⟩ : BufTy).Contents (Elt F) → (⟨S4x128x128x128, .f32⟩ : BufTy).Contents (Elt F) → (⟨S4x128x128x128, .f32⟩ : BufTy).Contents (Elt F)),
    binary main_v131 main_v137 main_v138 (addf : (⟨S4x128x128x128, .f32⟩ : BufTy).Contents (Elt F) → (⟨S4x128x128x128, .f32⟩ : BufTy).Contents (Elt F) → (⟨S4x128x128x128, .f32⟩ : BufTy).Contents (Elt F)) ]

/-- Window position 18: the running sum plus weight column 18 times the padded input's bands 18 … 145. -/
abbrev grp18 : List (HloOp τ sig (Elt F)) :=
  [ unary main_v10 main_v139 ((extractStridedSlice S4x128x1 ![0, 0, 18] · slices_S4x128x21_S4x128x1_0_0_18) : (⟨S4x128x21, .f32⟩ : BufTy).Contents (Elt F) → (⟨S4x128x1, .f32⟩ : BufTy).Contents (Elt F)),
    reshape main_v139 main_v140 rfl shapeCasts_S4x128x1_S4x128,
    unary main_v140 main_v141 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v142 ((extractStridedSlice S4x128x128x128 ![0, 18, 0, 0] · slices_S4x148x128x128_S4x128x128x128_0_18_0_0) : (⟨S4x148x128x128, .f32⟩ : BufTy).Contents (Elt F) → (⟨S4x128x128x128, .f32⟩ : BufTy).Contents (Elt F)),
    unary main_v141 main_v143 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v143 main_v142 main_v144 (mulf : (⟨S4x128x128x128, .f32⟩ : BufTy).Contents (Elt F) → (⟨S4x128x128x128, .f32⟩ : BufTy).Contents (Elt F) → (⟨S4x128x128x128, .f32⟩ : BufTy).Contents (Elt F)),
    binary main_v138 main_v144 main_v145 (addf : (⟨S4x128x128x128, .f32⟩ : BufTy).Contents (Elt F) → (⟨S4x128x128x128, .f32⟩ : BufTy).Contents (Elt F) → (⟨S4x128x128x128, .f32⟩ : BufTy).Contents (Elt F)) ]

/-- Window position 19: the running sum plus weight column 19 times the padded input's bands 19 … 146. -/
abbrev grp19 : List (HloOp τ sig (Elt F)) :=
  [ unary main_v10 main_v146 ((extractStridedSlice S4x128x1 ![0, 0, 19] · slices_S4x128x21_S4x128x1_0_0_19) : (⟨S4x128x21, .f32⟩ : BufTy).Contents (Elt F) → (⟨S4x128x1, .f32⟩ : BufTy).Contents (Elt F)),
    reshape main_v146 main_v147 rfl shapeCasts_S4x128x1_S4x128,
    unary main_v147 main_v148 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v149 ((extractStridedSlice S4x128x128x128 ![0, 19, 0, 0] · slices_S4x148x128x128_S4x128x128x128_0_19_0_0) : (⟨S4x148x128x128, .f32⟩ : BufTy).Contents (Elt F) → (⟨S4x128x128x128, .f32⟩ : BufTy).Contents (Elt F)),
    unary main_v148 main_v150 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v150 main_v149 main_v151 (mulf : (⟨S4x128x128x128, .f32⟩ : BufTy).Contents (Elt F) → (⟨S4x128x128x128, .f32⟩ : BufTy).Contents (Elt F) → (⟨S4x128x128x128, .f32⟩ : BufTy).Contents (Elt F)),
    binary main_v145 main_v151 main_v152 (addf : (⟨S4x128x128x128, .f32⟩ : BufTy).Contents (Elt F) → (⟨S4x128x128x128, .f32⟩ : BufTy).Contents (Elt F) → (⟨S4x128x128x128, .f32⟩ : BufTy).Contents (Elt F)) ]

/-- Window position 20: the running sum plus weight column 20 times the padded input's bands 20 … 147. -/
abbrev grp20 : List (HloOp τ sig (Elt F)) :=
  [ unary main_v10 main_v153 ((extractStridedSlice S4x128x1 ![0, 0, 20] · slices_S4x128x21_S4x128x1_0_0_20) : (⟨S4x128x21, .f32⟩ : BufTy).Contents (Elt F) → (⟨S4x128x1, .f32⟩ : BufTy).Contents (Elt F)),
    reshape main_v153 main_v154 rfl shapeCasts_S4x128x1_S4x128,
    unary main_v154 main_v155 (broadcastInDim S4x128x1x1 ![0, 1] bcast_S4x128_S4x128x1x1_0_1 : (⟨S4x128, .f32⟩ : BufTy).Contents (Elt F) → (⟨S4x128x1x1, .f32⟩ : BufTy).Contents (Elt F)),
    unary main_v11 main_v156 ((extractStridedSlice S4x128x128x128 ![0, 20, 0, 0] · slices_S4x148x128x128_S4x128x128x128_0_20_0_0) : (⟨S4x148x128x128, .f32⟩ : BufTy).Contents (Elt F) → (⟨S4x128x128x128, .f32⟩ : BufTy).Contents (Elt F)),
    unary main_v155 main_v157 (broadcastInDim S4x128x128x128 ![0, 1, 2, 3] bcast_S4x128x1x1_S4x128x128x128_0_1_2_3 : (⟨S4x128x1x1, .f32⟩ : BufTy).Contents (Elt F) → (⟨S4x128x128x128, .f32⟩ : BufTy).Contents (Elt F)),
    binary main_v157 main_v156 main_v158 (mulf : (⟨S4x128x128x128, .f32⟩ : BufTy).Contents (Elt F) → (⟨S4x128x128x128, .f32⟩ : BufTy).Contents (Elt F) → (⟨S4x128x128x128, .f32⟩ : BufTy).Contents (Elt F)),
    binary main_v152 main_v158 main_v159 (addf : (⟨S4x128x128x128, .f32⟩ : BufTy).Contents (Elt F) → (⟨S4x128x128x128, .f32⟩ : BufTy).Contents (Elt F) → (⟨S4x128x128x128, .f32⟩ : BufTy).Contents (Elt F)) ]

/-- The whole line. -/
abbrev ops : List (HloOp τ sig (Elt F)) :=
  pre ++ (grp0 ++ (grp1 ++ (grp2 ++ (grp3 ++ (grp4 ++ (grp5 ++ (grp6 ++ (grp7 ++ (grp8 ++ (grp9 ++ (grp10 ++ (grp11 ++ (grp12 ++ (grp13 ++ (grp14 ++ (grp15 ++ (grp16 ++ (grp17 ++ (grp18 ++ (grp19 ++ (grp20)))))))))))))))))))))

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.MixRun

end
-- ==== Proof.RefGroupsA.lean ====
/-
  What the opening of the reference's line and its window positions 0 … 6 leave in their buffers, each as a function of what
  the buffers held before: the opening computes the softmax weights, the padded input and a zero array from the arguments;
  each window position adds its product to the running sum and touches nothing else that is read later.
-/
import proofs.«107940_j28784870818046_2_alg».proof.Proof.Gen.ReferenceIdeal
import Idealize.ShloMosaic.Lib.StableHlo.Run
import proofs.«107940_j28784870818046_2_alg».proof.Proof.RefOps

noncomputable section

namespace Cert.ReferenceIdeal.MixRun

open Cert.ReferenceIdeal Cert.ReferenceIdeal.Gen Idealize.ShloMosaic Idealize.ShloMosaic.TcCoe Idealize.SL.Sem Idealize.ShloMosaic.StableHlo

variable {F : FTy → Type} [FloatOps F]

/-- What the opening leaves: the softmax weights of the logits, -/
theorem pre_v10 (V : Valuation τ sig (Elt F)) :
    after pre V (Proc.devRef .tc main_v10) = (Host.divf (Host.exp (subf (V (Proc.devRef .tc main_arg1) : (⟨S4x128x21, .f32⟩ : BufTy).Contents (Elt F)) (broadcastInDim S4x128x21 ![0, 1, 2] bcast_S4x128x1_S4x128x21_0_1_2 (broadcastInDim S4x128x1 ![0, 1] bcast_S4x128_S4x128x1_0_1 (maximumf (broadcastInDim S4x128 ![] bcast_S_S4x128 (constant S_ .f32 0xFF800000#32)) (Host.reduce FloatOps.maximumf (V (Proc.devRef .tc main_arg1) : (⟨S4x128x21, .f32⟩ : BufTy).Contents (Elt F)) (constant S_ .f32 0xFF800000#32) reducesTo_S4x128x21_S4x128_d2 h_S_)))))) (broadcastInDim S4x128x21 ![0, 1, 2] bcast_S4x128x1_S4x128x21_0_1_2 (broadcastInDim S4x128x1 ![0, 1] bcast_S4x128_S4x128x1_0_1 (Host.reduceAdd (Host.exp (subf (V (Proc.devRef .tc main_arg1) : (⟨S4x128x21, .f32⟩ : BufTy).Contents (Elt F)) (broadcastInDim S4x128x21 ![0, 1, 2] bcast_S4x128x1_S4x128x21_0_1_2 (broadcastInDim S4x128x1 ![0, 1] bcast_S4x128_S4x128x1_0_1 (maximumf (broadcastInDim S4x128 ![] bcast_S_S4x128 (constant S_ .f32 0xFF800000#32)) (Host.reduce FloatOps.maximumf (V (Proc.devRef .tc main_arg1) : (⟨S4x128x21, .f32⟩ : BufTy).Contents (Elt F)) (constant S_ .f32 0xFF800000#32) reducesTo_S4x128x21_S4x128_d2 h_S_)))))) (constant S_ .f32 0x00000000#32) reducesTo_S4x128x21_S4x128_d2 h_S_)))) := by
  after_results
  all_goals rfl
/-- the input padded with ten zero bands on either side of its second axis, -/
theorem pre_v11 (V : Valuation τ sig (Elt F)) :
    after pre V (Proc.devRef .tc main_v11) = (pad S4x148x128x128 ![0, 10, 0, 0] ![0, 10, 0, 0] ![0, 0, 0, 0] (V (Proc.devRef .tc main_arg0) : (⟨S4x128x128x128, .f32⟩ : BufTy).Contents (Elt F)) (sitofp .f32 (constantI S_ 32 0#32)) pads_S4x128x128x128_S4x148x128x128_000_10100_000_000 h_S_) := by
  after_results
  all_goals rfl
/-- and a zero array; the arguments are left alone. -/
theorem pre_v12 (V : Valuation τ sig (Elt F)) :
    after pre V (Proc.devRef .tc main_v12) = (broadcastInDim S4x128x128x128 ![] bcast_S_S4x128x128x128 (constant S_ .f32 0x00000000#32)) := by
  after_results
  all_goals rfl
theorem pre_keep_main_arg0 (V : Valuation τ sig (Elt F)) : after pre V (Proc.devRef .tc main_arg0) = V (Proc.devRef .tc main_arg0) := by
  after_results
  all_goals rfl
theorem pre_keep_main_arg1 (V : Valuation τ sig (Elt F)) : after pre V (Proc.devRef .tc main_arg1) = V (Proc.devRef .tc main_arg1) := by
  after_results
  all_goals rfl
theorem pre_sub : (pre : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub ..⟩
theorem pre_fresh : ∀ op ∈ (pre : List (HloOp τ sig (Elt F))), op.fresh = ∅ := by
  intro _ h; (repeat (cases h with | head => rfl | tail _ h => ?_)); exact nomatch h

/-- Window position 0: the sum so far plus the product; the weights, the padded input and the arguments are left alone. -/
theorem grp0_acc (W : Valuation τ sig (Elt F)) :
    after grp0 W (Proc.devRef .tc main_v19)
      = addf (W (Proc.devRef .tc main_v12) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 0] (W (Proc.devRef .tc main_v10) : (⟨S4x128x21, .f32⟩ : BufTy).Contents (Elt F)) slices_S4x128x21_S4x128x1_0_0_0) shapeCasts_S4x128x1_S4x128))) (extractStridedSlice S4x128x128x128 ![0, 0, 0, 0] (W (Proc.devRef .tc main_v11) : (⟨S4x148x128x128, .f32⟩ : BufTy).Contents (Elt F)) slices_S4x148x128x128_S4x128x128x128_0_0_0_0)) := by
  after_results
  all_goals rfl
theorem grp0_keep_main_v10 (W : Valuation τ sig (Elt F)) : after grp0 W (Proc.devRef .tc main_v10) = W (Proc.devRef .tc main_v10) := by
  after_results
  all_goals rfl
theorem grp0_keep_main_v11 (W : Valuation τ sig (Elt F)) : after grp0 W (Proc.devRef .tc main_v11) = W (Proc.devRef .tc main_v11) := by
  after_results
  all_goals rfl
theorem grp0_keep_main_arg0 (W : Valuation τ sig (Elt F)) : after grp0 W (Proc.devRef .tc main_arg0) = W (Proc.devRef .tc main_arg0) := by
  after_results
  all_goals rfl
theorem grp0_keep_main_arg1 (W : Valuation τ sig (Elt F)) : after grp0 W (Proc.devRef .tc main_arg1) = W (Proc.devRef .tc main_arg1) := by
  after_results
  all_goals rfl
theorem grp0_sub : (grp0 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp0_fresh : ∀ op ∈ (grp0 : List (HloOp τ sig (Elt F))), op.fresh = ∅ := by
  intro _ h; (repeat (cases h with | head => rfl | tail _ h => ?_)); exact nomatch h

/-- Window position 1: the sum so far plus the product; the weights, the padded input and the arguments are left alone. -/
theorem grp1_acc (W : Valuation τ sig (Elt F)) :
    after grp1 W (Proc.devRef .tc main_v26)
      = addf (W (Proc.devRef .tc main_v19) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 1] (W (Proc.devRef .tc main_v10) : (⟨S4x128x21, .f32⟩ : BufTy).Contents (Elt F)) slices_S4x128x21_S4x128x1_0_0_1) shapeCasts_S4x128x1_S4x128))) (extractStridedSlice S4x128x128x128 ![0, 1, 0, 0] (W (Proc.devRef .tc main_v11) : (⟨S4x148x128x128, .f32⟩ : BufTy).Contents (Elt F)) slices_S4x148x128x128_S4x128x128x128_0_1_0_0)) := by
  after_results
  all_goals rfl
theorem grp1_keep_main_v10 (W : Valuation τ sig (Elt F)) : after grp1 W (Proc.devRef .tc main_v10) = W (Proc.devRef .tc main_v10) := by
  after_results
  all_goals rfl
theorem grp1_keep_main_v11 (W : Valuation τ sig (Elt F)) : after grp1 W (Proc.devRef .tc main_v11) = W (Proc.devRef .tc main_v11) := by
  after_results
  all_goals rfl
theorem grp1_keep_main_arg0 (W : Valuation τ sig (Elt F)) : after grp1 W (Proc.devRef .tc main_arg0) = W (Proc.devRef .tc main_arg0) := by
  after_results
  all_goals rfl
theorem grp1_keep_main_arg1 (W : Valuation τ sig (Elt F)) : after grp1 W (Proc.devRef .tc main_arg1) = W (Proc.devRef .tc main_arg1) := by
  after_results
  all_goals rfl
theorem grp1_sub : (grp1 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp1_fresh : ∀ op ∈ (grp1 : List (HloOp τ sig (Elt F))), op.fresh = ∅ := by
  intro _ h; (repeat (cases h with | head => rfl | tail _ h => ?_)); exact nomatch h

/-- Window position 2: the sum so far plus the product; the weights, the padded input and the arguments are left alone. -/
theorem grp2_acc (W : Valuation τ sig (Elt F)) :
    after grp2 W (Proc.devRef .tc main_v33)
      = addf (W (Proc.devRef .tc main_v26) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 2] (W (Proc.devRef .tc main_v10) : (⟨S4x128x21, .f32⟩ : BufTy).Contents (Elt F)) slices_S4x128x21_S4x128x1_0_0_2) shapeCasts_S4x128x1_S4x128))) (extractStridedSlice S4x128x128x128 ![0, 2, 0, 0] (W (Proc.devRef .tc main_v11) : (⟨S4x148x128x128, .f32⟩ : BufTy).Contents (Elt F)) slices_S4x148x128x128_S4x128x128x128_0_2_0_0)) := by
  after_results
  all_goals rfl
theorem grp2_keep_main_v10 (W : Valuation τ sig (Elt F)) : after grp2 W (Proc.devRef .tc main_v10) = W (Proc.devRef .tc main_v10) := by
  after_results
  all_goals rfl
theorem grp2_keep_main_v11 (W : Valuation τ sig (Elt F)) : after grp2 W (Proc.devRef .tc main_v11) = W (Proc.devRef .tc main_v11) := by
  after_results
  all_goals rfl
theorem grp2_keep_main_arg0 (W : Valuation τ sig (Elt F)) : after grp2 W (Proc.devRef .tc main_arg0) = W (Proc.devRef .tc main_arg0) := by
  after_results
  all_goals rfl
theorem grp2_keep_main_arg1 (W : Valuation τ sig (Elt F)) : after grp2 W (Proc.devRef .tc main_arg1) = W (Proc.devRef .tc main_arg1) := by
  after_results
  all_goals rfl
theorem grp2_sub : (grp2 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp2_fresh : ∀ op ∈ (grp2 : List (HloOp τ sig (Elt F))), op.fresh = ∅ := by
  intro _ h; (repeat (cases h with | head => rfl | tail _ h => ?_)); exact nomatch h

/-- Window position 3: the sum so far plus the product; the weights, the padded input and the arguments are left alone. -/
theorem grp3_acc (W : Valuation τ sig (Elt F)) :
    after grp3 W (Proc.devRef .tc main_v40)
      = addf (W (Proc.devRef .tc main_v33) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 3] (W (Proc.devRef .tc main_v10) : (⟨S4x128x21, .f32⟩ : BufTy).Contents (Elt F)) slices_S4x128x21_S4x128x1_0_0_3) shapeCasts_S4x128x1_S4x128))) (extractStridedSlice S4x128x128x128 ![0, 3, 0, 0] (W (Proc.devRef .tc main_v11) : (⟨S4x148x128x128, .f32⟩ : BufTy).Contents (Elt F)) slices_S4x148x128x128_S4x128x128x128_0_3_0_0)) := by
  after_results
  all_goals rfl
theorem grp3_keep_main_v10 (W : Valuation τ sig (Elt F)) : after grp3 W (Proc.devRef .tc main_v10) = W (Proc.devRef .tc main_v10) := by
  after_results
  all_goals rfl
theorem grp3_keep_main_v11 (W : Valuation τ sig (Elt F)) : after grp3 W (Proc.devRef .tc main_v11) = W (Proc.devRef .tc main_v11) := by
  after_results
  all_goals rfl
theorem grp3_keep_main_arg0 (W : Valuation τ sig (Elt F)) : after grp3 W (Proc.devRef .tc main_arg0) = W (Proc.devRef .tc main_arg0) := by
  after_results
  all_goals rfl
theorem grp3_keep_main_arg1 (W : Valuation τ sig (Elt F)) : after grp3 W (Proc.devRef .tc main_arg1) = W (Proc.devRef .tc main_arg1) := by
  after_results
  all_goals rfl
theorem grp3_sub : (grp3 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp3_fresh : ∀ op ∈ (grp3 : List (HloOp τ sig (Elt F))), op.fresh = ∅ := by
  intro _ h; (repeat (cases h with | head => rfl | tail _ h => ?_)); exact nomatch h

/-- Window position 4: the sum so far plus the product; the weights, the padded input and the arguments are left alone. -/
theorem grp4_acc (W : Valuation τ sig (Elt F)) :
    after grp4 W (Proc.devRef .tc main_v47)
      = addf (W (Proc.devRef .tc main_v40) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 4] (W (Proc.devRef .tc main_v10) : (⟨S4x128x21, .f32⟩ : BufTy).Contents (Elt F)) slices_S4x128x21_S4x128x1_0_0_4) shapeCasts_S4x128x1_S4x128))) (extractStridedSlice S4x128x128x128 ![0, 4, 0, 0] (W (Proc.devRef .tc main_v11) : (⟨S4x148x128x128, .f32⟩ : BufTy).Contents (Elt F)) slices_S4x148x128x128_S4x128x128x128_0_4_0_0)) := by
  after_results
  all_goals rfl
theorem grp4_keep_main_v10 (W : Valuation τ sig (Elt F)) : after grp4 W (Proc.devRef .tc main_v10) = W (Proc.devRef .tc main_v10) := by
  after_results
  all_goals rfl
theorem grp4_keep_main_v11 (W : Valuation τ sig (Elt F)) : after grp4 W (Proc.devRef .tc main_v11) = W (Proc.devRef .tc main_v11) := by
  after_results
  all_goals rfl
theorem grp4_keep_main_arg0 (W : Valuation τ sig (Elt F)) : after grp4 W (Proc.devRef .tc main_arg0) = W (Proc.devRef .tc main_arg0) := by
  after_results
  all_goals rfl
theorem grp4_keep_main_arg1 (W : Valuation τ sig (Elt F)) : after grp4 W (Proc.devRef .tc main_arg1) = W (Proc.devRef .tc main_arg1) := by
  after_results
  all_goals rfl
theorem grp4_sub : (grp4 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp4_fresh : ∀ op ∈ (grp4 : List (HloOp τ sig (Elt F))), op.fresh = ∅ := by
  intro _ h; (repeat (cases h with | head => rfl | tail _ h => ?_)); exact nomatch h

/-- Window position 5: the sum so far plus the product; the weights, the padded input and the arguments are left alone. -/
theorem grp5_acc (W : Valuation τ sig (Elt F)) :
    after grp5 W (Proc.devRef .tc main_v54)
      = addf (W (Proc.devRef .tc main_v47) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 5] (W (Proc.devRef .tc main_v10) : (⟨S4x128x21, .f32⟩ : BufTy).Contents (Elt F)) slices_S4x128x21_S4x128x1_0_0_5) shapeCasts_S4x128x1_S4x128))) (extractStridedSlice S4x128x128x128 ![0, 5, 0, 0] (W (Proc.devRef .tc main_v11) : (⟨S4x148x128x128, .f32⟩ : BufTy).Contents (Elt F)) slices_S4x148x128x128_S4x128x128x128_0_5_0_0)) := by
  after_results
  all_goals rfl
theorem grp5_keep_main_v10 (W : Valuation τ sig (Elt F)) : after grp5 W (Proc.devRef .tc main_v10) = W (Proc.devRef .tc main_v10) := by
  after_results
  all_goals rfl
theorem grp5_keep_main_v11 (W : Valuation τ sig (Elt F)) : after grp5 W (Proc.devRef .tc main_v11) = W (Proc.devRef .tc main_v11) := by
  after_results
  all_goals rfl
theorem grp5_keep_main_arg0 (W : Valuation τ sig (Elt F)) : after grp5 W (Proc.devRef .tc main_arg0) = W (Proc.devRef .tc main_arg0) := by
  after_results
  all_goals rfl
theorem grp5_keep_main_arg1 (W : Valuation τ sig (Elt F)) : after grp5 W (Proc.devRef .tc main_arg1) = W (Proc.devRef .tc main_arg1) := by
  after_results
  all_goals rfl
theorem grp5_sub : (grp5 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp5_fresh : ∀ op ∈ (grp5 : List (HloOp τ sig (Elt F))), op.fresh = ∅ := by
  intro _ h; (repeat (cases h with | head => rfl | tail _ h => ?_)); exact nomatch h

/-- Window position 6: the sum so far plus the product; the weights, the padded input and the arguments are left alone. -/
theorem grp6_acc (W : Valuation τ sig (Elt F)) :
    after grp6 W (Proc.devRef .tc main_v61)
      = addf (W (Proc.devRef .tc main_v54) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 6] (W (Proc.devRef .tc main_v10) : (⟨S4x128x21, .f32⟩ : BufTy).Contents (Elt F)) slices_S4x128x21_S4x128x1_0_0_6) shapeCasts_S4x128x1_S4x128))) (extractStridedSlice S4x128x128x128 ![0, 6, 0, 0] (W (Proc.devRef .tc main_v11) : (⟨S4x148x128x128, .f32⟩ : BufTy).Contents (Elt F)) slices_S4x148x128x128_S4x128x128x128_0_6_0_0)) := by
  after_results
  all_goals rfl
theorem grp6_keep_main_v10 (W : Valuation τ sig (Elt F)) : after grp6 W (Proc.devRef .tc main_v10) = W (Proc.devRef .tc main_v10) := by
  after_results
  all_goals rfl
theorem grp6_keep_main_v11 (W : Valuation τ sig (Elt F)) : after grp6 W (Proc.devRef .tc main_v11) = W (Proc.devRef .tc main_v11) := by
  after_results
  all_goals rfl
theorem grp6_keep_main_arg0 (W : Valuation τ sig (Elt F)) : after grp6 W (Proc.devRef .tc main_arg0) = W (Proc.devRef .tc main_arg0) := by
  after_results
  all_goals rfl
theorem grp6_keep_main_arg1 (W : Valuation τ sig (Elt F)) : after grp6 W (Proc.devRef .tc main_arg1) = W (Proc.devRef .tc main_arg1) := by
  after_results
  all_goals rfl
theorem grp6_sub : (grp6 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp6_fresh : ∀ op ∈ (grp6 : List (HloOp τ sig (Elt F))), op.fresh = ∅ := by
  intro _ h; (repeat (cases h with | head => rfl | tail _ h => ?_)); exact nomatch h

end Cert.ReferenceIdeal.MixRun

end
-- ==== Proof.RefGroupsB.lean ====
/-
  What window positions 7 … 13 of the reference's line leave in their buffers, each as a function of what the buffers held
  before: each adds its product of a weight column and the padded input's bands to the running sum and touches nothing
  else that is read later.
-/
import proofs.«107940_j28784870818046_2_alg».proof.Proof.Gen.ReferenceIdeal
import Idealize.ShloMosaic.Lib.StableHlo.Run
import proofs.«107940_j28784870818046_2_alg».proof.Proof.RefOps

noncomputable section

namespace Cert.ReferenceIdeal.MixRun

open Cert.ReferenceIdeal Cert.ReferenceIdeal.Gen Idealize.ShloMosaic Idealize.ShloMosaic.TcCoe Idealize.SL.Sem Idealize.ShloMosaic.StableHlo

variable {F : FTy → Type} [FloatOps F]

/-- Window position 7: the sum so far plus the product; the weights, the padded input and the arguments are left alone. -/
theorem grp7_acc (W : Valuation τ sig (Elt F)) :
    after grp7 W (Proc.devRef .tc main_v68)
      = addf (W (Proc.devRef .tc main_v61) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 7] (W (Proc.devRef .tc main_v10) : (⟨S4x128x21, .f32⟩ : BufTy).Contents (Elt F)) slices_S4x128x21_S4x128x1_0_0_7) shapeCasts_S4x128x1_S4x128))) (extractStridedSlice S4x128x128x128 ![0, 7, 0, 0] (W (Proc.devRef .tc main_v11) : (⟨S4x148x128x128, .f32⟩ : BufTy).Contents (Elt F)) slices_S4x148x128x128_S4x128x128x128_0_7_0_0)) := by
  after_results
  all_goals rfl
theorem grp7_keep_main_v10 (W : Valuation τ sig (Elt F)) : after grp7 W (Proc.devRef .tc main_v10) = W (Proc.devRef .tc main_v10) := by
  after_results
  all_goals rfl
theorem grp7_keep_main_v11 (W : Valuation τ sig (Elt F)) : after grp7 W (Proc.devRef .tc main_v11) = W (Proc.devRef .tc main_v11) := by
  after_results
  all_goals rfl
theorem grp7_keep_main_arg0 (W : Valuation τ sig (Elt F)) : after grp7 W (Proc.devRef .tc main_arg0) = W (Proc.devRef .tc main_arg0) := by
  after_results
  all_goals rfl
theorem grp7_keep_main_arg1 (W : Valuation τ sig (Elt F)) : after grp7 W (Proc.devRef .tc main_arg1) = W (Proc.devRef .tc main_arg1) := by
  after_results
  all_goals rfl
theorem grp7_sub : (grp7 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp7_fresh : ∀ op ∈ (grp7 : List (HloOp τ sig (Elt F))), op.fresh = ∅ := by
  intro _ h; (repeat (cases h with | head => rfl | tail _ h => ?_)); exact nomatch h

/-- Window position 8: the sum so far plus the product; the weights, the padded input and the arguments are left alone. -/
theorem grp8_acc (W : Valuation τ sig (Elt F)) :
    after grp8 W (Proc.devRef .tc main_v75)
      = addf (W (Proc.devRef .tc main_v68) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 8] (W (Proc.devRef .tc main_v10) : (⟨S4x128x21, .f32⟩ : BufTy).Contents (Elt F)) slices_S4x128x21_S4x128x1_0_0_8) shapeCasts_S4x128x1_S4x128))) (extractStridedSlice S4x128x128x128 ![0, 8, 0, 0] (W (Proc.devRef .tc main_v11) : (⟨S4x148x128x128, .f32⟩ : BufTy).Contents (Elt F)) slices_S4x148x128x128_S4x128x128x128_0_8_0_0)) := by
  after_results
  all_goals rfl
theorem grp8_keep_main_v10 (W : Valuation τ sig (Elt F)) : after grp8 W (Proc.devRef .tc main_v10) = W (Proc.devRef .tc main_v10) := by
  after_results
  all_goals rfl
theorem grp8_keep_main_v11 (W : Valuation τ sig (Elt F)) : after grp8 W (Proc.devRef .tc main_v11) = W (Proc.devRef .tc main_v11) := by
  after_results
  all_goals rfl
theorem grp8_keep_main_arg0 (W : Valuation τ sig (Elt F)) : after grp8 W (Proc.devRef .tc main_arg0) = W (Proc.devRef .tc main_arg0) := by
  after_results
  all_goals rfl
theorem grp8_keep_main_arg1 (W : Valuation τ sig (Elt F)) : after grp8 W (Proc.devRef .tc main_arg1) = W (Proc.devRef .tc main_arg1) := by
  after_results
  all_goals rfl
theorem grp8_sub : (grp8 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp8_fresh : ∀ op ∈ (grp8 : List (HloOp τ sig (Elt F))), op.fresh = ∅ := by
  intro _ h; (repeat (cases h with | head => rfl | tail _ h => ?_)); exact nomatch h

/-- Window position 9: the sum so far plus the product; the weights, the padded input and the arguments are left alone. -/
theorem grp9_acc (W : Valuation τ sig (Elt F)) :
    after grp9 W (Proc.devRef .tc main_v82)
      = addf (W (Proc.devRef .tc main_v75) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 9] (W (Proc.devRef .tc main_v10) : (⟨S4x128x21, .f32⟩ : BufTy).Contents (Elt F)) slices_S4x128x21_S4x128x1_0_0_9) shapeCasts_S4x128x1_S4x128))) (extractStridedSlice S4x128x128x128 ![0, 9, 0, 0] (W (Proc.devRef .tc main_v11) : (⟨S4x148x128x128, .f32⟩ : BufTy).Contents (Elt F)) slices_S4x148x128x128_S4x128x128x128_0_9_0_0)) := by
  after_results
  all_goals rfl
theorem grp9_keep_main_v10 (W : Valuation τ sig (Elt F)) : after grp9 W (Proc.devRef .tc main_v10) = W (Proc.devRef .tc main_v10) := by
  after_results
  all_goals rfl
theorem grp9_keep_main_v11 (W : Valuation τ sig (Elt F)) : after grp9 W (Proc.devRef .tc main_v11) = W (Proc.devRef .tc main_v11) := by
  after_results
  all_goals rfl
theorem grp9_keep_main_arg0 (W : Valuation τ sig (Elt F)) : after grp9 W (Proc.devRef .tc main_arg0) = W (Proc.devRef .tc main_arg0) := by
  after_results
  all_goals rfl
theorem grp9_keep_main_arg1 (W : Valuation τ sig (Elt F)) : after grp9 W (Proc.devRef .tc main_arg1) = W (Proc.devRef .tc main_arg1) := by
  after_results
  all_goals rfl
theorem grp9_sub : (grp9 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp9_fresh : ∀ op ∈ (grp9 : List (HloOp τ sig (Elt F))), op.fresh = ∅ := by
  intro _ h; (repeat (cases h with | head => rfl | tail _ h => ?_)); exact nomatch h

/-- Window position 10: the sum so far plus the product; the weights, the padded input and the arguments are left alone. -/
theorem grp10_acc (W : Valuation τ sig (Elt F)) :
    after grp10 W (Proc.devRef .tc main_v89)
      = addf (W (Proc.devRef .tc main_v82) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 10] (W (Proc.devRef .tc main_v10) : (⟨S4x128x21, .f32⟩ : BufTy).Contents (Elt F)) slices_S4x128x21_S4x128x1_0_0_10) shapeCasts_S4x128x1_S4x128))) (extractStridedSlice S4x128x128x128 ![0, 10, 0, 0] (W (Proc.devRef .tc main_v11) : (⟨S4x148x128x128, .f32⟩ : BufTy).Contents (Elt F)) slices_S4x148x128x128_S4x128x128x128_0_10_0_0)) := by
  after_results
  all_goals rfl
theorem grp10_keep_main_v10 (W : Valuation τ sig (Elt F)) : after grp10 W (Proc.devRef .tc main_v10) = W (Proc.devRef .tc main_v10) := by
  after_results
  all_goals rfl
theorem grp10_keep_main_v11 (W : Valuation τ sig (Elt F)) : after grp10 W (Proc.devRef .tc main_v11) = W (Proc.devRef .tc main_v11) := by
  after_results
  all_goals rfl
theorem grp10_keep_main_arg0 (W : Valuation τ sig (Elt F)) : after grp10 W (Proc.devRef .tc main_arg0) = W (Proc.devRef .tc main_arg0) := by
  after_results
  all_goals rfl
theorem grp10_keep_main_arg1 (W : Valuation τ sig (Elt F)) : after grp10 W (Proc.devRef .tc main_arg1) = W (Proc.devRef .tc main_arg1) := by
  after_results
  all_goals rfl
theorem grp10_sub : (grp10 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp10_fresh : ∀ op ∈ (grp10 : List (HloOp τ sig (Elt F))), op.fresh = ∅ := by
  intro _ h; (repeat (cases h with | head => rfl | tail _ h => ?_)); exact nomatch h

/-- Window position 11: the sum so far plus the product; the weights, the padded input and the arguments are left alone. -/
theorem grp11_acc (W : Valuation τ sig (Elt F)) :
    after grp11 W (Proc.devRef .tc main_v96)
      = addf (W (Proc.devRef .tc main_v89) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 11] (W (Proc.devRef .tc main_v10) : (⟨S4x128x21, .f32⟩ : BufTy).Contents (Elt F)) slices_S4x128x21_S4x128x1_0_0_11) shapeCasts_S4x128x1_S4x128))) (extractStridedSlice S4x128x128x128 ![0, 11, 0, 0] (W (Proc.devRef .tc main_v11) : (⟨S4x148x128x128, .f32⟩ : BufTy).Contents (Elt F)) slices_S4x148x128x128_S4x128x128x128_0_11_0_0)) := by
  after_results
  all_goals rfl
theorem grp11_keep_main_v10 (W : Valuation τ sig (Elt F)) : after grp11 W (Proc.devRef .tc main_v10) = W (Proc.devRef .tc main_v10) := by
  after_results
  all_goals rfl
theorem grp11_keep_main_v11 (W : Valuation τ sig (Elt F)) : after grp11 W (Proc.devRef .tc main_v11) = W (Proc.devRef .tc main_v11) := by
  after_results
  all_goals rfl
theorem grp11_keep_main_arg0 (W : Valuation τ sig (Elt F)) : after grp11 W (Proc.devRef .tc main_arg0) = W (Proc.devRef .tc main_arg0) := by
  after_results
  all_goals rfl
theorem grp11_keep_main_arg1 (W : Valuation τ sig (Elt F)) : after grp11 W (Proc.devRef .tc main_arg1) = W (Proc.devRef .tc main_arg1) := by
  after_results
  all_goals rfl
theorem grp11_sub : (grp11 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp11_fresh : ∀ op ∈ (grp11 : List (HloOp τ sig (Elt F))), op.fresh = ∅ := by
  intro _ h; (repeat (cases h with | head => rfl | tail _ h => ?_)); exact nomatch h

/-- Window position 12: the sum so far plus the product; the weights, the padded input and the arguments are left alone. -/
theorem grp12_acc (W : Valuation τ sig (Elt F)) :
    after grp12 W (Proc.devRef .tc main_v103)
      = addf (W (Proc.devRef .tc main_v96) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 12] (W (Proc.devRef .tc main_v10) : (⟨S4x128x21, .f32⟩ : BufTy).Contents (Elt F)) slices_S4x128x21_S4x128x1_0_0_12) shapeCasts_S4x128x1_S4x128))) (extractStridedSlice S4x128x128x128 ![0, 12, 0, 0] (W (Proc.devRef .tc main_v11) : (⟨S4x148x128x128, .f32⟩ : BufTy).Contents (Elt F)) slices_S4x148x128x128_S4x128x128x128_0_12_0_0)) := by
  after_results
  all_goals rfl
theorem grp12_keep_main_v10 (W : Valuation τ sig (Elt F)) : after grp12 W (Proc.devRef .tc main_v10) = W (Proc.devRef .tc main_v10) := by
  after_results
  all_goals rfl
theorem grp12_keep_main_v11 (W : Valuation τ sig (Elt F)) : after grp12 W (Proc.devRef .tc main_v11) = W (Proc.devRef .tc main_v11) := by
  after_results
  all_goals rfl
theorem grp12_keep_main_arg0 (W : Valuation τ sig (Elt F)) : after grp12 W (Proc.devRef .tc main_arg0) = W (Proc.devRef .tc main_arg0) := by
  after_results
  all_goals rfl
theorem grp12_keep_main_arg1 (W : Valuation τ sig (Elt F)) : after grp12 W (Proc.devRef .tc main_arg1) = W (Proc.devRef .tc main_arg1) := by
  after_results
  all_goals rfl
theorem grp12_sub : (grp12 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp12_fresh : ∀ op ∈ (grp12 : List (HloOp τ sig (Elt F))), op.fresh = ∅ := by
  intro _ h; (repeat (cases h with | head => rfl | tail _ h => ?_)); exact nomatch h

/-- Window position 13: the sum so far plus the product; the weights, the padded input and the arguments are left alone. -/
theorem grp13_acc (W : Valuation τ sig (Elt F)) :
    after grp13 W (Proc.devRef .tc main_v110)
      = addf (W (Proc.devRef .tc main_v103) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 13] (W (Proc.devRef .tc main_v10) : (⟨S4x128x21, .f32⟩ : BufTy).Contents (Elt F)) slices_S4x128x21_S4x128x1_0_0_13) shapeCasts_S4x128x1_S4x128))) (extractStridedSlice S4x128x128x128 ![0, 13, 0, 0] (W (Proc.devRef .tc main_v11) : (⟨S4x148x128x128, .f32⟩ : BufTy).Contents (Elt F)) slices_S4x148x128x128_S4x128x128x128_0_13_0_0)) := by
  after_results
  all_goals rfl
theorem grp13_keep_main_v10 (W : Valuation τ sig (Elt F)) : after grp13 W (Proc.devRef .tc main_v10) = W (Proc.devRef .tc main_v10) := by
  after_results
  all_goals rfl
theorem grp13_keep_main_v11 (W : Valuation τ sig (Elt F)) : after grp13 W (Proc.devRef .tc main_v11) = W (Proc.devRef .tc main_v11) := by
  after_results
  all_goals rfl
theorem grp13_keep_main_arg0 (W : Valuation τ sig (Elt F)) : after grp13 W (Proc.devRef .tc main_arg0) = W (Proc.devRef .tc main_arg0) := by
  after_results
  all_goals rfl
theorem grp13_keep_main_arg1 (W : Valuation τ sig (Elt F)) : after grp13 W (Proc.devRef .tc main_arg1) = W (Proc.devRef .tc main_arg1) := by
  after_results
  all_goals rfl
theorem grp13_sub : (grp13 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp13_fresh : ∀ op ∈ (grp13 : List (HloOp τ sig (Elt F))), op.fresh = ∅ := by
  intro _ h; (repeat (cases h with | head => rfl | tail _ h => ?_)); exact nomatch h

end Cert.ReferenceIdeal.MixRun

end
-- ==== Proof.RefGroupsC.lean ====
/-
  What window positions 14 … 20 of the reference's line leave in their buffers, each as a function of what the buffers held
  before: each adds its product of a weight column and the padded input's bands to the running sum and touches nothing
  else that is read later.
-/
import proofs.«107940_j28784870818046_2_alg».proof.Proof.Gen.ReferenceIdeal
import Idealize.ShloMosaic.Lib.StableHlo.Run
import proofs.«107940_j28784870818046_2_alg».proof.Proof.RefOps

noncomputable section

namespace Cert.ReferenceIdeal.MixRun

open Cert.ReferenceIdeal Cert.ReferenceIdeal.Gen Idealize.ShloMosaic Idealize.ShloMosaic.TcCoe Idealize.SL.Sem Idealize.ShloMosaic.StableHlo

variable {F : FTy → Type} [FloatOps F]

/-- Window position 14: the sum so far plus the product; the weights, the padded input and the arguments are left alone. -/
theorem grp14_acc (W : Valuation τ sig (Elt F)) :
    after grp14 W (Proc.devRef .tc main_v117)
      = addf (W (Proc.devRef .tc main_v110) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 14] (W (Proc.devRef .tc main_v10) : (⟨S4x128x21, .f32⟩ : BufTy).Contents (Elt F)) slices_S4x128x21_S4x128x1_0_0_14) shapeCasts_S4x128x1_S4x128))) (extractStridedSlice S4x128x128x128 ![0, 14, 0, 0] (W (Proc.devRef .tc main_v11) : (⟨S4x148x128x128, .f32⟩ : BufTy).Contents (Elt F)) slices_S4x148x128x128_S4x128x128x128_0_14_0_0)) := by
  after_results
  all_goals rfl
theorem grp14_keep_main_v10 (W : Valuation τ sig (Elt F)) : after grp14 W (Proc.devRef .tc main_v10) = W (Proc.devRef .tc main_v10) := by
  after_results
  all_goals rfl
theorem grp14_keep_main_v11 (W : Valuation τ sig (Elt F)) : after grp14 W (Proc.devRef .tc main_v11) = W (Proc.devRef .tc main_v11) := by
  after_results
  all_goals rfl
theorem grp14_keep_main_arg0 (W : Valuation τ sig (Elt F)) : after grp14 W (Proc.devRef .tc main_arg0) = W (Proc.devRef .tc main_arg0) := by
  after_results
  all_goals rfl
theorem grp14_keep_main_arg1 (W : Valuation τ sig (Elt F)) : after grp14 W (Proc.devRef .tc main_arg1) = W (Proc.devRef .tc main_arg1) := by
  after_results
  all_goals rfl
theorem grp14_sub : (grp14 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp14_fresh : ∀ op ∈ (grp14 : List (HloOp τ sig (Elt F))), op.fresh = ∅ := by
  intro _ h; (repeat (cases h with | head => rfl | tail _ h => ?_)); exact nomatch h

/-- Window position 15: the sum so far plus the product; the weights, the padded input and the arguments are left alone. -/
theorem grp15_acc (W : Valuation τ sig (Elt F)) :
    after grp15 W (Proc.devRef .tc main_v124)
      = addf (W (Proc.devRef .tc main_v117) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 15] (W (Proc.devRef .tc main_v10) : (⟨S4x128x21, .f32⟩ : BufTy).Contents (Elt F)) slices_S4x128x21_S4x128x1_0_0_15) shapeCasts_S4x128x1_S4x128))) (extractStridedSlice S4x128x128x128 ![0, 15, 0, 0] (W (Proc.devRef .tc main_v11) : (⟨S4x148x128x128, .f32⟩ : BufTy).Contents (Elt F)) slices_S4x148x128x128_S4x128x128x128_0_15_0_0)) := by
  after_results
  all_goals rfl
theorem grp15_keep_main_v10 (W : Valuation τ sig (Elt F)) : after grp15 W (Proc.devRef .tc main_v10) = W (Proc.devRef .tc main_v10) := by
  after_results
  all_goals rfl
theorem grp15_keep_main_v11 (W : Valuation τ sig (Elt F)) : after grp15 W (Proc.devRef .tc main_v11) = W (Proc.devRef .tc main_v11) := by
  after_results
  all_goals rfl
theorem grp15_keep_main_arg0 (W : Valuation τ sig (Elt F)) : after grp15 W (Proc.devRef .tc main_arg0) = W (Proc.devRef .tc main_arg0) := by
  after_results
  all_goals rfl
theorem grp15_keep_main_arg1 (W : Valuation τ sig (Elt F)) : after grp15 W (Proc.devRef .tc main_arg1) = W (Proc.devRef .tc main_arg1) := by
  after_results
  all_goals rfl
theorem grp15_sub : (grp15 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp15_fresh : ∀ op ∈ (grp15 : List (HloOp τ sig (Elt F))), op.fresh = ∅ := by
  intro _ h; (repeat (cases h with | head => rfl | tail _ h => ?_)); exact nomatch h

/-- Window position 16: the sum so far plus the product; the weights, the padded input and the arguments are left alone. -/
theorem grp16_acc (W : Valuation τ sig (Elt F)) :
    after grp16 W (Proc.devRef .tc main_v131)
      = addf (W (Proc.devRef .tc main_v124) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 16] (W (Proc.devRef .tc main_v10) : (⟨S4x128x21, .f32⟩ : BufTy).Contents (Elt F)) slices_S4x128x21_S4x128x1_0_0_16) shapeCasts_S4x128x1_S4x128))) (extractStridedSlice S4x128x128x128 ![0, 16, 0, 0] (W (Proc.devRef .tc main_v11) : (⟨S4x148x128x128, .f32⟩ : BufTy).Contents (Elt F)) slices_S4x148x128x128_S4x128x128x128_0_16_0_0)) := by
  after_results
  all_goals rfl
theorem grp16_keep_main_v10 (W : Valuation τ sig (Elt F)) : after grp16 W (Proc.devRef .tc main_v10) = W (Proc.devRef .tc main_v10) := by
  after_results
  all_goals rfl
theorem grp16_keep_main_v11 (W : Valuation τ sig (Elt F)) : after grp16 W (Proc.devRef .tc main_v11) = W (Proc.devRef .tc main_v11) := by
  after_results
  all_goals rfl
theorem grp16_keep_main_arg0 (W : Valuation τ sig (Elt F)) : after grp16 W (Proc.devRef .tc main_arg0) = W (Proc.devRef .tc main_arg0) := by
  after_results
  all_goals rfl
theorem grp16_keep_main_arg1 (W : Valuation τ sig (Elt F)) : after grp16 W (Proc.devRef .tc main_arg1) = W (Proc.devRef .tc main_arg1) := by
  after_results
  all_goals rfl
theorem grp16_sub : (grp16 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp16_fresh : ∀ op ∈ (grp16 : List (HloOp τ sig (Elt F))), op.fresh = ∅ := by
  intro _ h; (repeat (cases h with | head => rfl | tail _ h => ?_)); exact nomatch h

/-- Window position 17: the sum so far plus the product; the weights, the padded input and the arguments are left alone. -/
theorem grp17_acc (W : Valuation τ sig (Elt F)) :
    after grp17 W (Proc.devRef .tc main_v138)
      = addf (W (Proc.devRef .tc main_v131) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 17] (W (Proc.devRef .tc main_v10) : (⟨S4x128x21, .f32⟩ : BufTy).Contents (Elt F)) slices_S4x128x21_S4x128x1_0_0_17) shapeCasts_S4x128x1_S4x128))) (extractStridedSlice S4x128x128x128 ![0, 17, 0, 0] (W (Proc.devRef .tc main_v11) : (⟨S4x148x128x128, .f32⟩ : BufTy).Contents (Elt F)) slices_S4x148x128x128_S4x128x128x128_0_17_0_0)) := by
  after_results
  all_goals rfl
theorem grp17_keep_main_v10 (W : Valuation τ sig (Elt F)) : after grp17 W (Proc.devRef .tc main_v10) = W (Proc.devRef .tc main_v10) := by
  after_results
  all_goals rfl
theorem grp17_keep_main_v11 (W : Valuation τ sig (Elt F)) : after grp17 W (Proc.devRef .tc main_v11) = W (Proc.devRef .tc main_v11) := by
  after_results
  all_goals rfl
theorem grp17_keep_main_arg0 (W : Valuation τ sig (Elt F)) : after grp17 W (Proc.devRef .tc main_arg0) = W (Proc.devRef .tc main_arg0) := by
  after_results
  all_goals rfl
theorem grp17_keep_main_arg1 (W : Valuation τ sig (Elt F)) : after grp17 W (Proc.devRef .tc main_arg1) = W (Proc.devRef .tc main_arg1) := by
  after_results
  all_goals rfl
theorem grp17_sub : (grp17 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp17_fresh : ∀ op ∈ (grp17 : List (HloOp τ sig (Elt F))), op.fresh = ∅ := by
  intro _ h; (repeat (cases h with | head => rfl | tail _ h => ?_)); exact nomatch h

/-- Window position 18: the sum so far plus the product; the weights, the padded input and the arguments are left alone. -/
theorem grp18_acc (W : Valuation τ sig (Elt F)) :
    after grp18 W (Proc.devRef .tc main_v145)
      = addf (W (Proc.devRef .tc main_v138) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 18] (W (Proc.devRef .tc main_v10) : (⟨S4x128x21, .f32⟩ : BufTy).Contents (Elt F)) slices_S4x128x21_S4x128x1_0_0_18) shapeCasts_S4x128x1_S4x128))) (extractStridedSlice S4x128x128x128 ![0, 18, 0, 0] (W (Proc.devRef .tc main_v11) : (⟨S4x148x128x128, .f32⟩ : BufTy).Contents (Elt F)) slices_S4x148x128x128_S4x128x128x128_0_18_0_0)) := by
  after_results
  all_goals rfl
theorem grp18_keep_main_v10 (W : Valuation τ sig (Elt F)) : after grp18 W (Proc.devRef .tc main_v10) = W (Proc.devRef .tc main_v10) := by
  after_results
  all_goals rfl
theorem grp18_keep_main_v11 (W : Valuation τ sig (Elt F)) : after grp18 W (Proc.devRef .tc main_v11) = W (Proc.devRef .tc main_v11) := by
  after_results
  all_goals rfl
theorem grp18_keep_main_arg0 (W : Valuation τ sig (Elt F)) : after grp18 W (Proc.devRef .tc main_arg0) = W (Proc.devRef .tc main_arg0) := by
  after_results
  all_goals rfl
theorem grp18_keep_main_arg1 (W : Valuation τ sig (Elt F)) : after grp18 W (Proc.devRef .tc main_arg1) = W (Proc.devRef .tc main_arg1) := by
  after_results
  all_goals rfl
theorem grp18_sub : (grp18 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp18_fresh : ∀ op ∈ (grp18 : List (HloOp τ sig (Elt F))), op.fresh = ∅ := by
  intro _ h; (repeat (cases h with | head => rfl | tail _ h => ?_)); exact nomatch h

/-- Window position 19: the sum so far plus the product; the weights, the padded input and the arguments are left alone. -/
theorem grp19_acc (W : Valuation τ sig (Elt F)) :
    after grp19 W (Proc.devRef .tc main_v152)
      = addf (W (Proc.devRef .tc main_v145) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 19] (W (Proc.devRef .tc main_v10) : (⟨S4x128x21, .f32⟩ : BufTy).Contents (Elt F)) slices_S4x128x21_S4x128x1_0_0_19) shapeCasts_S4x128x1_S4x128))) (extractStridedSlice S4x128x128x128 ![0, 19, 0, 0] (W (Proc.devRef .tc main_v11) : (⟨S4x148x128x128, .f32⟩ : BufTy).Contents (Elt F)) slices_S4x148x128x128_S4x128x128x128_0_19_0_0)) := by
  after_results
  all_goals rfl
theorem grp19_keep_main_v10 (W : Valuation τ sig (Elt F)) : after grp19 W (Proc.devRef .tc main_v10) = W (Proc.devRef .tc main_v10) := by
  after_results
  all_goals rfl
theorem grp19_keep_main_v11 (W : Valuation τ sig (Elt F)) : after grp19 W (Proc.devRef .tc main_v11) = W (Proc.devRef .tc main_v11) := by
  after_results
  all_goals rfl
theorem grp19_keep_main_arg0 (W : Valuation τ sig (Elt F)) : after grp19 W (Proc.devRef .tc main_arg0) = W (Proc.devRef .tc main_arg0) := by
  after_results
  all_goals rfl
theorem grp19_keep_main_arg1 (W : Valuation τ sig (Elt F)) : after grp19 W (Proc.devRef .tc main_arg1) = W (Proc.devRef .tc main_arg1) := by
  after_results
  all_goals rfl
theorem grp19_sub : (grp19 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp19_fresh : ∀ op ∈ (grp19 : List (HloOp τ sig (Elt F))), op.fresh = ∅ := by
  intro _ h; (repeat (cases h with | head => rfl | tail _ h => ?_)); exact nomatch h

/-- Window position 20: the sum so far plus the product; the weights, the padded input and the arguments are left alone. -/
theorem grp20_acc (W : Valuation τ sig (Elt F)) :
    after grp20 W (Proc.devRef .tc main_v159)
      = addf (W (Proc.devRef .tc main_v152) : (⟨S4x128x128x128, .f32⟩ : BufTy).Contents (Elt F))
          (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 20] (W (Proc.devRef .tc main_v10) : (⟨S4x128x21, .f32⟩ : BufTy).Contents (Elt F)) slices_S4x128x21_S4x128x1_0_0_20) shapeCasts_S4x128x1_S4x128))) (extractStridedSlice S4x128x128x128 ![0, 20, 0, 0] (W (Proc.devRef .tc main_v11) : (⟨S4x148x128x128, .f32⟩ : BufTy).Contents (Elt F)) slices_S4x148x128x128_S4x128x128x128_0_20_0_0)) := by
  after_results
  all_goals rfl
theorem grp20_keep_main_v10 (W : Valuation τ sig (Elt F)) : after grp20 W (Proc.devRef .tc main_v10) = W (Proc.devRef .tc main_v10) := by
  after_results
  all_goals rfl
theorem grp20_keep_main_v11 (W : Valuation τ sig (Elt F)) : after grp20 W (Proc.devRef .tc main_v11) = W (Proc.devRef .tc main_v11) := by
  after_results
  all_goals rfl
theorem grp20_keep_main_arg0 (W : Valuation τ sig (Elt F)) : after grp20 W (Proc.devRef .tc main_arg0) = W (Proc.devRef .tc main_arg0) := by
  after_results
  all_goals rfl
theorem grp20_keep_main_arg1 (W : Valuation τ sig (Elt F)) : after grp20 W (Proc.devRef .tc main_arg1) = W (Proc.devRef .tc main_arg1) := by
  after_results
  all_goals rfl
theorem grp20_sub : (grp20 : List (HloOp τ sig (Elt F))).Forall fun op => op.bufs ⊆ tcRefs τ sig :=
  ⟨unary_bufs_sub .., reshape_bufs_sub .., unary_bufs_sub .., unary_bufs_sub .., unary_bufs_sub .., binary_bufs_sub .., binary_bufs_sub ..⟩
theorem grp20_fresh : ∀ op ∈ (grp20 : List (HloOp τ sig (Elt F))), op.fresh = ∅ := by
  intro _ h; (repeat (cases h with | head => rfl | tail _ h => ?_)); exact nomatch h

end Cert.ReferenceIdeal.MixRun

end
-- ==== Proof.LibLineAppend.lean ====
/-
  A line of host operations cut in two.

  What a line of host operations leaves in the buffers is what its second part leaves from what its first part left
  (the fold over the line splits at any cut).  A property of every operation of both parts holds of every operation of
  the line, in the two forms the run of a line asks for it: as a conjunction over the list and as a statement about
  the list's members.  With these a long straight-line program is run as a few short lists appended, each list's
  results computed on its own from unknown earlier contents.
-/
import Idealize.ShloMosaic.Lib.StableHlo.Run

namespace Cert.Lib.LineAppend

open Idealize.ShloMosaic Idealize.ShloMosaic.StableHlo

variable {τ : Topo} {sig : RefSig}

/-- What a line of two parts leaves is what the second part leaves from what the first left. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem fresh_append {α β : Type} {f : α → β} {z : β} {l₁ l₂ : List α} (h₁ : ∀ x ∈ l₁, f x = z) (h₂ : ∀ x ∈ l₂, f x = z) :
    ∀ x ∈ l₁ ++ l₂, f x = z :=
  fun x hx => (List.mem_append.mp hx).elim (h₁ x) (h₂ x)

end Cert.Lib.LineAppend
-- ==== Proof.RefRun.lean ====
/-
  The reference's run, read: every weakly fair execution of its @main ends with the result buffer at one function of
  the two arguments and the arguments as they were.

  The line of operations is the opening followed by the twenty-one window positions; what a line leaves is what its
  second part leaves from what its first part left, so the result buffer holds the zero array plus the twenty-one
  products, added first to last, of a column of the softmax weights and the bands of the padded input.
-/
import proofs.«107940_j28784870818046_2_alg».proof.Proof.Gen.ReferenceIdeal
import Idealize.ShloMosaic.Lib.StableHlo.Run
import proofs.«107940_j28784870818046_2_alg».proof.Proof.RefGroupsA
import proofs.«107940_j28784870818046_2_alg».proof.Proof.RefGroupsB
import proofs.«107940_j28784870818046_2_alg».proof.Proof.RefGroupsC
import proofs.«107940_j28784870818046_2_alg».proof.Proof.LibLineAppend

noncomputable section

namespace Cert.ReferenceIdeal.MixRun

open Cert.ReferenceIdeal Cert.ReferenceIdeal.Gen Idealize.ShloMosaic Idealize.ShloMosaic.TcCoe Idealize.SL.Sem Idealize.ShloMosaic.StableHlo
open Cert.Lib.LineAppend

variable {F : FTy → Type} [FloatOps F]

theorem ops_sub : (ops : List (HloOp τ sig (Elt F))).Forall fun op => op.bufs ⊆ tcRefs τ sig :=
  forall_append pre_sub (forall_append grp0_sub (forall_append grp1_sub (forall_append grp2_sub (forall_append grp3_sub (forall_append grp4_sub (forall_append grp5_sub (forall_append grp6_sub (forall_append grp7_sub (forall_append grp8_sub (forall_append grp9_sub (forall_append grp10_sub (forall_append grp11_sub (forall_append grp12_sub (forall_append grp13_sub (forall_append grp14_sub (forall_append grp15_sub (forall_append grp16_sub (forall_append grp17_sub (forall_append grp18_sub (forall_append grp19_sub grp20_sub))))))))))))))))))))

theorem ops_fresh : ∀ op ∈ (ops : List (HloOp τ sig (Elt F))), op.fresh = ∅ :=
  fresh_append pre_fresh (fresh_append grp0_fresh (fresh_append grp1_fresh (fresh_append grp2_fresh (fresh_append grp3_fresh (fresh_append grp4_fresh (fresh_append grp5_fresh (fresh_append grp6_fresh (fresh_append grp7_fresh (fresh_append grp8_fresh (fresh_append grp9_fresh (fresh_append grp10_fresh (fresh_append grp11_fresh (fresh_append grp12_fresh (fresh_append grp13_fresh (fresh_append grp14_fresh (fresh_append grp15_fresh (fresh_append grp16_fresh (fresh_append grp17_fresh (fresh_append grp18_fresh (fresh_append grp19_fresh grp20_fresh))))))))))))))))))))

/-- The softmax of the logits along their last axis, as the host computes it. -/
def softW (X1 : (⟨S4x128x21, .f32⟩ : BufTy).Contents (Elt F)) : (⟨S4x128x21, .f32⟩ : BufTy).Contents (Elt F) :=
  (Host.divf (Host.exp (subf X1 (broadcastInDim S4x128x21 ![0, 1, 2] bcast_S4x128x1_S4x128x21_0_1_2 (broadcastInDim S4x128x1 ![0, 1] bcast_S4x128_S4x128x1_0_1 (maximumf (broadcastInDim S4x128 ![] bcast_S_S4x128 (constant S_ .f32 0xFF800000#32)) (Host.reduce FloatOps.maximumf X1 (constant S_ .f32 0xFF800000#32) reducesTo_S4x128x21_S4x128_d2 h_S_)))))) (broadcastInDim S4x128x21 ![0, 1, 2] bcast_S4x128x1_S4x128x21_0_1_2 (broadcastInDim S4x128x1 ![0, 1] bcast_S4x128_S4x128x1_0_1 (Host.reduceAdd (Host.exp (subf X1 (broadcastInDim S4x128x21 ![0, 1, 2] bcast_S4x128x1_S4x128x21_0_1_2 (broadcastInDim S4x128x1 ![0, 1] bcast_S4x128_S4x128x1_0_1 (maximumf (broadcastInDim S4x128 ![] bcast_S_S4x128 (constant S_ .f32 0xFF800000#32)) (Host.reduce FloatOps.maximumf X1 (constant S_ .f32 0xFF800000#32) reducesTo_S4x128x21_S4x128_d2 h_S_)))))) (constant S_ .f32 0x00000000#32) reducesTo_S4x128x21_S4x128_d2 h_S_))))

/-- The input padded with ten bands of the padding value (the integer 0 converted) on either side of its second axis. -/
def padX (X0 : (⟨S4x128x128x128, .f32⟩ : BufTy).Contents (Elt F)) : (⟨S4x148x128x128, .f32⟩ : BufTy).Contents (Elt F) :=
  (pad S4x148x128x128 ![0, 10, 0, 0] ![0, 10, 0, 0] ![0, 0, 0, 0] X0 (sitofp .f32 (constantI S_ 32 0#32)) pads_S4x128x128x128_S4x148x128x128_000_10100_000_000 h_S_)

/-- The zero array the sum starts from. -/
def zeros : (⟨S4x128x128x128, .f32⟩ : BufTy).Contents (Elt F) :=
  (broadcastInDim S4x128x128x128 ![] bcast_S_S4x128x128x128 (constant S_ .f32 0x00000000#32))

/-- The sum, first to last, of the twenty-one products of a weight column and the padded input's bands, from Z. -/
def chain (W : (⟨S4x128x21, .f32⟩ : BufTy).Contents (Elt F)) (XP : (⟨S4x148x128x128, .f32⟩ : BufTy).Contents (Elt F)) (Z : (⟨S4x128x128x128, .f32⟩ : BufTy).Contents (Elt F)) : (⟨S4x128x128x128, .f32⟩ : BufTy).Contents (Elt F) :=
  (addf (addf (addf (addf (addf (addf (addf (addf (addf (addf (addf (addf (addf (addf (addf (addf (addf (addf (addf (addf (addf Z
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 0] W slices_S4x128x21_S4x128x1_0_0_0) shapeCasts_S4x128x1_S4x128))) (extractStridedSlice S4x128x128x128 ![0, 0, 0, 0] XP slices_S4x148x128x128_S4x128x128x128_0_0_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 1] W slices_S4x128x21_S4x128x1_0_0_1) shapeCasts_S4x128x1_S4x128))) (extractStridedSlice S4x128x128x128 ![0, 1, 0, 0] XP slices_S4x148x128x128_S4x128x128x128_0_1_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 2] W slices_S4x128x21_S4x128x1_0_0_2) shapeCasts_S4x128x1_S4x128))) (extractStridedSlice S4x128x128x128 ![0, 2, 0, 0] XP slices_S4x148x128x128_S4x128x128x128_0_2_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 3] W slices_S4x128x21_S4x128x1_0_0_3) shapeCasts_S4x128x1_S4x128))) (extractStridedSlice S4x128x128x128 ![0, 3, 0, 0] XP slices_S4x148x128x128_S4x128x128x128_0_3_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 4] W slices_S4x128x21_S4x128x1_0_0_4) shapeCasts_S4x128x1_S4x128))) (extractStridedSlice S4x128x128x128 ![0, 4, 0, 0] XP slices_S4x148x128x128_S4x128x128x128_0_4_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 5] W slices_S4x128x21_S4x128x1_0_0_5) shapeCasts_S4x128x1_S4x128))) (extractStridedSlice S4x128x128x128 ![0, 5, 0, 0] XP slices_S4x148x128x128_S4x128x128x128_0_5_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 6] W slices_S4x128x21_S4x128x1_0_0_6) shapeCasts_S4x128x1_S4x128))) (extractStridedSlice S4x128x128x128 ![0, 6, 0, 0] XP slices_S4x148x128x128_S4x128x128x128_0_6_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 7] W slices_S4x128x21_S4x128x1_0_0_7) shapeCasts_S4x128x1_S4x128))) (extractStridedSlice S4x128x128x128 ![0, 7, 0, 0] XP slices_S4x148x128x128_S4x128x128x128_0_7_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 8] W slices_S4x128x21_S4x128x1_0_0_8) shapeCasts_S4x128x1_S4x128))) (extractStridedSlice S4x128x128x128 ![0, 8, 0, 0] XP slices_S4x148x128x128_S4x128x128x128_0_8_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 9] W slices_S4x128x21_S4x128x1_0_0_9) shapeCasts_S4x128x1_S4x128))) (extractStridedSlice S4x128x128x128 ![0, 9, 0, 0] XP slices_S4x148x128x128_S4x128x128x128_0_9_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 10] W slices_S4x128x21_S4x128x1_0_0_10) shapeCasts_S4x128x1_S4x128))) (extractStridedSlice S4x128x128x128 ![0, 10, 0, 0] XP slices_S4x148x128x128_S4x128x128x128_0_10_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 11] W slices_S4x128x21_S4x128x1_0_0_11) shapeCasts_S4x128x1_S4x128))) (extractStridedSlice S4x128x128x128 ![0, 11, 0, 0] XP slices_S4x148x128x128_S4x128x128x128_0_11_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 12] W slices_S4x128x21_S4x128x1_0_0_12) shapeCasts_S4x128x1_S4x128))) (extractStridedSlice S4x128x128x128 ![0, 12, 0, 0] XP slices_S4x148x128x128_S4x128x128x128_0_12_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 13] W slices_S4x128x21_S4x128x1_0_0_13) shapeCasts_S4x128x1_S4x128))) (extractStridedSlice S4x128x128x128 ![0, 13, 0, 0] XP slices_S4x148x128x128_S4x128x128x128_0_13_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 14] W slices_S4x128x21_S4x128x1_0_0_14) shapeCasts_S4x128x1_S4x128))) (extractStridedSlice S4x128x128x128 ![0, 14, 0, 0] XP slices_S4x148x128x128_S4x128x128x128_0_14_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 15] W slices_S4x128x21_S4x128x1_0_0_15) shapeCasts_S4x128x1_S4x128))) (extractStridedSlice S4x128x128x128 ![0, 15, 0, 0] XP slices_S4x148x128x128_S4x128x128x128_0_15_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 16] W slices_S4x128x21_S4x128x1_0_0_16) shapeCasts_S4x128x1_S4x128))) (extractStridedSlice S4x128x128x128 ![0, 16, 0, 0] XP slices_S4x148x128x128_S4x128x128x128_0_16_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 17] W slices_S4x128x21_S4x128x1_0_0_17) shapeCasts_S4x128x1_S4x128))) (extractStridedSlice S4x128x128x128 ![0, 17, 0, 0] XP slices_S4x148x128x128_S4x128x128x128_0_17_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 18] W slices_S4x128x21_S4x128x1_0_0_18) shapeCasts_S4x128x1_S4x128))) (extractStridedSlice S4x128x128x128 ![0, 18, 0, 0] XP slices_S4x148x128x128_S4x128x128x128_0_18_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 19] W slices_S4x128x21_S4x128x1_0_0_19) shapeCasts_S4x128x1_S4x128))) (extractStridedSlice S4x128x128x128 ![0, 19, 0, 0] XP slices_S4x148x128x128_S4x128x128x128_0_19_0_0)))
    (mulf (broadcastInDim S4x128x128x128 ![0, 1, 2, 3] bcast_S4x128x1x1_S4x128x128x128_0_1_2_3 (broadcastInDim S4x128x1x1 ![0, 1] bcast_S4x128_S4x128x1x1_0_1 (shapeCast S4x128 (extractStridedSlice S4x128x1 ![0, 0, 20] W slices_S4x128x21_S4x128x1_0_0_20) shapeCasts_S4x128x1_S4x128))) (extractStridedSlice S4x128x128x128 ![0, 20, 0, 0] XP slices_S4x148x128x128_S4x128x128x128_0_20_0_0)))

/-- What the result buffer holds after the line, from contents V. -/
theorem ops_res (V : Valuation τ sig (Elt F)) :
    after ops V (Proc.devRef .tc main_v159)
      = chain (softW (V (Proc.devRef .tc main_arg1))) (padX (V (Proc.devRef .tc main_arg0))) zeros := by
  unfold ops
  simp only [after_append]
  rw [grp20_acc,
    grp19_acc, grp19_keep_main_v10, grp19_keep_main_v11,
    grp18_acc, grp18_keep_main_v10, grp18_keep_main_v11,
    grp17_acc, grp17_keep_main_v10, grp17_keep_main_v11,
    grp16_acc, grp16_keep_main_v10, grp16_keep_main_v11,
    grp15_acc, grp15_keep_main_v10, grp15_keep_main_v11,
    grp14_acc, grp14_keep_main_v10, grp14_keep_main_v11,
    grp13_acc, grp13_keep_main_v10, grp13_keep_main_v11,
    grp12_acc, grp12_keep_main_v10, grp12_keep_main_v11,
    grp11_acc, grp11_keep_main_v10, grp11_keep_main_v11,
    grp10_acc, grp10_keep_main_v10, grp10_keep_main_v11,
    grp9_acc, grp9_keep_main_v10, grp9_keep_main_v11,
    grp8_acc, grp8_keep_main_v10, grp8_keep_main_v11,
    grp7_acc, grp7_keep_main_v10, grp7_keep_main_v11,
    grp6_acc, grp6_keep_main_v10, grp6_keep_main_v11,
    grp5_acc, grp5_keep_main_v10, grp5_keep_main_v11,
    grp4_acc, grp4_keep_main_v10, grp4_keep_main_v11,
    grp3_acc, grp3_keep_main_v10, grp3_keep_main_v11,
    grp2_acc, grp2_keep_main_v10, grp2_keep_main_v11,
    grp1_acc, grp1_keep_main_v10, grp1_keep_main_v11,
    grp0_acc, grp0_keep_main_v10, grp0_keep_main_v11,
    pre_v12, pre_v10, pre_v11]
  rfl

theorem ops_arg0 (V : Valuation τ sig (Elt F)) : after ops V (Proc.devRef .tc main_arg0) = V (Proc.devRef .tc main_arg0) := by
  unfold ops
  simp only [after_append]
  rw [grp20_keep_main_arg0, grp19_keep_main_arg0, grp18_keep_main_arg0, grp17_keep_main_arg0, grp16_keep_main_arg0, grp15_keep_main_arg0, grp14_keep_main_arg0, grp13_keep_main_arg0, grp12_keep_main_arg0, grp11_keep_main_arg0, grp10_keep_main_arg0, grp9_keep_main_arg0, grp8_keep_main_arg0, grp7_keep_main_arg0, grp6_keep_main_arg0, grp5_keep_main_arg0, grp4_keep_main_arg0, grp3_keep_main_arg0, grp2_keep_main_arg0, grp1_keep_main_arg0, grp0_keep_main_arg0, pre_keep_main_arg0]

theorem ops_arg1 (V : Valuation τ sig (Elt F)) : after ops V (Proc.devRef .tc main_arg1) = V (Proc.devRef .tc main_arg1) := by
  unfold ops
  simp only [after_append]
  rw [grp20_keep_main_arg1, grp19_keep_main_arg1, grp18_keep_main_arg1, grp17_keep_main_arg1, grp16_keep_main_arg1, grp15_keep_main_arg1, grp14_keep_main_arg1, grp13_keep_main_arg1, grp12_keep_main_arg1, grp11_keep_main_arg1, grp10_keep_main_arg1, grp9_keep_main_arg1, grp8_keep_main_arg1, grp7_keep_main_arg1, grp6_keep_main_arg1, grp5_keep_main_arg1, grp4_keep_main_arg1, grp3_keep_main_arg1, grp2_keep_main_arg1, grp1_keep_main_arg1, grp0_keep_main_arg1, pre_keep_main_arg1]

/-- On every device, for any float values, from any memory with zero counters: every weakly fair execution of @main
    terminates with the result at the sum of products of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159)
        = chain (softW (m ((c.tc : Thread nD τ).loc main_arg1))) (padX (m ((c.tc : Thread nD τ).loc main_arg0))) zeros
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v159).trans (ops_res _), (h c main_arg0).trans (ops_arg0 _),
      (h c main_arg1).trans (ops_arg1 _)⟩)
    (run_seq scopedRefs_eq scopedSems_eq defs main (fun _ => ops) main_eq (fun _ => ops_sub) m ρ (fun _ => ops_fresh))

end Cert.ReferenceIdeal.MixRun

end
-- ==== Proof.MixHost.lean ====
/-
  The host's forms of the mixing, read at an index, over the extended reals.

  The host computes the softmax of the [B, a, 21] logits along their last axis the usual way: the row maximum (a
  reduction from minus infinity, then a maximum with minus infinity again), kept as a [B, a, 1] column and repeated,
  is subtracted; the exponentials are summed along the last axis from zero, and each exponential is divided by its
  row's sum.  Read at (p, q, k) that is the specification's softmax weight k of the row (p, q, ·).  The host then
  adds, from a zero array, the 21 products of a weight column and a band-shifted padded input, first to last; read at
  (b, s, h, w) that is the specification's weighted sum, since zero is neutral for addition.
-/
import Idealize.ShloMosaic.Lib.ValueLayout
import Idealize.ShloMosaic.Lib.Pipeline.Value
import Idealize.ShloMosaic.PureOps.Ideal.Laws
import proofs.«107940_j28784870818046_2_alg».proof.Proof.MixSpec
import proofs.«107940_j28784870818046_2_alg».proof.Proof.LibMixLayout

set_option maxRecDepth 8192

noncomputable section

namespace Cert.MixHost

open Idealize.ShloMosaic Idealize.ShloMosaic.ValueIdx Cert.MixSpec Cert.Lib.MixLayout

/-- The host's softmax along the last axis of the [B, a, 21] logits, read at (p, q, k). -/
theorem hostSoftmax_apply {B a : ℕ} (hB : B ≠ 1) (ha : a ≠ 1) (X : FVec Ideal ⟨3, ![B, a, 21]⟩ .f32)
    (hr' : (⟨3, ![B, a, 21]⟩ : Shape).ReducesTo [2] ⟨2, ![B, a]⟩) (hr : (⟨3, ![B, a, 21]⟩ : Shape).Reduces [2] ⟨2, ![B, a]⟩)
    (hS : 0 < (⟨0, ![]⟩ : Shape).numel)
    (hb0 : (⟨0, ![]⟩ : Shape).BroadcastsInDim ⟨2, ![B, a]⟩ ![])
    (hb2 : (⟨2, ![B, a]⟩ : Shape).BroadcastsInDim ⟨3, ![B, a, 1]⟩ ![0, 1])
    (hb3 : (⟨3, ![B, a, 1]⟩ : Shape).BroadcastsInDim ⟨3, ![B, a, 21]⟩ ![0, 1, 2])
    (p : Fin B) (q : Fin a) (k : Fin 21) :
    Host.divf
        (Host.exp (subf X (broadcastInDim ⟨3, ![B, a, 21]⟩ ![0, 1, 2] hb3 (broadcastInDim ⟨3, ![B, a, 1]⟩ ![0, 1] hb2
          (maximumf (broadcastInDim ⟨2, ![B, a]⟩ ![] hb0 (constant (F := Ideal) ⟨0, ![]⟩ .f32 0xFF800000#32))
            (Host.reduce FloatOps.maximumf X (constant (F := Ideal) ⟨0, ![]⟩ .f32 0xFF800000#32) hr' hS))))))
        (broadcastInDim ⟨3, ![B, a, 21]⟩ ![0, 1, 2] hb3 (broadcastInDim ⟨3, ![B, a, 1]⟩ ![0, 1] hb2
          (Host.reduceAdd
            (Host.exp (subf X (broadcastInDim ⟨3, ![B, a, 21]⟩ ![0, 1, 2] hb3 (broadcastInDim ⟨3, ![B, a, 1]⟩ ![0, 1] hb2
              (maximumf (broadcastInDim ⟨2, ![B, a]⟩ ![] hb0 (constant (F := Ideal) ⟨0, ![]⟩ .f32 0xFF800000#32))
                (Host.reduce FloatOps.maximumf X (constant (F := Ideal) ⟨0, ![]⟩ .f32 0xFF800000#32) hr' hS))))))
            (constant (F := Ideal) ⟨0, ![]⟩ .f32 0x00000000#32) hr' hS)))
        (ix3 p q k)
      = soft (fun k' => X (ix3 p q k')) k := by
  -- the row maximum, kept as a column and repeated, read anywhere in the row
  have hM : ∀ k' : Fin 21,
      broadcastInDim ⟨3, ![B, a, 21]⟩ ![0, 1, 2] hb3 (broadcastInDim ⟨3, ![B, a, 1]⟩ ![0, 1] hb2
          (maximumf (broadcastInDim ⟨2, ![B, a]⟩ ![] hb0 (constant (F := Ideal) ⟨0, ![]⟩ .f32 0xFF800000#32))
            (Host.reduce FloatOps.maximumf X (constant (F := Ideal) ⟨0, ![]⟩ .f32 0xFF800000#32) hr' hS))) (ix3 p q k')
        = rowMax (fun k' => X (ix3 p q k')) := by
    intro k'
    rw [bcast_ab1_abn_apply _ hb3 hB ha, bcast_ab_ab1_apply _ hb2 hB ha, maximumf_apply, bcast_scalar_apply,
      Cert.Lib.HostMaxLast.hostMax_axis2_apply X _ hr' hr hS, constant_apply, constant_apply, max_fold_start]
    rfl
  -- so each exponential is the specification's
  have hE : ∀ k' : Fin 21,
      Host.exp (subf X (broadcastInDim ⟨3, ![B, a, 21]⟩ ![0, 1, 2] hb3 (broadcastInDim ⟨3, ![B, a, 1]⟩ ![0, 1] hb2
          (maximumf (broadcastInDim ⟨2, ![B, a]⟩ ![] hb0 (constant (F := Ideal) ⟨0, ![]⟩ .f32 0xFF800000#32))
            (Host.reduce FloatOps.maximumf X (constant (F := Ideal) ⟨0, ![]⟩ .f32 0xFF800000#32) hr' hS))))) (ix3 p q k')
        = Ideal.exp (X (ix3 p q k') - rowMax (fun k' => X (ix3 p q k'))) := by
    intro k'
    show Ideal.exp (X (ix3 p q k') - _) = _
    rw [hM]
  show Ideal.div _ _ = _
  rw [hE, bcast_ab1_abn_apply _ hb3 hB ha, bcast_ab_ab1_apply _ hb2 hB ha, hostSum_axis2_apply _ _ hr' hr hS,
    constant_apply, Ideal.ofBits_zero_f32, zero_add]
  simp only [hE]
  rfl

/-- The host's sum of the 21 products, from a zero array, read at (b, s, h, w). -/
theorem hostChain_apply (W : FVec Ideal ⟨3, ![4, 128, 21]⟩ .f32) (XP : FVec Ideal ⟨4, ![4, 148, 128, 128]⟩ .f32)
    (Z : FVec Ideal ⟨4, ![4, 128, 128, 128]⟩ .f32) (hZ : ∀ i, Z i = 0)
    (hs : ∀ K : ℕ, K < 21 → (⟨3, ![4, 128, 21]⟩ : Shape).Slices ![0, 0, K] ⟨3, ![4, 128, 1]⟩)
    (hc : (⟨3, ![4, 128, 1]⟩ : Shape).ShapeCasts ⟨2, ![4, 128]⟩)
    (hb1 : (⟨2, ![4, 128]⟩ : Shape).BroadcastsInDim ⟨4, ![4, 128, 1, 1]⟩ ![0, 1])
    (hb2 : (⟨4, ![4, 128, 1, 1]⟩ : Shape).BroadcastsInDim ⟨4, ![4, 128, 128, 128]⟩ ![0, 1, 2, 3])
    (hp : ∀ K : ℕ, K < 21 → (⟨4, ![4, 148, 128, 128]⟩ : Shape).Slices ![0, K, 0, 0] ⟨4, ![4, 128, 128, 128]⟩)
    (b : Fin 4) (s : Fin 128) (h w : Fin 128) :
    (addf (addf (addf (addf (addf (addf (addf (addf (addf (addf (addf (addf (addf (addf (addf (addf (addf (addf (addf (addf (addf Z
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 0] W (hs 0 (by decide))) hc))) (extractStridedSlice ⟨4, ![4, 128, 128, 128]⟩ ![0, 0, 0, 0] XP (hp 0 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 1] W (hs 1 (by decide))) hc))) (extractStridedSlice ⟨4, ![4, 128, 128, 128]⟩ ![0, 1, 0, 0] XP (hp 1 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 2] W (hs 2 (by decide))) hc))) (extractStridedSlice ⟨4, ![4, 128, 128, 128]⟩ ![0, 2, 0, 0] XP (hp 2 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 3] W (hs 3 (by decide))) hc))) (extractStridedSlice ⟨4, ![4, 128, 128, 128]⟩ ![0, 3, 0, 0] XP (hp 3 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 4] W (hs 4 (by decide))) hc))) (extractStridedSlice ⟨4, ![4, 128, 128, 128]⟩ ![0, 4, 0, 0] XP (hp 4 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 5] W (hs 5 (by decide))) hc))) (extractStridedSlice ⟨4, ![4, 128, 128, 128]⟩ ![0, 5, 0, 0] XP (hp 5 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 6] W (hs 6 (by decide))) hc))) (extractStridedSlice ⟨4, ![4, 128, 128, 128]⟩ ![0, 6, 0, 0] XP (hp 6 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 7] W (hs 7 (by decide))) hc))) (extractStridedSlice ⟨4, ![4, 128, 128, 128]⟩ ![0, 7, 0, 0] XP (hp 7 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 8] W (hs 8 (by decide))) hc))) (extractStridedSlice ⟨4, ![4, 128, 128, 128]⟩ ![0, 8, 0, 0] XP (hp 8 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 9] W (hs 9 (by decide))) hc))) (extractStridedSlice ⟨4, ![4, 128, 128, 128]⟩ ![0, 9, 0, 0] XP (hp 9 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 10] W (hs 10 (by decide))) hc))) (extractStridedSlice ⟨4, ![4, 128, 128, 128]⟩ ![0, 10, 0, 0] XP (hp 10 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 11] W (hs 11 (by decide))) hc))) (extractStridedSlice ⟨4, ![4, 128, 128, 128]⟩ ![0, 11, 0, 0] XP (hp 11 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 12] W (hs 12 (by decide))) hc))) (extractStridedSlice ⟨4, ![4, 128, 128, 128]⟩ ![0, 12, 0, 0] XP (hp 12 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 13] W (hs 13 (by decide))) hc))) (extractStridedSlice ⟨4, ![4, 128, 128, 128]⟩ ![0, 13, 0, 0] XP (hp 13 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 14] W (hs 14 (by decide))) hc))) (extractStridedSlice ⟨4, ![4, 128, 128, 128]⟩ ![0, 14, 0, 0] XP (hp 14 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 15] W (hs 15 (by decide))) hc))) (extractStridedSlice ⟨4, ![4, 128, 128, 128]⟩ ![0, 15, 0, 0] XP (hp 15 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 16] W (hs 16 (by decide))) hc))) (extractStridedSlice ⟨4, ![4, 128, 128, 128]⟩ ![0, 16, 0, 0] XP (hp 16 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 17] W (hs 17 (by decide))) hc))) (extractStridedSlice ⟨4, ![4, 128, 128, 128]⟩ ![0, 17, 0, 0] XP (hp 17 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 18] W (hs 18 (by decide))) hc))) (extractStridedSlice ⟨4, ![4, 128, 128, 128]⟩ ![0, 18, 0, 0] XP (hp 18 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 19] W (hs 19 (by decide))) hc))) (extractStridedSlice ⟨4, ![4, 128, 128, 128]⟩ ![0, 19, 0, 0] XP (hp 19 (by decide)))))
      (mulf (broadcastInDim ⟨4, ![4, 128, 128, 128]⟩ ![0, 1, 2, 3] hb2 (broadcastInDim ⟨4, ![4, 128, 1, 1]⟩ ![0, 1] hb1 (shapeCast ⟨2, ![4, 128]⟩ (extractStridedSlice ⟨3, ![4, 128, 1]⟩ ![0, 0, 20] W (hs 20 (by decide))) hc))) (extractStridedSlice ⟨4, ![4, 128, 128, 128]⟩ ![0, 20, 0, 0] XP (hp 20 (by decide))))) (ix4 b s h w)
      = mix (fun k => W (ix3 b s k)) (fun k => XP (ix4 b ⟨k.val + s.val, by have := k.isLt; have := s.isLt; omega⟩ h w)) := by
  simp only [addf_apply]
  rw [Cert.Lib.MixLayout.refTerm_apply 0 (by decide) (by decide) (by decide) (by decide),
    Cert.Lib.MixLayout.refTerm_apply 1 (by decide) (by decide) (by decide) (by decide),
    Cert.Lib.MixLayout.refTerm_apply 2 (by decide) (by decide) (by decide) (by decide),
    Cert.Lib.MixLayout.refTerm_apply 3 (by decide) (by decide) (by decide) (by decide),
    Cert.Lib.MixLayout.refTerm_apply 4 (by decide) (by decide) (by decide) (by decide),
    Cert.Lib.MixLayout.refTerm_apply 5 (by decide) (by decide) (by decide) (by decide),
    Cert.Lib.MixLayout.refTerm_apply 6 (by decide) (by decide) (by decide) (by decide),
    Cert.Lib.MixLayout.refTerm_apply 7 (by decide) (by decide) (by decide) (by decide),
    Cert.Lib.MixLayout.refTerm_apply 8 (by decide) (by decide) (by decide) (by decide),
    Cert.Lib.MixLayout.refTerm_apply 9 (by decide) (by decide) (by decide) (by decide),
    Cert.Lib.MixLayout.refTerm_apply 10 (by decide) (by decide) (by decide) (by decide),
    Cert.Lib.MixLayout.refTerm_apply 11 (by decide) (by decide) (by decide) (by decide),
    Cert.Lib.MixLayout.refTerm_apply 12 (by decide) (by decide) (by decide) (by decide),
    Cert.Lib.MixLayout.refTerm_apply 13 (by decide) (by decide) (by decide) (by decide),
    Cert.Lib.MixLayout.refTerm_apply 14 (by decide) (by decide) (by decide) (by decide),
    Cert.Lib.MixLayout.refTerm_apply 15 (by decide) (by decide) (by decide) (by decide),
    Cert.Lib.MixLayout.refTerm_apply 16 (by decide) (by decide) (by decide) (by decide),
    Cert.Lib.MixLayout.refTerm_apply 17 (by decide) (by decide) (by decide) (by decide),
    Cert.Lib.MixLayout.refTerm_apply 18 (by decide) (by decide) (by decide) (by decide),
    Cert.Lib.MixLayout.refTerm_apply 19 (by decide) (by decide) (by decide) (by decide),
    Cert.Lib.MixLayout.refTerm_apply 20 (by decide) (by decide) (by decide) (by decide)]
  rw [hZ, zero_add]
  rfl

end Cert.MixHost

end
-- ==== Proof.MixRef.lean ====
/-
  The reference computes the specification.

  Its result is the zero array plus twenty-one products added first to last; read at (b, s, h, w), product k is the
  host's softmax weight (b, s, k) times the padded input at (b, k + s, h, w).  The host's softmax is the
  specification's, the padding reads the input's band k + s - 10 inside 10 ≤ k + s < 138 and the padding value, the
  integer 0 converted, which is 0, outside; and zero is neutral for the first addition.
-/
import proofs.«107940_j28784870818046_2_alg».proof.Proof.RefRun
import proofs.«107940_j28784870818046_2_alg».proof.Proof.MixHost

set_option maxRecDepth 8192

noncomputable section

open Idealize.ShloMosaic Idealize.ShloMosaic.TcCoe Idealize.SL.Sem Idealize.ShloMosaic.ValueIdx

namespace Cert.ReferenceIdeal.MixRef

open Cert.ReferenceIdeal Cert.ReferenceIdeal.Gen Cert.ReferenceIdeal.MixRun Cert.MixSpec

/-- The reference's result is the specification of its arguments. -/
theorem res_eq_G (X0 : FVec Ideal S4x128x128x128 .f32) (X1 : FVec Ideal S4x128x21 .f32) :
    chain (F := Ideal) (softW X1) (padX X0) zeros = G X0 X1 := by
  funext i
  obtain ⟨b, s, h, w, rfl⟩ : ∃ (b : Fin 4) (s h w : Fin 128), i = ix4 b s h w := ⟨i 0, i 1, i 2, i 3, eq_ix4 i⟩
  unfold chain
  refine (Cert.MixHost.hostChain_apply (softW (F := Ideal) X1) (padX (F := Ideal) X0) (zeros (F := Ideal))
    (fun j => (Cert.Lib.MixLayout.bcast_scalar_apply _ _ j).trans Ideal.ofBits_zero_f32)
    (fun K hK => ⟨rfl, fun a => by
      match a with
      | ⟨0, _⟩ => show 0 + 4 ≤ 4; omega
      | ⟨1, _⟩ => show 0 + 128 ≤ 128; omega
      | ⟨2, _⟩ => show K + 1 ≤ 21; omega⟩)
    shapeCasts_S4x128x1_S4x128 bcast_S4x128_S4x128x1x1_0_1 bcast_S4x128x1x1_S4x128x128x128_0_1_2_3
    (fun K hK => ⟨rfl, fun a => by
      match a with
      | ⟨0, _⟩ => show 0 + 4 ≤ 4; omega
      | ⟨1, _⟩ => show K + 128 ≤ 148; omega
      | ⟨2, _⟩ => show 0 + 128 ≤ 128; omega
      | ⟨3, _⟩ => show 0 + 128 ≤ 128; omega⟩)
    b s h w).trans ?_
  unfold G
  refine congrArg₂ mix (funext fun k => ?_) (funext fun k => ?_)
  · unfold softW
    exact Cert.MixHost.hostSoftmax_apply (by decide) (by decide) X1 _ (by decide) _ _ _ _ b s k
  · unfold padX
    show pad S4x148x128x128 ![0, 10, 0, 0] ![0, 10, 0, 0] ![0, 0, 0, 0] X0 (sitofp (F := Ideal) .f32 (constantI S_ 32 0#32)) _ _
        (ix4 b (⟨k.val + s.val, by have := k.isLt; have := s.isLt; omega⟩ : Fin 148) h w)
      = padRow (fun r => X0 (ix4 b r h w)) (k.val + s.val)
    rw [Cert.Lib.MixLayout.pad_axis1_apply]
    by_cases hr : 10 ≤ k.val + s.val ∧ k.val + s.val < 138
    · rw [padRow_of_mem _ _ hr, dif_pos (show 10 ≤ k.val + s.val ∧ k.val + s.val < 10 + 128 from by omega)]
    · rw [padRow_of_not_mem _ _ hr, dif_neg (show ¬(10 ≤ k.val + s.val ∧ k.val + s.val < 10 + 128) from by omega)]
      show (((0#32 : BitVec 32).toInt : ℝ) : EReal) = 0
      simp

end Cert.ReferenceIdeal.MixRef

end
-- ==== Proof.lean ====
/-
  Adaptive mixing: a softmax over a window of 21 logits per (sample, band), and the softmax-weighted sum of the 21
  consecutive bands of the zero-padded input, the same at every point of the (H, W) plane.

  The kernel and the reference compute one function of their two arguments over the extended reals (the
  specification, MixSpec.G): the softmax weights of the logits msk(b, s, ·) times the bands k + s of the input padded
  with ten zero bands on either side, the 21 products added first to last.  The kernel reaches it block by block —
  one grid point per sample and half of the H axis, the padding staged in a scratch of 148 bands, the sum
  accumulated in the output block — and its eight blocks cover the result array.  The reference reaches it as a line
  of host operations: the softmax, the padding, a zero array, and 21 multiply-and-add steps.  The two differ only
  where the reference takes a maximum with minus infinity again and starts its sum from a zero array, and neither
  changes a value; so the inputs' finiteness is never used.

  The three frames are the programs' runs with the results dropped; the idealization rewrote nothing.
-/
import proofs.«107940_j28784870818046_2_alg».proof.Defs
import proofs.«107940_j28784870818046_2_alg».proof.Proof.Gen.Kernel
import proofs.«107940_j28784870818046_2_alg».proof.Proof.Gen.Kernel.Skeleton
import proofs.«107940_j28784870818046_2_alg».proof.Proof.Gen.Kernel.Launch
import proofs.«107940_j28784870818046_2_alg».proof.Proof.Gen.Kernel.Points
import proofs.«107940_j28784870818046_2_alg».proof.Proof.Gen.Kernel.Frame
import proofs.«107940_j28784870818046_2_alg».proof.Proof.Gen.KernelIdeal
import proofs.«107940_j28784870818046_2_alg».proof.Proof.Gen.KernelIdeal.Skeleton
import proofs.«107940_j28784870818046_2_alg».proof.Proof.Gen.KernelIdeal.Launch
import proofs.«107940_j28784870818046_2_alg».proof.Proof.Gen.KernelIdeal.Points
import proofs.«107940_j28784870818046_2_alg».proof.Proof.Gen.KernelIdeal.Frame
import proofs.«107940_j28784870818046_2_alg».proof.Proof.Gen.ReferenceIdeal
import proofs.«107940_j28784870818046_2_alg».proof.Proof.Gen.Pre_finite_inputs
import proofs.«107940_j28784870818046_2_alg».proof.Proof.Gen.KernelIdeal.Value
import proofs.«107940_j28784870818046_2_alg».proof.Proof.MixKernel
import proofs.«107940_j28784870818046_2_alg».proof.Proof.MixRef
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.MixRun.run (F := Ideal) m ρ)

theorem preserves : Cert.preserves_Kernel_KernelIdeal := trivial

/-- Both programs, run from memories that agree on the arguments, end with the result at the specification of those
    arguments. -/
theorem algebraic : Cert.algebraic_KernelIdeal_ReferenceIdeal := by
  intro m ρ m' ρ' _ hagree
  refine ⟨_, Cert.KernelIdeal.MixValue.run m ρ, ?_⟩
  refine (θ_run Cert.ReferenceIdeal.defs _ _).mono (fun _ h c => ⟨(h c).1.trans ?_, (h c).2⟩)
    (Cert.ReferenceIdeal.MixRun.run (F := Ideal) m' ρ')
  rw [Cert.ReferenceIdeal.MixRef.res_eq_G, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
